-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x300 : Shape := ⟨2, ![10000, 300]⟩
abbrev S10000x10000 : Shape := ⟨2, ![10000, 10000]⟩
abbrev S300x300 : Shape := ⟨2, ![300, 300]⟩
abbrev S300 : Shape := ⟨1, ![300]⟩
abbrev S_ : Shape := ⟨0, ![]⟩

class Facts : Prop where
  bcast_S_S10000x300 : S_.BroadcastsInDim S10000x300 (![] : Fin 0 → Fin S10000x300.rank)
  reducesTo_S10000x300_S_d0_1 : S10000x300.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S300x300 : S_.BroadcastsInDim S300x300 (![] : Fin 0 → Fin S300x300.rank)
  reducesTo_S300x300_S_d0_1 : S300x300.ReducesTo [0, 1] S_
  bcast_S_S300 : S_.BroadcastsInDim S300 (![] : Fin 0 → Fin S300.rank)
  reducesTo_S300_S_d0 : S300.ReducesTo [0] S_

variable [Facts]

def fn_part1 {F : FTy → Type} [FloatOps F] (main_arg4 : FVec F S300x300 .f32) (main_arg5 : FVec F S300 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S300x300 .f32 := Host.absf main_arg4
  let main_cst_6 : FVec F S_ .f32 := constant S_ .f32 0x7F800000#32
  let main_v20 : FVec F S300x300 .f32 := broadcastInDim S300x300 ![] bcast_S_S300x300 main_cst_6
  let main_v21 : IVec S300x300 1 := cmpf .olt main_v19 main_v20
  let main_c_7 : IVec S_ 1 := constantI S_ 1 1#1
  let main_v22 : IVec S_ 1 := (fun x v => Host.reduce IntOp.andi x v reducesTo_S300x300_S_d0_1 h_S_) main_v21 main_c_7
  let main_v23 : IVec S_ 1 := andi main_v18 main_v22
  let main_v24 : FVec F S300 .f32 := Host.absf main_arg5
  let main_cst_8 : FVec F S_ .f32 := constant S_ .f32 0x7F800000#32
  let main_v25 : FVec F S300 .f32 := broadcastInDim S300 ![] bcast_S_S300 main_cst_8
  let main_v26 : IVec S300 1 := cmpf .olt main_v24 main_v25
  let main_c_9 : IVec S_ 1 := constantI S_ 1 1#1
  let main_v27 : IVec S_ 1 := (fun x v => Host.reduce IntOp.andi x v reducesTo_S300_S_d0 h_S_) main_v26 main_c_9
  let main_v28 : IVec S_ 1 := andi main_v23 main_v27
  main_v28

def fn {F : FTy → Type} [FloatOps F] (main_arg0 : FVec F S10000x300 .f32) (main_arg1 : FVec F S10000x10000 .f32) (main_arg2 : FVec F S300x300 .f32) (main_arg3 : FVec F S300 .f32) (main_arg4 : FVec F S300x300 .f32) (main_arg5 : FVec F S300 .f32) : IVec S_ 1 :=
  let main_v0 : FVec F S10000x300 .f32 := Host.absf main_arg0
  let main_cst : FVec F S_ .f32 := constant S_ .f32 0x7F800000#32
  let main_v1 : FVec F S10000x300 .f32 := broadcastInDim S10000x300 ![] bcast_S_S10000x300 main_cst
  let main_v2 : IVec S10000x300 1 := cmpf .olt main_v0 main_v1
  let main_c : IVec S_ 1 := constantI S_ 1 1#1
  let main_v3 : IVec S_ 1 := (fun x v => Host.reduce IntOp.andi x v reducesTo_S10000x300_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S300x300 .f32 := Host.absf main_arg2
  let main_cst_2 : FVec F S_ .f32 := constant S_ .f32 0x7F800000#32
  let main_v10 : FVec F S300x300 .f32 := broadcastInDim S300x300 ![] bcast_S_S300x300 main_cst_2
  let main_v11 : IVec S300x300 1 := cmpf .olt main_v9 main_v10
  let main_c_3 : IVec S_ 1 := constantI S_ 1 1#1
  let main_v12 : IVec S_ 1 := (fun x v => Host.reduce IntOp.andi x v reducesTo_S300x300_S_d0_1 h_S_) main_v11 main_c_3
  let main_v13 : IVec S_ 1 := andi main_v8 main_v12
  let main_v14 : FVec F S300 .f32 := Host.absf main_arg3
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg4 main_arg5 main_v13 main_v16
-- ==== Kernel.lean ====
abbrev S10000x300 : Shape := ⟨2, ![10000, 300]⟩
abbrev S10000x10000 : Shape := ⟨2, ![10000, 10000]⟩
abbrev S300x300 : Shape := ⟨2, ![300, 300]⟩
abbrev S300 : Shape := ⟨1, ![300]⟩
abbrev S1x300 : Shape := ⟨2, ![1, 300]⟩
abbrev S1000x300 : Shape := ⟨2, ![1000, 300]⟩
abbrev S400x10000 : Shape := ⟨2, ![400, 10000]⟩
abbrev S400x300 : Shape := ⟨2, ![400, 300]⟩

abbrev nBuf : Space → Nat
  | .hbm => 11
  | .vmem => 14
  | .smem => 0
  | _ => 0

abbrev bufTy : (tb : Table) → Fin (tcTables nBuf tb) → BufTy
  | .hbm, ⟨0, _⟩ => ⟨S10000x300, .f32⟩
  | .hbm, ⟨1, _⟩ => ⟨S10000x10000, .f32⟩
  | .hbm, ⟨2, _⟩ => ⟨S300x300, .f32⟩
  | .hbm, ⟨3, _⟩ => ⟨S300, .f32⟩
  | .hbm, ⟨4, _⟩ => ⟨S300x300, .f32⟩
  | .hbm, ⟨5, _⟩ => ⟨S300, .f32⟩
  | .hbm, ⟨6, _⟩ => ⟨S1x300, .f32⟩
  | .hbm, ⟨7, _⟩ => ⟨S1x300, .f32⟩
  | .hbm, ⟨8, _⟩ => ⟨S300x300, .bf16⟩
  | .hbm, ⟨9, _⟩ => ⟨S10000x300, .bf16⟩
  | .hbm, ⟨10, _⟩ => ⟨S10000x300, .f32⟩
  | .local _ .vmem, ⟨0, _⟩ => ⟨S1000x300, .f32⟩
  | .local _ .vmem, ⟨1, _⟩ => ⟨S1000x300, .f32⟩
  | .local _ .vmem, ⟨2, _⟩ => ⟨S300x300, .f32⟩
  | .local _ .vmem, ⟨3, _⟩ => ⟨S1000x300, .bf16⟩
  | .local _ .vmem, ⟨4, _⟩ => ⟨S1000x300, .bf16⟩
  | .local _ .vmem, ⟨5, _⟩ => ⟨S400x10000, .f32⟩
  | .local _ .vmem, ⟨6, _⟩ => ⟨S400x10000, .f32⟩
  | .local _ .vmem, ⟨7, _⟩ => ⟨S10000x300, .bf16⟩
  | .local _ .vmem, ⟨8, _⟩ => ⟨S1x300, .f32⟩
  | .local _ .vmem, ⟨9, _⟩ => ⟨S300x300, .bf16⟩
  | .local _ .vmem, ⟨10, _⟩ => ⟨S1x300, .f32⟩
  | .local _ .vmem, ⟨11, _⟩ => ⟨S400x300, .f32⟩
  | .local _ .vmem, ⟨12, _⟩ => ⟨S400x300, .f32⟩
  | .local _ .vmem, ⟨13, _⟩ => ⟨S10000x300, .bf16⟩
  | _, _ => ⟨S10000x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x300 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x300 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 25], ![false, false]⟩

def k1_cond1 (i : grid1.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_1 : BitVec 32 := 0#32
  let v4 : BitVec 1 := Scalar.cmpi .ne v3 c0_i32_1
  v4

def k1_off1 (i : grid1.Coords) : Fin 2 → Nat :=
  let arg1 : BitVec 32 := BitVec.ofNat 32 (i 1).val
  let c400_i32 : BitVec 32 := 400#32
  let v22 : BitVec 32 := Scalar.muli arg1 c400_i32
  let v23 : Index := Scalar.indexCast v22
  let c0_11 : Index := 0#32
  ![v23.toNat, 0]
def k1_cond2 (i : grid1.Coords) : BitVec 1 :=
  let arg0 : BitVec 32 := BitVec.ofNat 32 (i 0).val
  let c1_i32 : BitVec 32 := 1#32
  let v5 : BitVec 1 := Scalar.cmpi .eq arg0 c1_i32
  let v6 : BitVec 32 := Scalar.extui v5
  let c0_i32_2 : BitVec 32 := 0#32
  let v7 : BitVec 1 := Scalar.cmpi .ne v6 c0_i32_2
  v7

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 1 → Memref sig .tc .vmem S10000x300 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S300x300 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x300 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S400x300 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S300_S1x300 : S300.ShapeCasts S1x300
  bitsLt_bf16_f32 : FTy.bits .bf16 < FTy.bits .f32
  inb_S1000x300_S1000x300_0_0 : ∀ a, (![0, 0] : Fin 2 → Nat) a + S1000x300.size a ≤ S1000x300.size a
  h_S1000x300 : 0 < S1000x300.numel
  inb_S300x300_S300x300_0_0 : ∀ a, (![0, 0] : Fin 2 → Nat) a + S300x300.size a ≤ S300x300.size a
  h_S300x300 : 0 < S300x300.numel
  packedbf16_S1000x300_S1000x300_0_0 : (Rect.unit (s := S1000x300) ![0, 0] S1000x300.size inb_S1000x300_S1000x300_0_0).PackedRows (EltTy.packing .bf16)
  inb_S400x10000_S400x10000_0_0 : ∀ a, (![0, 0] : Fin 2 → Nat) a + S400x10000.size a ≤ S400x10000.size a
  h_S400x10000 : 0 < S400x10000.numel
  inb_S10000x300_S10000x300_0_0 : ∀ a, (![0, 0] : Fin 2 → Nat) a + S10000x300.size a ≤ S10000x300.size a
  h_S10000x300 : 0 < S10000x300.numel
  shapeCasts_S10000x300_S10000x300 : S10000x300.ShapeCasts S10000x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S400x300 : S1x300.Broadcasts S400x300
  shapeCasts_S300x300_S300x300 : S300x300.ShapeCasts S300x300
  h_S400x300 : 0 < S400x300.numel
  shapeCasts_S400x300_S400x300 : S400x300.ShapeCasts S400x300
  inb_S400x300_S400x300_0_0 : ∀ a, (![0, 0] : Fin 2 → Nat) a + S400x300.size a ≤ S400x300.size a
  dot_S1000x300_S300x300_S1000x300_1_0_0_1_n_n_wf : DotDims.WF S1000x300 S300x300 S1000x300 [1] [0] [0] [1] [] []
  dot_S400x10000_S10000x300_S400x300_1_0_0_1_n_n_wf : DotDims.WF S400x10000 S10000x300 S400x300 [1] [0] [0] [1] [] []
  dot_S400x300_S300x300_S400x300_1_0_0_1_n_n_wf : DotDims.WF S400x300 S300x300 S400x300 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x300.size a ≤ S10000x300.size a
  hwx0_0 : ∀ i : grid0.Coords, EltTy.bits .f32 = 32 ∨ (Rect.block (s := S10000x300) S1000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x300.size a ≤ S300x300.size a
  hwx0_1 : ∀ i : grid0.Coords, EltTy.bits .f32 = 32 ∨ (Rect.block (s := S300x300) S300x300.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x300.size a ≤ S10000x300.size a
  hwx0_2 : ∀ i : grid0.Coords, EltTy.bits .bf16 = 32 ∨ (Rect.block (s := S10000x300) S1000x300.size (cc0_transform_2 i) (hinb0_2 i)).WholeWords (EltTy.packing .bf16)
  hrank1 : 0 < grid1.rank
  k1_off1_inb : ∀ i : grid1.Coords, ∀ (k1_h1 : k1_cond1 i = 1#1), ∀ a, (k1_off1 i) a + S400x300.size a ≤ S10000x300.size a
  k1_off1_packedbf16 : ∀ i : grid1.Coords, ∀ (k1_h1 : k1_cond1 i = 1#1), (Rect.unit (s := S10000x300) (k1_off1 i) S400x300.size (k1_off1_inb i k1_h1)).PackedRows (EltTy.packing .bf16)
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x300.size a ≤ S10000x300.size a
  hwx1_1 : ∀ i : grid1.Coords, EltTy.bits .bf16 = 32 ∨ (Rect.block (s := S10000x300) S10000x300.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x300.size a ≤ S1x300.size a
  hwx1_2 : ∀ i : grid1.Coords, EltTy.bits .f32 = 32 ∨ (Rect.block (s := S1x300) S1x300.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S300x300.size a ≤ S300x300.size a
  hwx1_3 : ∀ i : grid1.Coords, EltTy.bits .bf16 = 32 ∨ (Rect.block (s := S300x300) S300x300.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x300.size a ≤ S1x300.size a
  hwx1_4 : ∀ i : grid1.Coords, EltTy.bits .f32 = 32 ∨ (Rect.block (s := S1x300) S1x300.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x300.size a ≤ S10000x300.size a
  hwx1_5 : ∀ i : grid1.Coords, EltTy.bits .f32 = 32 ∨ (Rect.block (s := S10000x300) S400x300.size (cc1_transform_5 i) (hinb1_5 i)).WholeWords (EltTy.packing .f32)

variable [Facts₀]

def dot_S1000x300_S300x300_S1000x300_1_0_0_1_n_n : DotDims S1000x300 S300x300 S1000x300 where
  lhsContracting := [1]
  rhsContracting := [0]
  lhsNonContracting := [0]
  rhsNonContracting := [1]
  lhsBatch := []
  rhsBatch := []
  wf := dot_S1000x300_S300x300_S1000x300_1_0_0_1_n_n_wf
def dot_S400x10000_S10000x300_S400x300_1_0_0_1_n_n : DotDims S400x10000 S10000x300 S400x300 where
  lhsContracting := [1]
  rhsContracting := [0]
  lhsNonContracting := [0]
  rhsNonContracting := [1]
  lhsBatch := []
  rhsBatch := []
  wf := dot_S400x10000_S10000x300_S400x300_1_0_0_1_n_n_wf
def dot_S400x300_S300x300_S400x300_1_0_0_1_n_n : DotDims S400x300 S300x300 S400x300 where
  lhsContracting := [1]
  rhsContracting := [0]
  lhsNonContracting := [0]
  rhsNonContracting := [1]
  lhsBatch := []
  rhsBatch := []
  wf := dot_S400x300_S300x300_S400x300_1_0_0_1_n_n_wf

abbrev win0_0 : Pipeline.Window sig grid0 :=
  Pipeline.Window.ofSpec (Memref.whole main_arg0) S1000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S300x300.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1000x300.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S10000x300.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S300x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x300.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v4) S400x300.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S10000x300 : Shape := ⟨2, ![10000, 300]⟩
abbrev S10000x10000 : Shape := ⟨2, ![10000, 10000]⟩
abbrev S300x300 : Shape := ⟨2, ![300, 300]⟩
abbrev S300 : Shape := ⟨1, ![300]⟩
abbrev S1x300 : Shape := ⟨2, ![1, 300]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x300, .f32⟩
  | .hbm, ⟨1, _⟩ => ⟨S10000x10000, .f32⟩
  | .hbm, ⟨2, _⟩ => ⟨S300x300, .f32⟩
  | .hbm, ⟨3, _⟩ => ⟨S300, .f32⟩
  | .hbm, ⟨4, _⟩ => ⟨S300x300, .f32⟩
  | .hbm, ⟨5, _⟩ => ⟨S300, .f32⟩
  | .hbm, ⟨6, _⟩ => ⟨S10000x300, .f32⟩
  | .hbm, ⟨7, _⟩ => ⟨S10000x300, .f32⟩
  | .hbm, ⟨8, _⟩ => ⟨S1x300, .f32⟩
  | .hbm, ⟨9, _⟩ => ⟨S10000x300, .f32⟩
  | .hbm, ⟨10, _⟩ => ⟨S10000x300, .f32⟩
  | .hbm, ⟨11, _⟩ => ⟨S_, .f32⟩
  | .hbm, ⟨12, _⟩ => ⟨S10000x300, .f32⟩
  | .hbm, ⟨13, _⟩ => ⟨S10000x300, .f32⟩
  | .hbm, ⟨14, _⟩ => ⟨S10000x300, .f32⟩
  | .hbm, ⟨15, _⟩ => ⟨S10000x300, .f32⟩
  | .hbm, ⟨16, _⟩ => ⟨S1x300, .f32⟩
  | .hbm, ⟨17, _⟩ => ⟨S10000x300, .f32⟩
  | .hbm, ⟨18, _⟩ => ⟨S10000x300, .f32⟩
  | _, _ => ⟨S10000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S300_S1x300_1 : S300.BroadcastsInDim S1x300 (![1] : Fin 1 → Fin S1x300.rank)
  bcast_S1x300_S10000x300_0_1 : S1x300.BroadcastsInDim S10000x300 (![0, 1] : Fin 2 → Fin S10000x300.rank)
  bcast_S_S10000x300 : S_.BroadcastsInDim S10000x300 (![] : Fin 0 → Fin S10000x300.rank)
  dot_S10000x300_S300x300_S10000x300_1_0_0_1_n_n_wf : DotDims.WF S10000x300 S300x300 S10000x300 [1] [0] [0] [1] [] []
  dot_S10000x10000_S10000x300_S10000x300_1_0_0_1_n_n_wf : DotDims.WF S10000x10000 S10000x300 S10000x300 [1] [0] [0] [1] [] []

variable [Facts₀]

def dot_S10000x300_S300x300_S10000x300_1_0_0_1_n_n : DotDims S10000x300 S300x300 S10000x300 where
  lhsContracting := [1]
  rhsContracting := [0]
  lhsNonContracting := [0]
  rhsNonContracting := [1]
  lhsBatch := []
  rhsBatch := []
  wf := dot_S10000x300_S300x300_S10000x300_1_0_0_1_n_n_wf
def dot_S10000x10000_S10000x300_S10000x300_1_0_0_1_n_n : DotDims S10000x10000 S10000x300 S10000x300 where
  lhsContracting := [1]
  rhsContracting := [0]
  lhsNonContracting := [0]
  rhsNonContracting := [1]
  lhsBatch := []
  rhsBatch := []
  wf := dot_S10000x10000_S10000x300_S10000x300_1_0_0_1_n_n_wf

class Facts : Prop extends Facts₀ where

variable [Facts]
-- ==== Proof.RegionSupportK.lean ====
/-
  The first pallas_call (the support product): on each of its 10 grid points the body loads a block of
  1000 rows of `x` and the whole `W1`, multiplies them and stores the product, rounded to the narrower
  format, over the whole output block. This module states, at any float instance and at a parameter `V`
  (what the buffers hold when the call is entered): each window's block at a point, what the body leaves
  in the output's staging buffer (one store covering it), the body's triple, the proof data of the call's
  pipeline and the body obligation at every point.
-/
import proofs.«125996_g10651518894447_week1_w2_746_19_alg».proof.Proof.Gen.Kernel.Launch
import proofs.«125996_g10651518894447_week1_w2_746_19_alg».proof.Proof.Gen.Kernel.Skeleton
import proofs.«125996_g10651518894447_week1_w2_746_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def sblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of `x` are in the staging buffer at every point: fetched there. -/
theorem sbefore_x_of {c : Dev nD} (dat : Dat τ (Elt F) Unit ℕ (UR sig nD τ) ℕ cfg0 c) (hA : dat.A 0 = V c (Pipeline.arrRef spec0 0))
    (hafter : ∀ t, dat.after 0 t = sblk V c 0 t) (t : Fin cfg0.N) (d) : dat.before 0 t d = sblk V c 0 t :=
  (dat.before_in_eq_fetched 0 rfl (fun _ => rfl) (fun _ _ _ => rfl) (fun t => by rw [hafter]; unfold Dat.blockOf sblk; rw [hA]; try rfl) t d).trans
    (by unfold Dat.fetched Dat.blockOf sblk; rw [hA]; try rfl)

/-- `W1` is in its staging buffer at every point: fetched at the first, its block index constant after. -/
theorem sbefore_w_of {c : Dev nD} (dat : Dat τ (Elt F) Unit ℕ (UR sig nD τ) ℕ cfg0 c) (hA : dat.A 1 = V c (Pipeline.arrRef spec0 1))
    (hafter : ∀ t, dat.after 1 t = sblk V c 1 t) (t : Fin cfg0.N) (d) : dat.before 1 t d = sblk V c 1 t :=
  (dat.before_in_eq_fetched 1 rfl (fun _ => rfl) (fun _ _ _ => rfl) (fun t => by rw [hafter]; unfold Dat.blockOf sblk; rw [hA]; try rfl) t d).trans
    (by unfold Dat.fetched Dat.blockOf sblk; rw [hA]; try rfl)

/-! ## The body's accesses and what it leaves -/

abbrev rX : Rect S1000x300 := Rect.unit (s := S1000x300) ![0, 0] S1000x300.size Facts₀.inb_S1000x300_S1000x300_0_0
abbrev rW1 : Rect S300x300 := Rect.unit (s := S300x300) ![0, 0] S300x300.size Facts₀.inb_S300x300_S300x300_0_0

/-- The output block after the body: its one store, of the product of the two loaded blocks. -/
def supOut (x0 : Vec F S1000x300 .f32) (x1 : Vec F S300x300 .f32) : Vec F S1000x300 .bf16 :=
  View.canon [⟨rX, k0_pay1 (View.ld x0 rX) (View.ld x1 rW1)⟩]

/-- The store covers the block. -/
theorem supCover (p0 : Vec F S1000x300 .bf16) (y : S1000x300.Idx) :
    ∃ pc ∈ ([⟨rX, p0⟩] : List (View.Piece (Elt F) S1000x300 .bf16)), y ∈ pc.1.set :=
  View.cover_of_tiled [⟨rX, p0⟩] S1000x300.size (by rfl) y

/-! ## The body's triple -/

set_option maxHeartbeats 1000000 in
/-- On whole staging memrefs, the two inputs at contents `x0`, `x1` and the output at anything, the body runs to
    the continuation holding the inputs as they were and the output at `supOut x0 x1`. -/
theorem sound_support (c : Dev nD) (E : Set ℕ) (i : grid0.Coords)
    (arg1 : Memref sig .tc .vmem S1000x300 .f32) (harg1 : arg1.IsWhole)
    (arg2 : Memref sig .tc .vmem S300x300 .f32) (harg2 : arg2.IsWhole)
    (arg3 : Memref sig .tc .vmem S1000x300 .bf16) (harg3 : arg3.IsWhole)
    (x0 : Vec F S1000x300 .f32) (x1 : Vec F S300x300 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (supOut x0 x1)) -∗ K ⟨⟩))
      ⊢ wp frame (wpE (defs₀ (F := F)) Variants.none c none) E (cc0__support_kernel i arg1 harg1 arg2 harg2 arg3 harg3) K := by
  simp only [cc0__support_kernel_eq_skeleton]; unfold cc0__support_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (supCover _)

/-! ## The pipeline's proof data -/

/-- The proof data of the first call on core `c`: the arrays as the call finds them; after the body at point `t`
    each input's buffer at its block and the output's at the product of the input blocks; the invariant the scoped rest
    and the generator register, untouched; nothing owed; full shares. -/
def sdat (c : Dev nD) : Dat τ (Elt F) Unit ℕ (UR sig nD τ) ℕ cfg0 c where
  A w := V c (Pipeline.arrRef spec0 w)
  after w t := match w with
    | ⟨0, _⟩ => sblk V c 0 t
    | ⟨1, _⟩ => sblk V c 1 t
    | ⟨2, _⟩ => supOut (sblk V c 0 t) (sblk V c 1 t)
  Φ _ := Pipeline.ΦA spec0 c
  q _ := fullShare
  owed _ := 0

theorem sA_eq (c : Dev nD) (w : Fin cfg0.W) : (sdat V c).A w = V c (Pipeline.arrRef spec0 w) := by
  dsimp only [sdat]

theorem safter_x (c : Dev nD) (t : Fin cfg0.N) : (sdat V c).after 0 t = sblk V c 0 t := by dsimp only [sdat]
theorem safter_w (c : Dev nD) (t : Fin cfg0.N) : (sdat V c).after 1 t = sblk V c 1 t := by dsimp only [sdat]
theorem safter_out (c : Dev nD) (t : Fin cfg0.N) : (sdat V c).after 2 t = supOut (sblk V c 0 t) (sblk V c 1 t) := by dsimp only [sdat]

theorem sbefore_x (c : Dev nD) (t : Fin cfg0.N) (d) : (sdat V c).before 0 t d = sblk V c 0 t :=
  sbefore_x_of V (sdat V c) (sA_eq V c 0) (safter_x V c) t d
theorem sbefore_w (c : Dev nD) (t : Fin cfg0.N) (d) : (sdat V c).before 1 t d = sblk V c 1 t :=
  sbefore_w_of V (sdat V c) (sA_eq V c 1) (safter_w V c) t d

/-! ## The body obligation -/

def sPre (c : Dev nD) (t : Fin cfg0.N) : sProp 𝕄 :=
  iprop((sdat V c).Φ t.castSucc ∗ (sdat V c).owesAt () t.castSucc
    ∗ (∃ d, owns (c : Thread nD τ) (st0_0 t) fullShare ((sdat V c).before 0 t d))
    ∗ (∃ d, owns (c : Thread nD τ) (st0_1 t) fullShare ((sdat V c).before 1 t d))
    ∗ (∃ d, owns (c : Thread nD τ) (st0_2 t) fullShare ((sdat V c).before 2 t d)))

def sPost (c : Dev nD) (t : Fin cfg0.N) : sProp 𝕄 :=
  iprop((sdat V c).Φ t.succ ∗ (sdat V c).owesAt () t.succ
    ∗ owns (c : Thread nD τ) (st0_0 t) fullShare ((sdat V c).after 0 t)
    ∗ owns (c : Thread nD τ) (st0_1 t) fullShare ((sdat V c).after 1 t)
    ∗ owns (c : Thread nD τ) (st0_2 t) fullShare ((sdat V c).after 2 t))

theorem sound_sbody (c : Dev nD) (t : Fin cfg0.N) :
    sPre V c t ⊢ wp frame (wpE (defs₀ (F := F)) Variants.none c none) Set.univ (bodyAt0 t) (fun _ => sPost V c t) := by
  unfold sPre sPost bodyAt0
  simp only [sbefore_x, sbefore_w]
  rw [show (sdat V c).Φ t.succ = (sdat V c).Φ t.castSucc from rfl,
    show (sdat V c).owesAt () t.succ = (sdat V c).owesAt () t.castSucc from rfl,
    safter_x, safter_w, safter_out]
  iintro ⟨HΦ, Ho, ⟨%d0, H0⟩, ⟨%d1, H1⟩, ⟨%d2, H2⟩⟩
  iapply (sound_support c Set.univ _ _ _ _ _ _ _ (sblk V c 0 t) (sblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem sbody_obligation (c : Dev nD) : BodyObligation (sdat (F := F) V c) (defs₀ (F := F)) Variants.none () Set.univ := fun t => by
  rw [bigSep_W0, bigSep_W0]
  exact sound_sbody V c t

end Cert.Kernel.Hand

end
-- ==== Proof.RegionFusedK.lean ====
/-
  The second pallas_call (the fused two layers) on its grid of 2 × 25 points. At the 25 points of the first
  layer the body multiplies a block of 400 rows of `adj` by the first support, adds the bias, rectifies,
  multiplies by `W2` and stores the 400 rows it gets into the scratch at the rows of the block; the output
  window is idle there. At the 25 points of the second layer it multiplies the block of `adj` by the WHOLE
  scratch, adds the second bias and stores the output block. This module states, at any float instance and at
  a parameter `V` (what the buffers hold when the call is entered): the blocks; the closed forms of the two
  conditions and of the slice's offset; the scratch's final contents as one function of its index (row `r`
  holds what the point `r / 400` stored at row `r % 400`); the invariant "the first `400 k` rows of the
  scratch hold that function" before point `k`; the two cases' triples; the proof data and the obligation.
-/
import proofs.«125996_g10651518894447_week1_w2_746_19_alg».proof.Proof.Gen.Kernel.Launch
import proofs.«125996_g10651518894447_week1_w2_746_19_alg».proof.Proof.Gen.Kernel.Skeleton
import proofs.«125996_g10651518894447_week1_w2_746_19_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def fblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem fbefore0_of {c : Dev nD} (dat : Dat τ (Elt F) Unit ℕ (UR sig nD τ) ℕ cfg1 c) (hA : dat.A 0 = V c (Pipeline.arrRef spec1 0))
    (hafter : ∀ t, dat.after 0 t = fblk V c 0 t) (t : Fin cfg1.N) (d) : dat.before 0 t d = fblk V c 0 t :=
  (dat.before_in_eq_fetched 0 rfl (fun _ => rfl) (fun _ _ _ => rfl) (fun t => by rw [hafter]; unfold Dat.blockOf fblk; rw [hA]; try rfl) t d).trans
    (by unfold Dat.fetched Dat.blockOf fblk; rw [hA]; try rfl)

theorem fbefore1_of {c : Dev nD} (dat : Dat τ (Elt F) Unit ℕ (UR sig nD τ) ℕ cfg1 c) (hA : dat.A 1 = V c (Pipeline.arrRef spec1 1))
    (hafter : ∀ t, dat.after 1 t = fblk V c 1 t) (t : Fin cfg1.N) (d) : dat.before 1 t d = fblk V c 1 t :=
  (dat.before_in_eq_fetched 1 rfl (fun _ => rfl) (fun _ _ _ => rfl) (fun t => by rw [hafter]; unfold Dat.blockOf fblk; rw [hA]; try rfl) t d).trans
    (by unfold Dat.fetched Dat.blockOf fblk; rw [hA]; try rfl)

theorem fbefore2_of {c : Dev nD} (dat : Dat τ (Elt F) Unit ℕ (UR sig nD τ) ℕ cfg1 c) (hA : dat.A 2 = V c (Pipeline.arrRef spec1 2))
    (hafter : ∀ t, dat.after 2 t = fblk V c 2 t) (t : Fin cfg1.N) (d) : dat.before 2 t d = fblk V c 2 t :=
  (dat.before_in_eq_fetched 2 rfl (fun _ => rfl) (fun _ _ _ => rfl) (fun t => by rw [hafter]; unfold Dat.blockOf fblk; rw [hA]; try rfl) t d).trans
    (by unfold Dat.fetched Dat.blockOf fblk; rw [hA]; try rfl)

theorem fbefore3_of {c : Dev nD} (dat : Dat τ (Elt F) Unit ℕ (UR sig nD τ) ℕ cfg1 c) (hA : dat.A 3 = V c (Pipeline.arrRef spec1 3))
    (hafter : ∀ t, dat.after 3 t = fblk V c 3 t) (t : Fin cfg1.N) (d) : dat.before 3 t d = fblk V c 3 t :=
  (dat.before_in_eq_fetched 3 rfl (fun _ => rfl) (fun _ _ _ => rfl) (fun t => by rw [hafter]; unfold Dat.blockOf fblk; rw [hA]; try rfl) t d).trans
    (by unfold Dat.fetched Dat.blockOf fblk; rw [hA]; try rfl)

theorem fbefore4_of {c : Dev nD} (dat : Dat τ (Elt F) Unit ℕ (UR sig nD τ) ℕ cfg1 c) (hA : dat.A 4 = V c (Pipeline.arrRef spec1 4))
    (hafter : ∀ t, dat.after 4 t = fblk V c 4 t) (t : Fin cfg1.N) (d) : dat.before 4 t d = fblk V c 4 t :=
  (dat.before_in_eq_fetched 4 rfl (fun _ => rfl) (fun _ _ _ => rfl) (fun t => by rw [hafter]; unfold Dat.blockOf fblk; rw [hA]; try rfl) t d).trans
    (by unfold Dat.fetched Dat.blockOf fblk; rw [hA]; try rfl)

/-! ## The conditions, the slice's offset and the idle points, in closed form over the grid -/

/-- The first layer's branch is taken at the first 25 points. -/
theorem hcondA : ∀ t : Fin cfg1.N, k1_cond1 (grid1.coords t) = 1#1 ↔ t.val < 25 :=
  (by decide +kernel : ∀ t : Fin grid1.N, k1_cond1 (grid1.coords t) = 1#1 ↔ t.val < 25)
/-- The second layer's branch is taken at the last 25. -/
theorem hcondB : ∀ t : Fin cfg1.N, k1_cond2 (grid1.coords t) = 1#1 ↔ 25 ≤ t.val :=
  (by decide +kernel : ∀ t : Fin grid1.N, k1_cond2 (grid1.coords t) = 1#1 ↔ 25 ≤ t.val)
/-- At point `t` of the first layer the slice starts at row `400 t`. -/
theorem hoffA : ∀ t : Fin cfg1.N, t.val < 25 → k1_off1 (grid1.coords t) = ![400 * t.val, 0] :=
  (by decide +kernel : ∀ t : Fin grid1.N, t.val < 25 → k1_off1 (grid1.coords t) = ![400 * t.val, 0])

theorem flive0 : ∀ t : Fin cfg1.N, cfg1.idle 0 (grid1.coords t) = false := by decide +kernel
theorem flive1 : ∀ t : Fin cfg1.N, cfg1.idle 1 (grid1.coords t) = false := by decide +kernel
theorem flive2 : ∀ t : Fin cfg1.N, cfg1.idle 2 (grid1.coords t) = false := by decide +kernel
theorem flive3 : ∀ t : Fin cfg1.N, cfg1.idle 3 (grid1.coords t) = false := by decide +kernel
theorem flive4 : ∀ t : Fin cfg1.N, cfg1.idle 4 (grid1.coords t) = false := by decide +kernel
theorem idleOutA : ∀ t : Fin cfg1.N, t.val < 25 → cfg1.idle 5 (grid1.coords t) = true := by decide +kernel
theorem noFlushOutA : ∀ t : Fin cfg1.N, t.val < 25 → (cfg1.win 5).flush t = false := by decide +kernel
theorem liveOutB : ∀ t : Fin cfg1.N, 25 ≤ t.val → cfg1.idle 5 (grid1.coords t) = false := by decide +kernel

/-! ## The body's accesses -/

abbrev rAdj : Rect S400x10000 := Rect.unit (s := S400x10000) ![0, 0] S400x10000.size Facts₀.inb_S400x10000_S400x10000_0_0
abbrev rSup : Rect S10000x300 := Rect.unit (s := S10000x300) ![0, 0] S10000x300.size Facts₀.inb_S10000x300_S10000x300_0_0
abbrev rBias : Rect S1x300 := Rect.unit (s := S1x300) ![0, 0] S1x300.size Facts₀.inb_S1x300_S1x300_0_0
abbrev rW2 : Rect S300x300 := Rect.unit (s := S300x300) ![0, 0] S300x300.size Facts₀.inb_S300x300_S300x300_0_0
abbrev rOut : Rect S400x300 := Rect.unit (s := S400x300) ![0, 0] S400x300.size Facts₀.inb_S400x300_S400x300_0_0
/-- The 400 rows of the scratch that a first-layer point stores. -/
abbrev rSlice (i : grid1.Coords) (h : k1_cond1 i = 1#1) : Rect S10000x300 :=
  Rect.unit (s := S10000x300) (k1_off1 i) S400x300.size (Facts₀.k1_off1_inb i h)

/-- The scratch, a whole scoped buffer of the kernel's own. -/
abbrev scM : Memref sig .tc .vmem S10000x300 .bf16 := Memref.whole cc1_scratch0
theorem hscM : (scM : Memref sig .tc .vmem S10000x300 .bf16).IsWhole := Memref.isWhole_whole _

/-! ## What the two cases leave -/

/-- The scratch after a first-layer point: its 400 rows written over what it held. -/
def scrStep (i : grid1.Coords) (h : k1_cond1 i = 1#1) (x0 : Vec F S400x10000 .f32) (x1 : Vec F S10000x300 .bf16)
    (x2 : Vec F S1x300 .f32) (x3 : Vec F S300x300 .bf16) (xs : Vec F S10000x300 .bf16) : Vec F S10000x300 .bf16 :=
  scM.view.read (Elt F) (scM.view.writes (Elt F) (hscM.unread xs)
    [⟨rSlice i h, k1_pay2 (View.ld x0 rAdj) (View.ld x1 rSup) (View.ld x2 rBias) (View.ld x3 rW2)⟩])

/-- The output block after a second-layer point: its one store. -/
def fusedOut (x0 : Vec F S400x10000 .f32) (xs : Vec F S10000x300 .bf16) (x4 : Vec F S1x300 .f32) : Vec F S400x300 .f32 :=
  View.canon [⟨rOut, k1_pay3 (View.ld x0 rAdj) (View.ld xs rSup) (View.ld x4 rBias)⟩]

theorem fusedCover (p0 : Vec F S400x300 .f32) (y : S400x300.Idx) :
    ∃ pc ∈ ([⟨rOut, p0⟩] : List (View.Piece (Elt F) S400x300 .f32)), y ∈ pc.1.set :=
  View.cover_of_tiled [⟨rOut, p0⟩] S400x300.size (by rfl) y

/-! ## The body's triples, one per case -/

set_option maxHeartbeats 2000000 in
/-- FIRST LAYER (the first branch taken, the second not): the five inputs and the output buffer come back as they were,
    the scratch with the point's 400 rows written. -/
theorem sound_fusedA (c : Dev nD) (E : Set ℕ) (i : grid1.Coords) (h1 : k1_cond1 i = 1#1) (h2 : ¬k1_cond2 i = 1#1)
    (arg2 : Memref sig .tc .vmem S400x10000 .f32) (harg2 : arg2.IsWhole)
    (arg3 : Memref sig .tc .vmem S10000x300 .bf16) (harg3 : arg3.IsWhole)
    (arg4 : Memref sig .tc .vmem S1x300 .f32) (harg4 : arg4.IsWhole)
    (arg5 : Memref sig .tc .vmem S300x300 .bf16) (harg5 : arg5.IsWhole)
    (arg6 : Memref sig .tc .vmem S1x300 .f32) (harg6 : arg6.IsWhole)
    (arg7 : Memref sig .tc .vmem S400x300 .f32) (harg7 : arg7.IsWhole)
    (x0 : Vec F S400x10000 .f32) (x1 : Vec F S10000x300 .bf16) (x2 : Vec F S1x300 .f32) (x3 : Vec F S300x300 .bf16)
    (x4 : Vec F S1x300 .f32) (xo : Vec F S400x300 .f32) (xs : Vec F S10000x300 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) scM fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xo
            ∗ owns (c : Thread nD τ) scM fullShare (scrStep i h1 x0 x1 x2 x3 xs)) -∗ K ⟨⟩))
      ⊢ wp frame (wpE (defs₀ (F := F)) Variants.none c none) E
          (cc1__fused_kernel i arg2 harg2 arg3 harg3 arg4 harg4 arg5 harg5 arg6 harg6 arg7 harg7 scM (Memref.isWhole_whole _)) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0; subst hf1; subst hf2; subst hf3; subst hf4; subst hf5; subst hfs
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HS
  ipureintro
  unfold scrStep
  rw [Memref.IsWhole.unread_read]
  rfl

set_option maxHeartbeats 2000000 in
/-- SECOND LAYER (the first branch not taken, the second taken): the five inputs and the scratch come back as they were,
    the output buffer at `fusedOut` of the block of `adj`, the scratch and the second bias. -/
theorem sound_fusedB (c : Dev nD) (E : Set ℕ) (i : grid1.Coords) (h1 : ¬k1_cond1 i = 1#1) (h2 : k1_cond2 i = 1#1)
    (arg2 : Memref sig .tc .vmem S400x10000 .f32) (harg2 : arg2.IsWhole)
    (arg3 : Memref sig .tc .vmem S10000x300 .bf16) (harg3 : arg3.IsWhole)
    (arg4 : Memref sig .tc .vmem S1x300 .f32) (harg4 : arg4.IsWhole)
    (arg5 : Memref sig .tc .vmem S300x300 .bf16) (harg5 : arg5.IsWhole)
    (arg6 : Memref sig .tc .vmem S1x300 .f32) (harg6 : arg6.IsWhole)
    (arg7 : Memref sig .tc .vmem S400x300 .f32) (harg7 : arg7.IsWhole)
    (x0 : Vec F S400x10000 .f32) (x1 : Vec F S10000x300 .bf16) (x2 : Vec F S1x300 .f32) (x3 : Vec F S300x300 .bf16)
    (x4 : Vec F S1x300 .f32) (xs : Vec F S10000x300 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) scM fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (fusedOut x0 xs x4)
            ∗ owns (c : Thread nD τ) scM fullShare xs) -∗ K ⟨⟩))
      ⊢ wp frame (wpE (defs₀ (F := F)) Variants.none c none) E
          (cc1__fused_kernel i arg2 harg2 arg3 harg3 arg4 harg4 arg5 harg5 arg6 harg6 arg7 harg7 scM (Memref.isWhole_whole _)) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (fusedCover _)
  iexists fs; isplitr; · ipureintro; rfl
  iexact HS

/-! ## The scratch's final contents, and the invariant -/

/-- The first-layer point that stores row `y 0` of the scratch. -/
def rowPt (y : S10000x300.Idx) : Fin cfg1.N :=
  ⟨(y 0).val / 400, by
    have h : (y 0).val < 10000 := (y 0).isLt
    have hN : cfg1.N = 50 := N_1
    omega⟩

/-- Where row `y 0`, column `y 1` sits in that point's 400 rows. -/
def rowLoc (y : S10000x300.Idx) : S400x300.Idx :=
  ValueIdx.ix2 (⟨(y 0).val % 400, Nat.mod_lt _ (by decide)⟩ : Fin 400) (⟨(y 1).val, (y 1).isLt⟩ : Fin 300)

/-- What the first-layer point `t` stores: the payload of its four input blocks. -/
def pay2At (c : Dev nD) (t : Fin cfg1.N) : Vec F S400x300 .bf16 :=
  k1_pay2 (View.ld (fblk V c 0 t : Vec F S400x10000 .f32) rAdj) (View.ld (fblk V c 1 t : Vec F S10000x300 .bf16) rSup)
    (View.ld (fblk V c 2 t : Vec F S1x300 .f32) rBias) (View.ld (fblk V c 3 t : Vec F S300x300 .bf16) rW2)

/-- The scratch once the first layer is done, as one function of its index. -/
def scrFull (c : Dev nD) : Vec F S10000x300 .bf16 := fun y => pay2At V c (rowPt y) (rowLoc y)

/-- The first `400 k` rows of `v` hold the final contents. -/
def ScrOK (c : Dev nD) (k : ℕ) (v : Vec F S10000x300 .bf16) : Prop :=
  ∀ y : S10000x300.Idx, (y 0).val < 400 * k → v y = scrFull V c y

theorem ScrOK_zero (c : Dev nD) (v : Vec F S10000x300 .bf16) : ScrOK V c 0 v := fun y h => by omega

/-- Once every row is covered the contents are the final ones, and one more point changes nothing. -/
theorem ScrOK_full (c : Dev nD) (k : ℕ) (hk : 25 ≤ k) (v : Vec F S10000x300 .bf16) (h : ScrOK V c k v) : v = scrFull V c :=
  funext fun y => h y (by have hy : (y 0).val < 10000 := (y 0).isLt; omega)

theorem ScrOK_succ_of_full (c : Dev nD) (k : ℕ) (hk : 25 ≤ k) (v : Vec F S10000x300 .bf16) (h : ScrOK V c k v) : ScrOK V c (k + 1) v :=
  fun y _ => h y (by have hy : (y 0).val < 10000 := (y 0).isLt; omega)

/-- A first-layer point extends the rows that hold the final contents by its 400. -/
theorem ScrOK_step (c : Dev nD) (t : Fin cfg1.N) (ht : t.val < 25) (h1 : k1_cond1 (grid1.coords t) = 1#1)
    (xs : Vec F S10000x300 .bf16) (h : ScrOK V c t.val xs) :
    ScrOK V c (t.val + 1) (scrStep (grid1.coords t) h1 (fblk V c 0 t) (fblk V c 1 t) (fblk V c 2 t) (fblk V c 3 t) xs) := by
  intro y hy
  unfold scrStep
  by_cases hlt : (y 0).val < 400 * t.val
  · rw [View.read_writes_cons_rows_of_not_mem (o := 400 * t.val) (W := 400) scM.view _ _ _ _ y (hoffA t ht) rfl (Or.inl hlt)]
    rw [View.writes_nil, Memref.IsWhole.read_unread]
    exact h y hlt
  · have key := View.read_writes_cons_rows_of_mem (d := ![10000, 300]) (Val := Elt F) (e := .bf16) scM.view (hscM.unread xs)
      (off := k1_off1 (grid1.coords t)) (size := S400x300.size) (o := 400 * t.val)
      (Facts₀.k1_off1_inb (grid1.coords t) h1)
      (k1_pay2 (View.ld (fblk V c 0 t : Vec F S400x10000 .f32) rAdj) (View.ld (fblk V c 1 t : Vec F S10000x300 .bf16) rSup)
        (View.ld (fblk V c 2 t : Vec F S1x300 .f32) rBias) (View.ld (fblk V c 3 t : Vec F S300x300 .bf16) rW2))
      [] y (rowLoc y) (hoffA t ht)
      (by show (y 0).val = 400 * t.val + (y 0).val % 400; omega) (by rfl)
    refine key.trans ?_
    have hp : rowPt y = t := Fin.ext (by show (y 0).val / 400 = t.val; omega)
    unfold scrFull pay2At
    rw [hp]

/-- The scratch held whole at contents `f` is the scratch owned at `f`, and back. -/
theorem scr_owns_of (c : Dev nD) (f : Buf (Elt F) ((c : Thread nD τ).loc cc1_scratch0)) :
    ((((c : Thread nD τ).loc cc1_scratch0) ↦{fullShare} f) : sProp 𝕄) ⊢ owns (c : Thread nD τ) scM fullShare f := by
  rw [owns_whole]
theorem scr_of_owns (c : Dev nD) (f : Buf (Elt F) ((c : Thread nD τ).loc cc1_scratch0)) :
    (owns (c : Thread nD τ) scM fullShare f : sProp 𝕄) ⊢ (((c : Thread nD τ).loc cc1_scratch0) ↦{fullShare} f) := by
  rw [owns_whole]

/-- The scoped buffers of the core that this call neither stages nor names: the first call's staging buffers. -/
def Others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The invariant before point `k`: those buffers at anything, the scratch with its first `400 k` rows final, the
    generator register at some state. -/
def PhiF (c : Dev nD) (k : ℕ) : sProp 𝕄 :=
  iprop(Others (F := F) c ∗ (∃ v, ⌜ScrOK V c k v⌝ ∗ owns (c : Thread nD τ) scM fullShare v) ∗ (∃ r, prngReg c r))

/-- What the launch hands the call is the invariant before the first point. -/
theorem PhiF_open (c : Dev nD) : (Pipeline.ΦA spec1 c : sProp 𝕄) ⊢ PhiF V c 0 := by
  unfold Pipeline.ΦA PhiF Others; rw [scopedRest1_eq]
  iintro ⟨⟨H0, H1, H2, H3, H4, ⟨%f, HS⟩⟩, Hp⟩
  isplitl [H0 H1 H2 H3 H4]
  · isplitl [H0]; · iexact H0
    isplitl [H1]; · iexact H1
    isplitl [H2]; · iexact H2
    isplitl [H3]; · iexact H3
    iexact H4
  isplitl [HS]
  · iexists f; isplitr; · ipureintro; exact ScrOK_zero V c f
    iapply scr_owns_of; iexact HS
  iexact Hp

/-- At any point the invariant gives back what the launch handed over: the scratch's contents are forgotten. -/
theorem PhiF_close (c : Dev nD) (k : ℕ) : PhiF V c k ⊢ (Pipeline.ΦA spec1 c : sProp 𝕄) := by
  unfold Pipeline.ΦA PhiF Others; rw [scopedRest1_eq]
  iintro ⟨⟨H0, H1, H2, H3, H4⟩, ⟨%v, -, HS⟩, Hp⟩
  isplitr [Hp]
  · isplitl [H0]; · iexact H0
    isplitl [H1]; · iexact H1
    isplitl [H2]; · iexact H2
    isplitl [H3]; · iexact H3
    isplitl [H4]; · iexact H4
    iexists v; iapply scr_of_owns; iexact HS
  iexact Hp

/-! ## The pipeline's proof data -/

/-- The proof data of the second call on core `c`: the arrays as the call finds them; after the body each input's buffer
    at its block, the output's at the second layer's block of the final scratch (read only at the second layer's points:
    at the first layer's the window is idle and not written back); the invariant `PhiF`; nothing owed; full shares. -/
def fdat (c : Dev nD) : Dat τ (Elt F) Unit ℕ (UR sig nD τ) ℕ cfg1 c where
  A w := V c (Pipeline.arrRef spec1 w)
  after w t := match w with
    | ⟨0, _⟩ => fblk V c 0 t
    | ⟨1, _⟩ => fblk V c 1 t
    | ⟨2, _⟩ => fblk V c 2 t
    | ⟨3, _⟩ => fblk V c 3 t
    | ⟨4, _⟩ => fblk V c 4 t
    | ⟨5, _⟩ => fusedOut (fblk V c 0 t) (scrFull V c) (fblk V c 4 t)
  Φ t := PhiF V c t.val
  q _ := fullShare
  owed _ := 0

theorem fA_eq (c : Dev nD) (w : Fin cfg1.W) : (fdat V c).A w = V c (Pipeline.arrRef spec1 w) := by
  dsimp only [fdat]

theorem fafter0 (c : Dev nD) (t : Fin cfg1.N) : (fdat V c).after 0 t = fblk V c 0 t := by dsimp only [fdat]
theorem fafter1 (c : Dev nD) (t : Fin cfg1.N) : (fdat V c).after 1 t = fblk V c 1 t := by dsimp only [fdat]
theorem fafter2 (c : Dev nD) (t : Fin cfg1.N) : (fdat V c).after 2 t = fblk V c 2 t := by dsimp only [fdat]
theorem fafter3 (c : Dev nD) (t : Fin cfg1.N) : (fdat V c).after 3 t = fblk V c 3 t := by dsimp only [fdat]
theorem fafter4 (c : Dev nD) (t : Fin cfg1.N) : (fdat V c).after 4 t = fblk V c 4 t := by dsimp only [fdat]
theorem fafter5 (c : Dev nD) (t : Fin cfg1.N) : (fdat V c).after 5 t = fusedOut (fblk V c 0 t) (scrFull V c) (fblk V c 4 t) := by dsimp only [fdat]

theorem fbefore0 (c : Dev nD) (t : Fin cfg1.N) (d) : (fdat V c).before 0 t d = fblk V c 0 t :=
  fbefore0_of V (fdat V c) (fA_eq V c 0) (fafter0 V c) t d
theorem fbefore1 (c : Dev nD) (t : Fin cfg1.N) (d) : (fdat V c).before 1 t d = fblk V c 1 t :=
  fbefore1_of V (fdat V c) (fA_eq V c 1) (fafter1 V c) t d
theorem fbefore2 (c : Dev nD) (t : Fin cfg1.N) (d) : (fdat V c).before 2 t d = fblk V c 2 t :=
  fbefore2_of V (fdat V c) (fA_eq V c 2) (fafter2 V c) t d
theorem fbefore3 (c : Dev nD) (t : Fin cfg1.N) (d) : (fdat V c).before 3 t d = fblk V c 3 t :=
  fbefore3_of V (fdat V c) (fA_eq V c 3) (fafter3 V c) t d
theorem fbefore4 (c : Dev nD) (t : Fin cfg1.N) (d) : (fdat V c).before 4 t d = fblk V c 4 t :=
  fbefore4_of V (fdat V c) (fA_eq V c 4) (fafter4 V c) t d

/-! ## The body obligation -/

def fPre (c : Dev nD) (t : Fin cfg1.N) : sProp 𝕄 :=
  iprop((fdat V c).Φ t.castSucc ∗ (fdat V c).owesAt () t.castSucc
    ∗ (∃ d, owns (c : Thread nD τ) (st1_0 t) fullShare ((fdat V c).before 0 t d))
    ∗ (∃ d, owns (c : Thread nD τ) (st1_1 t) fullShare ((fdat V c).before 1 t d))
    ∗ (∃ d, owns (c : Thread nD τ) (st1_2 t) fullShare ((fdat V c).before 2 t d))
    ∗ (∃ d, owns (c : Thread nD τ) (st1_3 t) fullShare ((fdat V c).before 3 t d))
    ∗ (∃ d, owns (c : Thread nD τ) (st1_4 t) fullShare ((fdat V c).before 4 t d))
    ∗ (∃ d, owns (c : Thread nD τ) (st1_5 t) fullShare ((fdat V c).before 5 t d)))

def fPost (c : Dev nD) (t : Fin cfg1.N) : sProp 𝕄 :=
  iprop((fdat V c).Φ t.succ ∗ (fdat V c).owesAt () t.succ
    ∗ (fdat V c).leavesExact 0 t
    ∗ (fdat V c).leavesExact 1 t
    ∗ (fdat V c).leavesExact 2 t
    ∗ (fdat V c).leavesExact 3 t
    ∗ (fdat V c).leavesExact 4 t
    ∗ (fdat V c).leavesExact 5 t)

theorem fleaves_in (c : Dev nD) (t : Fin cfg1.N) (w : Fin cfg1.W) (hl : cfg1.idle w (grid1.coords t) = false) :
    (fdat V c).leavesExact w t = owns (c : Thread nD τ) ((cfg1.win w).stage (cfg1.slots t w)) fullShare ((fdat V c).after w t) := by
  unfold Dat.leavesExact; rw [hl]

set_option maxHeartbeats 4000000 in
theorem sound_fbody (c : Dev nD) (t : Fin cfg1.N) :
    fPre V c t ⊢ wp frame (wpE (defs₀ (F := F)) Variants.none c none) Set.univ (bodyAt1 t) (fun _ => fPost V c t) := by
  unfold fPre fPost bodyAt1
  simp only [fbefore0, fbefore1, fbefore2, fbefore3, fbefore4]
  rw [show (fdat V c).owesAt () t.succ = (fdat V c).owesAt () t.castSucc from rfl]
  rw [show (fdat V c).Φ t.succ = PhiF V c (t.val + 1) from rfl, show (fdat V c).Φ t.castSucc = PhiF V c t.val from rfl]
  rw [fleaves_in V c t 0 (flive0 t), fleaves_in V c t 1 (flive1 t), fleaves_in V c t 2 (flive2 t), fleaves_in V c t 3 (flive3 t),
    fleaves_in V c t 4 (flive4 t), fafter0, fafter1, fafter2, fafter3, fafter4]
  by_cases hA : t.val < 25
  · -- a first-layer point
    have h1 : k1_cond1 (grid1.coords t) = 1#1 := (hcondA t).mpr hA
    have h2 : ¬k1_cond2 (grid1.coords t) = 1#1 := fun h => by have := (hcondB t).mp h; omega
    rw [Dat.leavesExact_idle (fdat V c) 5 t (idleOutA t hA) (noFlushOutA t hA)]
    unfold PhiF
    iintro ⟨⟨HO, ⟨%v, %hv, HS⟩, Hg⟩, Ho, ⟨%d0, H0⟩, ⟨%d1, H1⟩, ⟨%d2, H2⟩, ⟨%d3, H3⟩, ⟨%d4, H4⟩, ⟨%d5, H5⟩⟩
    iapply (sound_fusedA c Set.univ (grid1.coords t) h1 h2 _ _ _ _ _ _ _ _ _ _ _ _
      (fblk V c 0 t) (fblk V c 1 t) (fblk V c 2 t) (fblk V c 3 t) (fblk V c 4 t) _ v _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HO HS Hg]
    · isplitl [HO]; · iexact HO
      isplitl [HS]
      · iexists _; isplitr; · ipureintro; exact ScrOK_step V c t hA h1 v hv
        iexact HS
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · -- a second-layer point
    have hB : 25 ≤ t.val := Nat.le_of_not_lt hA
    have h1 : ¬k1_cond1 (grid1.coords t) = 1#1 := fun h => hA ((hcondA t).mp h)
    have h2 : k1_cond2 (grid1.coords t) = 1#1 := (hcondB t).mpr hB
    rw [fleaves_in V c t 5 (liveOutB t hB), fafter5]
    unfold PhiF
    iintro ⟨⟨HO, ⟨%v, %hv, HS⟩, Hg⟩, Ho, ⟨%d0, H0⟩, ⟨%d1, H1⟩, ⟨%d2, H2⟩, ⟨%d3, H3⟩, ⟨%d4, H4⟩, ⟨%d5, H5⟩⟩
    obtain rfl : v = scrFull V c := ScrOK_full V c t.val hB v hv
    iapply (sound_fusedB c Set.univ (grid1.coords t) h1 h2 _ _ _ _ _ _ _ _ _ _ _ _
      (fblk V c 0 t) (fblk V c 1 t) (fblk V c 2 t) (fblk V c 3 t) (fblk V c 4 t) (scrFull V c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HO HS Hg]
    · isplitl [HO]; · iexact HO
      isplitl [HS]
      · iexists _; isplitr; · ipureintro; exact ScrOK_succ_of_full V c t.val hB _ hv
        iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

theorem fbody_obligation (c : Dev nD) : BodyObligation (fdat (F := F) V c) (defs₀ (F := F)) Variants.none () Set.univ := fun t => by
  rw [bigSep_W1, bigSep_W1]
  exact sound_fbody V c t

/-- What the launch hands the call is the invariant before the first point; after the last point the invariant gives it back. -/
theorem fhin (c : Dev nD) : (Pipeline.ΦA spec1 c : sProp 𝕄) ⊢ (fdat V c).Φ 0 := PhiF_open V c
theorem fhout (c : Dev nD) : (fdat V c).Φ (Fin.last cfg1.N) ⊢ (Pipeline.ΦA spec1 c : sProp 𝕄) := PhiF_close V c _

end Cert.Kernel.Hand

end
-- ==== Proof.RunK.lean ====
/-
  The whole program: three host operations (the two biases re-laid as rows, `W2` narrowed), the first call, the
  second call. This module states, at any float instance, what every unscoped buffer of a core holds at each
  boundary between those items — the launch memory; after the host operations; after the first call (its output array
  at what its write-backs leave, the rest as before); after the second call likewise — and proves that every weakly fair
  execution terminates with every unscoped buffer at the last boundary's contents. The two calls enter the run each as
  a record over its own proof data; read at the arguments, which no item writes, the run is the frame.
-/
import proofs.«125996_g10651518894447_week1_w2_746_19_alg».proof.Proof.RegionSupportK
import proofs.«125996_g10651518894447_week1_w2_746_19_alg».proof.Proof.RegionFusedK
import proofs.«125996_g10651518894447_week1_w2_746_19_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- After the host operations (the first call's entry). -/
abbrev B1 : Dev nD → Valuation τ sig (Elt F) := fun c => StableHlo.after hostOps0 (B0 m ρ c)
abbrev U1 : (c : Dev nD) → (b : Ref sig .tc) → Buf (Elt F) ((c : Thread nD τ).loc b) := fun c b => B1 m ρ c b
/-- After the first call: its arrays at what the write-backs leave, every other buffer as entered. -/
def B2 (c : Dev nD) : Valuation τ sig (Elt F) :=
  Pipeline.withArrays spec0 c (B1 m ρ c) fun w => (sdat (U1 m ρ) c).arrAt w cfg0.N
theorem B2_arr (c : Dev nD) (w : Fin cfg0.W) :
    B2 m ρ c (Proc.devRef .tc (Pipeline.arrRef spec0 w)) = (sdat (U1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev U2 : (c : Dev nD) → (b : Ref sig .tc) → Buf (Elt F) ((c : Thread nD τ).loc b) := fun c b => B2 m ρ c b
theorem hF0 (c : Dev nD) (w : Fin cfg0.W) : (sdat (U1 m ρ) c).arrAt w cfg0.N = U2 m ρ c (Pipeline.arrRef spec0 w) :=
  (B2_arr m ρ c w).symm
theorem hrest0 (c : Dev nD) : ∀ b, b ∉ Finset.univ.image (Pipeline.arrRef spec0) → U2 m ρ c b = U1 m ρ c b :=
  fun b hb => B2_of_ne m ρ c b fun w e => hb (Finset.mem_image.mpr ⟨w, Finset.mem_univ _, e⟩)
/-- After the second call (what the launch reads at the end). -/
def B3 (c : Dev nD) : Valuation τ sig (Elt F) :=
  Pipeline.withArrays spec1 c (B2 m ρ c) fun w => (fdat (U2 m ρ) c).arrAt w cfg1.N
theorem B3_arr (c : Dev nD) (w : Fin cfg1.W) :
    B3 m ρ c (Proc.devRef .tc (Pipeline.arrRef spec1 w)) = (fdat (U2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev U3 : (c : Dev nD) → (b : Ref sig .tc) → Buf (Elt F) ((c : Thread nD τ).loc b) := fun c b => B3 m ρ c b
theorem hF1 (c : Dev nD) (w : Fin cfg1.W) : (fdat (U2 m ρ) c).arrAt w cfg1.N = U3 m ρ c (Pipeline.arrRef spec1 w) :=
  (B3_arr m ρ c w).symm
theorem hrest1 (c : Dev nD) : ∀ b, b ∉ Finset.univ.image (Pipeline.arrRef spec1) → U3 m ρ c b = U2 m ρ c b :=
  fun b hb => B3_of_ne m ρ c b fun w e => hb (Finset.mem_image.mpr ⟨w, Finset.mem_univ _, e⟩)

/-! ## No item writes an argument: each ends as launched -/

theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of_ne m ρ c main_arg0 (by decide)
    _ = B1 m ρ c (Proc.devRef .tc main_arg0) := (B2_arr m ρ c 0).trans (((sdat (U1 m ρ) c).arrAt_in 0 rfl _).trans (sA_eq (U1 m ρ) c 0))
    _ = B0 m ρ c (Proc.devRef .tc main_arg0) := StableHlo.after_of_writes_sub hostOps0 _ hostOps0_writes (by decide)
    _ = m ((c : Thread nD τ).loc main_arg0) := rfl

theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := (B3_arr m ρ c 0).trans (((fdat (U2 m ρ) c).arrAt_in 0 rfl _).trans (fA_eq (U2 m ρ) c 0))
    _ = B1 m ρ c (Proc.devRef .tc main_arg1) := B2_of_ne m ρ c main_arg1 (by decide)
    _ = B0 m ρ c (Proc.devRef .tc main_arg1) := StableHlo.after_of_writes_sub hostOps0 _ hostOps0_writes (by decide)
    _ = m ((c : Thread nD τ).loc main_arg1) := rfl

theorem B3_main_arg2 (c : Dev nD) : B3 m ρ c (Proc.devRef .tc main_arg2) = m ((c : Thread nD τ).loc main_arg2) :=
  calc B3 m ρ c (Proc.devRef .tc main_arg2)
    _ = B2 m ρ c (Proc.devRef .tc main_arg2) := B3_of_ne m ρ c main_arg2 (by decide)
    _ = B1 m ρ c (Proc.devRef .tc main_arg2) := (B2_arr m ρ c 1).trans (((sdat (U1 m ρ) c).arrAt_in 1 rfl _).trans (sA_eq (U1 m ρ) c 1))
    _ = B0 m ρ c (Proc.devRef .tc main_arg2) := StableHlo.after_of_writes_sub hostOps0 _ hostOps0_writes (by decide)
    _ = m ((c : Thread nD τ).loc main_arg2) := rfl

theorem B3_main_arg3 (c : Dev nD) : B3 m ρ c (Proc.devRef .tc main_arg3) = m ((c : Thread nD τ).loc main_arg3) :=
  calc B3 m ρ c (Proc.devRef .tc main_arg3)
    _ = B2 m ρ c (Proc.devRef .tc main_arg3) := B3_of_ne m ρ c main_arg3 (by decide)
    _ = B1 m ρ c (Proc.devRef .tc main_arg3) := B2_of_ne m ρ c main_arg3 (by decide)
    _ = B0 m ρ c (Proc.devRef .tc main_arg3) := StableHlo.after_of_writes_sub hostOps0 _ hostOps0_writes (by decide)
    _ = m ((c : Thread nD τ).loc main_arg3) := rfl

theorem B3_main_arg4 (c : Dev nD) : B3 m ρ c (Proc.devRef .tc main_arg4) = m ((c : Thread nD τ).loc main_arg4) :=
  calc B3 m ρ c (Proc.devRef .tc main_arg4)
    _ = B2 m ρ c (Proc.devRef .tc main_arg4) := B3_of_ne m ρ c main_arg4 (by decide)
    _ = B1 m ρ c (Proc.devRef .tc main_arg4) := B2_of_ne m ρ c main_arg4 (by decide)
    _ = B0 m ρ c (Proc.devRef .tc main_arg4) := StableHlo.after_of_writes_sub hostOps0 _ hostOps0_writes (by decide)
    _ = m ((c : Thread nD τ).loc main_arg4) := rfl

theorem B3_main_arg5 (c : Dev nD) : B3 m ρ c (Proc.devRef .tc main_arg5) = m ((c : Thread nD τ).loc main_arg5) :=
  calc B3 m ρ c (Proc.devRef .tc main_arg5)
    _ = B2 m ρ c (Proc.devRef .tc main_arg5) := B3_of_ne m ρ c main_arg5 (by decide)
    _ = B1 m ρ c (Proc.devRef .tc main_arg5) := B2_of_ne m ρ c main_arg5 (by decide)
    _ = B0 m ρ c (Proc.devRef .tc main_arg5) := StableHlo.after_of_writes_sub hostOps0 _ hostOps0_writes (by decide)
    _ = m ((c : Thread nD τ).loc main_arg5) := rfl

/-- The result's array ends at what the second call's write-backs leave. -/
theorem B3_main_v4 (c : Dev nD) : B3 m ρ c (Proc.devRef .tc main_v4) = (fdat (U2 m ρ) c).arrAt 5 cfg1.N := B3_arr m ρ c 5

/-! ## The proof data family and the thread state -/

/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => sdat (U1 m ρ) c
  | ⟨1, _⟩ => fun c => fdat (U2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev Rest (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m ρ c) ∗ ∃ r, prngReg c r)

/-! ## The two calls as records over the thread state -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (sbody_obligation (U1 m ρ) c).loose
  hwaits := Pipeline.hwaits_of_owed_zero _ _ _ _ L lv 0 fun _ _ => rfl
  pre c := iprop(StableHlo.held (c : Thread nD τ) (Pipeline.ucRefs τ sig) (B1 m ρ c) ∗ Rest c)
  post c := iprop(StableHlo.held (c : Thread nD τ) (Pipeline.ucRefs τ sig) (B2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (fbody_obligation (U2 m ρ) c).loose
  hwaits := Pipeline.hwaits_of_owed_zero _ _ _ _ L lv 1 fun _ _ => rfl
  pre c := iprop(StableHlo.held (c : Thread nD τ) (Pipeline.ucRefs τ sig) (B2 m ρ c) ∗ Rest c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (fdat (U2 m ρ) c).Φ 0 from rfl]
    have h0 := fhin (U2 m ρ) c
    unfold Pipeline.ΦA at h0
    iintro ⟨Hp, -, Hr⟩
    iapply h0
    isplitl [Hr]; · iexact Hr
    iexact Hp
  hout c := by
    rw [Pipeline.ownSems0_none, show (pdats m ρ 1 c).Φ (Fin.last _) = (fdat (U2 m ρ) c).Φ (Fin.last cfg1.N) from rfl]
    have h0 := fhout (U2 m ρ) c
    unfold Pipeline.ΦA at h0
    iintro HF
    ihave H := h0 $$ HF
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (B0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of the program terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h => h)

/-- THE FRAME: the program runs to the end, nothing faulting, and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c),
     (h c _ (mem_uc main_arg4 (by decide))).trans (B3_main_arg4 m ρ c),
     (h c _ (mem_uc main_arg5 (by decide))).trans (B3_main_arg5 m ρ c)⟩) (run_all m ρ)

/-- The same run read at the result: its array ends at what the second call's write-backs leave. -/
theorem run_result : θ_run defs (onTc (τ := τ) (main (F := F))) ⟨m, fun _ => 0, ρ⟩ (fun r => ∀ c : Dev nD,
      r.2.mem ((c.tc : Thread nD τ).loc main_v4) = (fdat (U2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v4 (by decide))).trans (B3_main_v4 m ρ c),
     (h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c),
     (h c _ (mem_uc main_arg4 (by decide))).trans (B3_main_arg4 m ρ c),
     (h c _ (mem_uc main_arg5 (by decide))).trans (B3_main_arg5 m ρ c)⟩) (run_all m ρ)

end Cert.Kernel.Hand

end
-- ==== Proof.RegionSupportI.lean ====
/-
  The first pallas_call (the support product): on each of its 10 grid points the body loads a block of
  1000 rows of `x` and the whole `W1`, multiplies them and stores the product, rounded to the narrower
  format, over the whole output block. This module states, at any float instance and at a parameter `V`
  (what the buffers hold when the call is entered): each window's block at a point, what the body leaves
  in the output's staging buffer (one store covering it), the body's triple, the proof data of the call's
  pipeline and the body obligation at every point.
-/
import proofs.«125996_g10651518894447_week1_w2_746_19_alg».proof.Proof.Gen.KernelIdeal.Launch
import proofs.«125996_g10651518894447_week1_w2_746_19_alg».proof.Proof.Gen.KernelIdeal.Skeleton
import proofs.«125996_g10651518894447_week1_w2_746_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def sblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of `x` are in the staging buffer at every point: fetched there. -/
theorem sbefore_x_of {c : Dev nD} (dat : Dat τ (Elt F) Unit ℕ (UR sig nD τ) ℕ cfg0 c) (hA : dat.A 0 = V c (Pipeline.arrRef spec0 0))
    (hafter : ∀ t, dat.after 0 t = sblk V c 0 t) (t : Fin cfg0.N) (d) : dat.before 0 t d = sblk V c 0 t :=
  (dat.before_in_eq_fetched 0 rfl (fun _ => rfl) (fun _ _ _ => rfl) (fun t => by rw [hafter]; unfold Dat.blockOf sblk; rw [hA]; try rfl) t d).trans
    (by unfold Dat.fetched Dat.blockOf sblk; rw [hA]; try rfl)

/-- `W1` is in its staging buffer at every point: fetched at the first, its block index constant after. -/
theorem sbefore_w_of {c : Dev nD} (dat : Dat τ (Elt F) Unit ℕ (UR sig nD τ) ℕ cfg0 c) (hA : dat.A 1 = V c (Pipeline.arrRef spec0 1))
    (hafter : ∀ t, dat.after 1 t = sblk V c 1 t) (t : Fin cfg0.N) (d) : dat.before 1 t d = sblk V c 1 t :=
  (dat.before_in_eq_fetched 1 rfl (fun _ => rfl) (fun _ _ _ => rfl) (fun t => by rw [hafter]; unfold Dat.blockOf sblk; rw [hA]; try rfl) t d).trans
    (by unfold Dat.fetched Dat.blockOf sblk; rw [hA]; try rfl)

/-! ## The body's accesses and what it leaves -/

abbrev rX : Rect S1000x300 := Rect.unit (s := S1000x300) ![0, 0] S1000x300.size Facts₀.inb_S1000x300_S1000x300_0_0
abbrev rW1 : Rect S300x300 := Rect.unit (s := S300x300) ![0, 0] S300x300.size Facts₀.inb_S300x300_S300x300_0_0

/-- The output block after the body: its one store, of the product of the two loaded blocks. -/
def supOut (x0 : Vec F S1000x300 .f32) (x1 : Vec F S300x300 .f32) : Vec F S1000x300 .bf16 :=
  View.canon [⟨rX, k0_pay1 (View.ld x0 rX) (View.ld x1 rW1)⟩]

/-- The store covers the block. -/
theorem supCover (p0 : Vec F S1000x300 .bf16) (y : S1000x300.Idx) :
    ∃ pc ∈ ([⟨rX, p0⟩] : List (View.Piece (Elt F) S1000x300 .bf16)), y ∈ pc.1.set :=
  View.cover_of_tiled [⟨rX, p0⟩] S1000x300.size (by rfl) y

/-! ## The body's triple -/

set_option maxHeartbeats 1000000 in
/-- On whole staging memrefs, the two inputs at contents `x0`, `x1` and the output at anything, the body runs to
    the continuation holding the inputs as they were and the output at `supOut x0 x1`. -/
theorem sound_support (c : Dev nD) (E : Set ℕ) (i : grid0.Coords)
    (arg1 : Memref sig .tc .vmem S1000x300 .f32) (harg1 : arg1.IsWhole)
    (arg2 : Memref sig .tc .vmem S300x300 .f32) (harg2 : arg2.IsWhole)
    (arg3 : Memref sig .tc .vmem S1000x300 .bf16) (harg3 : arg3.IsWhole)
    (x0 : Vec F S1000x300 .f32) (x1 : Vec F S300x300 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (supOut x0 x1)) -∗ K ⟨⟩))
      ⊢ wp frame (wpE (defs₀ (F := F)) Variants.none c none) E (cc0__support_kernel i arg1 harg1 arg2 harg2 arg3 harg3) K := by
  simp only [cc0__support_kernel_eq_skeleton]; unfold cc0__support_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (supCover _)

/-! ## The pipeline's proof data -/

/-- The proof data of the first call on core `c`: the arrays as the call finds them; after the body at point `t`
    each input's buffer at its block and the output's at the product of the input blocks; the invariant the scoped rest
    and the generator register, untouched; nothing owed; full shares. -/
def sdat (c : Dev nD) : Dat τ (Elt F) Unit ℕ (UR sig nD τ) ℕ cfg0 c where
  A w := V c (Pipeline.arrRef spec0 w)
  after w t := match w with
    | ⟨0, _⟩ => sblk V c 0 t
    | ⟨1, _⟩ => sblk V c 1 t
    | ⟨2, _⟩ => supOut (sblk V c 0 t) (sblk V c 1 t)
  Φ _ := Pipeline.ΦA spec0 c
  q _ := fullShare
  owed _ := 0

theorem sA_eq (c : Dev nD) (w : Fin cfg0.W) : (sdat V c).A w = V c (Pipeline.arrRef spec0 w) := by
  dsimp only [sdat]

theorem safter_x (c : Dev nD) (t : Fin cfg0.N) : (sdat V c).after 0 t = sblk V c 0 t := by dsimp only [sdat]
theorem safter_w (c : Dev nD) (t : Fin cfg0.N) : (sdat V c).after 1 t = sblk V c 1 t := by dsimp only [sdat]
theorem safter_out (c : Dev nD) (t : Fin cfg0.N) : (sdat V c).after 2 t = supOut (sblk V c 0 t) (sblk V c 1 t) := by dsimp only [sdat]

theorem sbefore_x (c : Dev nD) (t : Fin cfg0.N) (d) : (sdat V c).before 0 t d = sblk V c 0 t :=
  sbefore_x_of V (sdat V c) (sA_eq V c 0) (safter_x V c) t d
theorem sbefore_w (c : Dev nD) (t : Fin cfg0.N) (d) : (sdat V c).before 1 t d = sblk V c 1 t :=
  sbefore_w_of V (sdat V c) (sA_eq V c 1) (safter_w V c) t d

/-! ## The body obligation -/

def sPre (c : Dev nD) (t : Fin cfg0.N) : sProp 𝕄 :=
  iprop((sdat V c).Φ t.castSucc ∗ (sdat V c).owesAt () t.castSucc
    ∗ (∃ d, owns (c : Thread nD τ) (st0_0 t) fullShare ((sdat V c).before 0 t d))
    ∗ (∃ d, owns (c : Thread nD τ) (st0_1 t) fullShare ((sdat V c).before 1 t d))
    ∗ (∃ d, owns (c : Thread nD τ) (st0_2 t) fullShare ((sdat V c).before 2 t d)))

def sPost (c : Dev nD) (t : Fin cfg0.N) : sProp 𝕄 :=
  iprop((sdat V c).Φ t.succ ∗ (sdat V c).owesAt () t.succ
    ∗ owns (c : Thread nD τ) (st0_0 t) fullShare ((sdat V c).after 0 t)
    ∗ owns (c : Thread nD τ) (st0_1 t) fullShare ((sdat V c).after 1 t)
    ∗ owns (c : Thread nD τ) (st0_2 t) fullShare ((sdat V c).after 2 t))

theorem sound_sbody (c : Dev nD) (t : Fin cfg0.N) :
    sPre V c t ⊢ wp frame (wpE (defs₀ (F := F)) Variants.none c none) Set.univ (bodyAt0 t) (fun _ => sPost V c t) := by
  unfold sPre sPost bodyAt0
  simp only [sbefore_x, sbefore_w]
  rw [show (sdat V c).Φ t.succ = (sdat V c).Φ t.castSucc from rfl,
    show (sdat V c).owesAt () t.succ = (sdat V c).owesAt () t.castSucc from rfl,
    safter_x, safter_w, safter_out]
  iintro ⟨HΦ, Ho, ⟨%d0, H0⟩, ⟨%d1, H1⟩, ⟨%d2, H2⟩⟩
  iapply (sound_support c Set.univ _ _ _ _ _ _ _ (sblk V c 0 t) (sblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem sbody_obligation (c : Dev nD) : BodyObligation (sdat (F := F) V c) (defs₀ (F := F)) Variants.none () Set.univ := fun t => by
  rw [bigSep_W0, bigSep_W0]
  exact sound_sbody V c t

end Cert.KernelIdeal.Hand

end
-- ==== Proof.RegionFusedI.lean ====
/-
  The second pallas_call (the fused two layers) on its grid of 2 × 25 points. At the 25 points of the first
  layer the body multiplies a block of 400 rows of `adj` by the first support, adds the bias, rectifies,
  multiplies by `W2` and stores the 400 rows it gets into the scratch at the rows of the block; the output
  window is idle there. At the 25 points of the second layer it multiplies the block of `adj` by the WHOLE
  scratch, adds the second bias and stores the output block. This module states, at any float instance and at
  a parameter `V` (what the buffers hold when the call is entered): the blocks; the closed forms of the two
  conditions and of the slice's offset; the scratch's final contents as one function of its index (row `r`
  holds what the point `r / 400` stored at row `r % 400`); the invariant "the first `400 k` rows of the
  scratch hold that function" before point `k`; the two cases' triples; the proof data and the obligation.
-/
import proofs.«125996_g10651518894447_week1_w2_746_19_alg».proof.Proof.Gen.KernelIdeal.Launch
import proofs.«125996_g10651518894447_week1_w2_746_19_alg».proof.Proof.Gen.KernelIdeal.Skeleton
import proofs.«125996_g10651518894447_week1_w2_746_19_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.WritesUnit
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def fblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem fbefore0_of {c : Dev nD} (dat : Dat τ (Elt F) Unit ℕ (UR sig nD τ) ℕ cfg1 c) (hA : dat.A 0 = V c (Pipeline.arrRef spec1 0))
    (hafter : ∀ t, dat.after 0 t = fblk V c 0 t) (t : Fin cfg1.N) (d) : dat.before 0 t d = fblk V c 0 t :=
  (dat.before_in_eq_fetched 0 rfl (fun _ => rfl) (fun _ _ _ => rfl) (fun t => by rw [hafter]; unfold Dat.blockOf fblk; rw [hA]; try rfl) t d).trans
    (by unfold Dat.fetched Dat.blockOf fblk; rw [hA]; try rfl)

theorem fbefore1_of {c : Dev nD} (dat : Dat τ (Elt F) Unit ℕ (UR sig nD τ) ℕ cfg1 c) (hA : dat.A 1 = V c (Pipeline.arrRef spec1 1))
    (hafter : ∀ t, dat.after 1 t = fblk V c 1 t) (t : Fin cfg1.N) (d) : dat.before 1 t d = fblk V c 1 t :=
  (dat.before_in_eq_fetched 1 rfl (fun _ => rfl) (fun _ _ _ => rfl) (fun t => by rw [hafter]; unfold Dat.blockOf fblk; rw [hA]; try rfl) t d).trans
    (by unfold Dat.fetched Dat.blockOf fblk; rw [hA]; try rfl)

theorem fbefore2_of {c : Dev nD} (dat : Dat τ (Elt F) Unit ℕ (UR sig nD τ) ℕ cfg1 c) (hA : dat.A 2 = V c (Pipeline.arrRef spec1 2))
    (hafter : ∀ t, dat.after 2 t = fblk V c 2 t) (t : Fin cfg1.N) (d) : dat.before 2 t d = fblk V c 2 t :=
  (dat.before_in_eq_fetched 2 rfl (fun _ => rfl) (fun _ _ _ => rfl) (fun t => by rw [hafter]; unfold Dat.blockOf fblk; rw [hA]; try rfl) t d).trans
    (by unfold Dat.fetched Dat.blockOf fblk; rw [hA]; try rfl)

theorem fbefore3_of {c : Dev nD} (dat : Dat τ (Elt F) Unit ℕ (UR sig nD τ) ℕ cfg1 c) (hA : dat.A 3 = V c (Pipeline.arrRef spec1 3))
    (hafter : ∀ t, dat.after 3 t = fblk V c 3 t) (t : Fin cfg1.N) (d) : dat.before 3 t d = fblk V c 3 t :=
  (dat.before_in_eq_fetched 3 rfl (fun _ => rfl) (fun _ _ _ => rfl) (fun t => by rw [hafter]; unfold Dat.blockOf fblk; rw [hA]; try rfl) t d).trans
    (by unfold Dat.fetched Dat.blockOf fblk; rw [hA]; try rfl)

theorem fbefore4_of {c : Dev nD} (dat : Dat τ (Elt F) Unit ℕ (UR sig nD τ) ℕ cfg1 c) (hA : dat.A 4 = V c (Pipeline.arrRef spec1 4))
    (hafter : ∀ t, dat.after 4 t = fblk V c 4 t) (t : Fin cfg1.N) (d) : dat.before 4 t d = fblk V c 4 t :=
  (dat.before_in_eq_fetched 4 rfl (fun _ => rfl) (fun _ _ _ => rfl) (fun t => by rw [hafter]; unfold Dat.blockOf fblk; rw [hA]; try rfl) t d).trans
    (by unfold Dat.fetched Dat.blockOf fblk; rw [hA]; try rfl)

/-! ## The conditions, the slice's offset and the idle points, in closed form over the grid -/

/-- The first layer's branch is taken at the first 25 points. -/
theorem hcondA : ∀ t : Fin cfg1.N, k1_cond1 (grid1.coords t) = 1#1 ↔ t.val < 25 :=
  (by decide +kernel : ∀ t : Fin grid1.N, k1_cond1 (grid1.coords t) = 1#1 ↔ t.val < 25)
/-- The second layer's branch is taken at the last 25. -/
theorem hcondB : ∀ t : Fin cfg1.N, k1_cond2 (grid1.coords t) = 1#1 ↔ 25 ≤ t.val :=
  (by decide +kernel : ∀ t : Fin grid1.N, k1_cond2 (grid1.coords t) = 1#1 ↔ 25 ≤ t.val)
/-- At point `t` of the first layer the slice starts at row `400 t`. -/
theorem hoffA : ∀ t : Fin cfg1.N, t.val < 25 → k1_off1 (grid1.coords t) = ![400 * t.val, 0] :=
  (by decide +kernel : ∀ t : Fin grid1.N, t.val < 25 → k1_off1 (grid1.coords t) = ![400 * t.val, 0])

theorem flive0 : ∀ t : Fin cfg1.N, cfg1.idle 0 (grid1.coords t) = false := by decide +kernel
theorem flive1 : ∀ t : Fin cfg1.N, cfg1.idle 1 (grid1.coords t) = false := by decide +kernel
theorem flive2 : ∀ t : Fin cfg1.N, cfg1.idle 2 (grid1.coords t) = false := by decide +kernel
theorem flive3 : ∀ t : Fin cfg1.N, cfg1.idle 3 (grid1.coords t) = false := by decide +kernel
theorem flive4 : ∀ t : Fin cfg1.N, cfg1.idle 4 (grid1.coords t) = false := by decide +kernel
theorem idleOutA : ∀ t : Fin cfg1.N, t.val < 25 → cfg1.idle 5 (grid1.coords t) = true := by decide +kernel
theorem noFlushOutA : ∀ t : Fin cfg1.N, t.val < 25 → (cfg1.win 5).flush t = false := by decide +kernel
theorem liveOutB : ∀ t : Fin cfg1.N, 25 ≤ t.val → cfg1.idle 5 (grid1.coords t) = false := by decide +kernel

/-! ## The body's accesses -/

abbrev rAdj : Rect S400x10000 := Rect.unit (s := S400x10000) ![0, 0] S400x10000.size Facts₀.inb_S400x10000_S400x10000_0_0
abbrev rSup : Rect S10000x300 := Rect.unit (s := S10000x300) ![0, 0] S10000x300.size Facts₀.inb_S10000x300_S10000x300_0_0
abbrev rBias : Rect S1x300 := Rect.unit (s := S1x300) ![0, 0] S1x300.size Facts₀.inb_S1x300_S1x300_0_0
abbrev rW2 : Rect S300x300 := Rect.unit (s := S300x300) ![0, 0] S300x300.size Facts₀.inb_S300x300_S300x300_0_0
abbrev rOut : Rect S400x300 := Rect.unit (s := S400x300) ![0, 0] S400x300.size Facts₀.inb_S400x300_S400x300_0_0
/-- The 400 rows of the scratch that a first-layer point stores. -/
abbrev rSlice (i : grid1.Coords) (h : k1_cond1 i = 1#1) : Rect S10000x300 :=
  Rect.unit (s := S10000x300) (k1_off1 i) S400x300.size (Facts₀.k1_off1_inb i h)

/-- The scratch, a whole scoped buffer of the kernel's own. -/
abbrev scM : Memref sig .tc .vmem S10000x300 .bf16 := Memref.whole cc1_scratch0
theorem hscM : (scM : Memref sig .tc .vmem S10000x300 .bf16).IsWhole := Memref.isWhole_whole _

/-! ## What the two cases leave -/

/-- The scratch after a first-layer point: its 400 rows written over what it held. -/
def scrStep (i : grid1.Coords) (h : k1_cond1 i = 1#1) (x0 : Vec F S400x10000 .f32) (x1 : Vec F S10000x300 .bf16)
    (x2 : Vec F S1x300 .f32) (x3 : Vec F S300x300 .bf16) (xs : Vec F S10000x300 .bf16) : Vec F S10000x300 .bf16 :=
  scM.view.read (Elt F) (scM.view.writes (Elt F) (hscM.unread xs)
    [⟨rSlice i h, k1_pay2 (View.ld x0 rAdj) (View.ld x1 rSup) (View.ld x2 rBias) (View.ld x3 rW2)⟩])

/-- The output block after a second-layer point: its one store. -/
def fusedOut (x0 : Vec F S400x10000 .f32) (xs : Vec F S10000x300 .bf16) (x4 : Vec F S1x300 .f32) : Vec F S400x300 .f32 :=
  View.canon [⟨rOut, k1_pay3 (View.ld x0 rAdj) (View.ld xs rSup) (View.ld x4 rBias)⟩]

theorem fusedCover (p0 : Vec F S400x300 .f32) (y : S400x300.Idx) :
    ∃ pc ∈ ([⟨rOut, p0⟩] : List (View.Piece (Elt F) S400x300 .f32)), y ∈ pc.1.set :=
  View.cover_of_tiled [⟨rOut, p0⟩] S400x300.size (by rfl) y

/-! ## The body's triples, one per case -/

set_option maxHeartbeats 2000000 in
/-- FIRST LAYER (the first branch taken, the second not): the five inputs and the output buffer come back as they were,
    the scratch with the point's 400 rows written. -/
theorem sound_fusedA (c : Dev nD) (E : Set ℕ) (i : grid1.Coords) (h1 : k1_cond1 i = 1#1) (h2 : ¬k1_cond2 i = 1#1)
    (arg2 : Memref sig .tc .vmem S400x10000 .f32) (harg2 : arg2.IsWhole)
    (arg3 : Memref sig .tc .vmem S10000x300 .bf16) (harg3 : arg3.IsWhole)
    (arg4 : Memref sig .tc .vmem S1x300 .f32) (harg4 : arg4.IsWhole)
    (arg5 : Memref sig .tc .vmem S300x300 .bf16) (harg5 : arg5.IsWhole)
    (arg6 : Memref sig .tc .vmem S1x300 .f32) (harg6 : arg6.IsWhole)
    (arg7 : Memref sig .tc .vmem S400x300 .f32) (harg7 : arg7.IsWhole)
    (x0 : Vec F S400x10000 .f32) (x1 : Vec F S10000x300 .bf16) (x2 : Vec F S1x300 .f32) (x3 : Vec F S300x300 .bf16)
    (x4 : Vec F S1x300 .f32) (xo : Vec F S400x300 .f32) (xs : Vec F S10000x300 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare xo
        ∗ owns (c : Thread nD τ) scM fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare xo
            ∗ owns (c : Thread nD τ) scM fullShare (scrStep i h1 x0 x1 x2 x3 xs)) -∗ K ⟨⟩))
      ⊢ wp frame (wpE (defs₀ (F := F)) Variants.none c none) E
          (cc1__fused_kernel i arg2 harg2 arg3 harg3 arg4 harg4 arg5 harg5 arg6 harg6 arg7 harg7 scM (Memref.isWhole_whole _)) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs, %hfs, HS⟩, Hk⟩
  subst hf0; subst hf1; subst hf2; subst hf3; subst hf4; subst hf5; subst hfs
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HS
  ipureintro
  unfold scrStep
  rw [Memref.IsWhole.unread_read]
  rfl

set_option maxHeartbeats 2000000 in
/-- SECOND LAYER (the first branch not taken, the second taken): the five inputs and the scratch come back as they were,
    the output buffer at `fusedOut` of the block of `adj`, the scratch and the second bias. -/
theorem sound_fusedB (c : Dev nD) (E : Set ℕ) (i : grid1.Coords) (h1 : ¬k1_cond1 i = 1#1) (h2 : k1_cond2 i = 1#1)
    (arg2 : Memref sig .tc .vmem S400x10000 .f32) (harg2 : arg2.IsWhole)
    (arg3 : Memref sig .tc .vmem S10000x300 .bf16) (harg3 : arg3.IsWhole)
    (arg4 : Memref sig .tc .vmem S1x300 .f32) (harg4 : arg4.IsWhole)
    (arg5 : Memref sig .tc .vmem S300x300 .bf16) (harg5 : arg5.IsWhole)
    (arg6 : Memref sig .tc .vmem S1x300 .f32) (harg6 : arg6.IsWhole)
    (arg7 : Memref sig .tc .vmem S400x300 .f32) (harg7 : arg7.IsWhole)
    (x0 : Vec F S400x10000 .f32) (x1 : Vec F S10000x300 .bf16) (x2 : Vec F S1x300 .f32) (x3 : Vec F S300x300 .bf16)
    (x4 : Vec F S1x300 .f32) (xs : Vec F S10000x300 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ owns (c : Thread nD τ) scM fullShare xs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (fusedOut x0 xs x4)
            ∗ owns (c : Thread nD τ) scM fullShare xs) -∗ K ⟨⟩))
      ⊢ wp frame (wpE (defs₀ (F := F)) Variants.none c none) E
          (cc1__fused_kernel i arg2 harg2 arg3 harg3 arg4 harg4 arg5 harg5 arg6 harg6 arg7 harg7 scM (Memref.isWhole_whole _)) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
  subst hf0; subst hf1; subst hf2; subst hf3; subst hf4; subst hfs
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (fusedCover _)
  iexists fs; isplitr; · ipureintro; rfl
  iexact HS

/-! ## The scratch's final contents, and the invariant -/

/-- The first-layer point that stores row `y 0` of the scratch. -/
def rowPt (y : S10000x300.Idx) : Fin cfg1.N :=
  ⟨(y 0).val / 400, by
    have h : (y 0).val < 10000 := (y 0).isLt
    have hN : cfg1.N = 50 := N_1
    omega⟩

/-- Where row `y 0`, column `y 1` sits in that point's 400 rows. -/
def rowLoc (y : S10000x300.Idx) : S400x300.Idx :=
  ValueIdx.ix2 (⟨(y 0).val % 400, Nat.mod_lt _ (by decide)⟩ : Fin 400) (⟨(y 1).val, (y 1).isLt⟩ : Fin 300)

/-- What the first-layer point `t` stores: the payload of its four input blocks. -/
def pay2At (c : Dev nD) (t : Fin cfg1.N) : Vec F S400x300 .bf16 :=
  k1_pay2 (View.ld (fblk V c 0 t : Vec F S400x10000 .f32) rAdj) (View.ld (fblk V c 1 t : Vec F S10000x300 .bf16) rSup)
    (View.ld (fblk V c 2 t : Vec F S1x300 .f32) rBias) (View.ld (fblk V c 3 t : Vec F S300x300 .bf16) rW2)

/-- The scratch once the first layer is done, as one function of its index. -/
def scrFull (c : Dev nD) : Vec F S10000x300 .bf16 := fun y => pay2At V c (rowPt y) (rowLoc y)

/-- The first `400 k` rows of `v` hold the final contents. -/
def ScrOK (c : Dev nD) (k : ℕ) (v : Vec F S10000x300 .bf16) : Prop :=
  ∀ y : S10000x300.Idx, (y 0).val < 400 * k → v y = scrFull V c y

theorem ScrOK_zero (c : Dev nD) (v : Vec F S10000x300 .bf16) : ScrOK V c 0 v := fun y h => by omega

/-- Once every row is covered the contents are the final ones, and one more point changes nothing. -/
theorem ScrOK_full (c : Dev nD) (k : ℕ) (hk : 25 ≤ k) (v : Vec F S10000x300 .bf16) (h : ScrOK V c k v) : v = scrFull V c :=
  funext fun y => h y (by have hy : (y 0).val < 10000 := (y 0).isLt; omega)

theorem ScrOK_succ_of_full (c : Dev nD) (k : ℕ) (hk : 25 ≤ k) (v : Vec F S10000x300 .bf16) (h : ScrOK V c k v) : ScrOK V c (k + 1) v :=
  fun y _ => h y (by have hy : (y 0).val < 10000 := (y 0).isLt; omega)

/-- A first-layer point extends the rows that hold the final contents by its 400. -/
theorem ScrOK_step (c : Dev nD) (t : Fin cfg1.N) (ht : t.val < 25) (h1 : k1_cond1 (grid1.coords t) = 1#1)
    (xs : Vec F S10000x300 .bf16) (h : ScrOK V c t.val xs) :
    ScrOK V c (t.val + 1) (scrStep (grid1.coords t) h1 (fblk V c 0 t) (fblk V c 1 t) (fblk V c 2 t) (fblk V c 3 t) xs) := by
  intro y hy
  unfold scrStep
  by_cases hlt : (y 0).val < 400 * t.val
  · rw [View.read_writes_cons_rows_of_not_mem (o := 400 * t.val) (W := 400) scM.view _ _ _ _ y (hoffA t ht) rfl (Or.inl hlt)]
    rw [View.writes_nil, Memref.IsWhole.read_unread]
    exact h y hlt
  · have key := View.read_writes_cons_rows_of_mem (d := ![10000, 300]) (Val := Elt F) (e := .bf16) scM.view (hscM.unread xs)
      (off := k1_off1 (grid1.coords t)) (size := S400x300.size) (o := 400 * t.val)
      (Facts₀.k1_off1_inb (grid1.coords t) h1)
      (k1_pay2 (View.ld (fblk V c 0 t : Vec F S400x10000 .f32) rAdj) (View.ld (fblk V c 1 t : Vec F S10000x300 .bf16) rSup)
        (View.ld (fblk V c 2 t : Vec F S1x300 .f32) rBias) (View.ld (fblk V c 3 t : Vec F S300x300 .bf16) rW2))
      [] y (rowLoc y) (hoffA t ht)
      (by show (y 0).val = 400 * t.val + (y 0).val % 400; omega) (by rfl)
    refine key.trans ?_
    have hp : rowPt y = t := Fin.ext (by show (y 0).val / 400 = t.val; omega)
    unfold scrFull pay2At
    rw [hp]

/-- The scratch held whole at contents `f` is the scratch owned at `f`, and back. -/
theorem scr_owns_of (c : Dev nD) (f : Buf (Elt F) ((c : Thread nD τ).loc cc1_scratch0)) :
    ((((c : Thread nD τ).loc cc1_scratch0) ↦{fullShare} f) : sProp 𝕄) ⊢ owns (c : Thread nD τ) scM fullShare f := by
  rw [owns_whole]
theorem scr_of_owns (c : Dev nD) (f : Buf (Elt F) ((c : Thread nD τ).loc cc1_scratch0)) :
    (owns (c : Thread nD τ) scM fullShare f : sProp 𝕄) ⊢ (((c : Thread nD τ).loc cc1_scratch0) ↦{fullShare} f) := by
  rw [owns_whole]

/-- The scoped buffers of the core that this call neither stages nor names: the first call's staging buffers. -/
def Others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The invariant before point `k`: those buffers at anything, the scratch with its first `400 k` rows final, the
    generator register at some state. -/
def PhiF (c : Dev nD) (k : ℕ) : sProp 𝕄 :=
  iprop(Others (F := F) c ∗ (∃ v, ⌜ScrOK V c k v⌝ ∗ owns (c : Thread nD τ) scM fullShare v) ∗ (∃ r, prngReg c r))

/-- What the launch hands the call is the invariant before the first point. -/
theorem PhiF_open (c : Dev nD) : (Pipeline.ΦA spec1 c : sProp 𝕄) ⊢ PhiF V c 0 := by
  unfold Pipeline.ΦA PhiF Others; rw [scopedRest1_eq]
  iintro ⟨⟨H0, H1, H2, H3, H4, ⟨%f, HS⟩⟩, Hp⟩
  isplitl [H0 H1 H2 H3 H4]
  · isplitl [H0]; · iexact H0
    isplitl [H1]; · iexact H1
    isplitl [H2]; · iexact H2
    isplitl [H3]; · iexact H3
    iexact H4
  isplitl [HS]
  · iexists f; isplitr; · ipureintro; exact ScrOK_zero V c f
    iapply scr_owns_of; iexact HS
  iexact Hp

/-- At any point the invariant gives back what the launch handed over: the scratch's contents are forgotten. -/
theorem PhiF_close (c : Dev nD) (k : ℕ) : PhiF V c k ⊢ (Pipeline.ΦA spec1 c : sProp 𝕄) := by
  unfold Pipeline.ΦA PhiF Others; rw [scopedRest1_eq]
  iintro ⟨⟨H0, H1, H2, H3, H4⟩, ⟨%v, -, HS⟩, Hp⟩
  isplitr [Hp]
  · isplitl [H0]; · iexact H0
    isplitl [H1]; · iexact H1
    isplitl [H2]; · iexact H2
    isplitl [H3]; · iexact H3
    isplitl [H4]; · iexact H4
    iexists v; iapply scr_of_owns; iexact HS
  iexact Hp

/-! ## The pipeline's proof data -/

/-- The proof data of the second call on core `c`: the arrays as the call finds them; after the body each input's buffer
    at its block, the output's at the second layer's block of the final scratch (read only at the second layer's points:
    at the first layer's the window is idle and not written back); the invariant `PhiF`; nothing owed; full shares. -/
def fdat (c : Dev nD) : Dat τ (Elt F) Unit ℕ (UR sig nD τ) ℕ cfg1 c where
  A w := V c (Pipeline.arrRef spec1 w)
  after w t := match w with
    | ⟨0, _⟩ => fblk V c 0 t
    | ⟨1, _⟩ => fblk V c 1 t
    | ⟨2, _⟩ => fblk V c 2 t
    | ⟨3, _⟩ => fblk V c 3 t
    | ⟨4, _⟩ => fblk V c 4 t
    | ⟨5, _⟩ => fusedOut (fblk V c 0 t) (scrFull V c) (fblk V c 4 t)
  Φ t := PhiF V c t.val
  q _ := fullShare
  owed _ := 0

theorem fA_eq (c : Dev nD) (w : Fin cfg1.W) : (fdat V c).A w = V c (Pipeline.arrRef spec1 w) := by
  dsimp only [fdat]

theorem fafter0 (c : Dev nD) (t : Fin cfg1.N) : (fdat V c).after 0 t = fblk V c 0 t := by dsimp only [fdat]
theorem fafter1 (c : Dev nD) (t : Fin cfg1.N) : (fdat V c).after 1 t = fblk V c 1 t := by dsimp only [fdat]
theorem fafter2 (c : Dev nD) (t : Fin cfg1.N) : (fdat V c).after 2 t = fblk V c 2 t := by dsimp only [fdat]
theorem fafter3 (c : Dev nD) (t : Fin cfg1.N) : (fdat V c).after 3 t = fblk V c 3 t := by dsimp only [fdat]
theorem fafter4 (c : Dev nD) (t : Fin cfg1.N) : (fdat V c).after 4 t = fblk V c 4 t := by dsimp only [fdat]
theorem fafter5 (c : Dev nD) (t : Fin cfg1.N) : (fdat V c).after 5 t = fusedOut (fblk V c 0 t) (scrFull V c) (fblk V c 4 t) := by dsimp only [fdat]

theorem fbefore0 (c : Dev nD) (t : Fin cfg1.N) (d) : (fdat V c).before 0 t d = fblk V c 0 t :=
  fbefore0_of V (fdat V c) (fA_eq V c 0) (fafter0 V c) t d
theorem fbefore1 (c : Dev nD) (t : Fin cfg1.N) (d) : (fdat V c).before 1 t d = fblk V c 1 t :=
  fbefore1_of V (fdat V c) (fA_eq V c 1) (fafter1 V c) t d
theorem fbefore2 (c : Dev nD) (t : Fin cfg1.N) (d) : (fdat V c).before 2 t d = fblk V c 2 t :=
  fbefore2_of V (fdat V c) (fA_eq V c 2) (fafter2 V c) t d
theorem fbefore3 (c : Dev nD) (t : Fin cfg1.N) (d) : (fdat V c).before 3 t d = fblk V c 3 t :=
  fbefore3_of V (fdat V c) (fA_eq V c 3) (fafter3 V c) t d
theorem fbefore4 (c : Dev nD) (t : Fin cfg1.N) (d) : (fdat V c).before 4 t d = fblk V c 4 t :=
  fbefore4_of V (fdat V c) (fA_eq V c 4) (fafter4 V c) t d

/-! ## The body obligation -/

def fPre (c : Dev nD) (t : Fin cfg1.N) : sProp 𝕄 :=
  iprop((fdat V c).Φ t.castSucc ∗ (fdat V c).owesAt () t.castSucc
    ∗ (∃ d, owns (c : Thread nD τ) (st1_0 t) fullShare ((fdat V c).before 0 t d))
    ∗ (∃ d, owns (c : Thread nD τ) (st1_1 t) fullShare ((fdat V c).before 1 t d))
    ∗ (∃ d, owns (c : Thread nD τ) (st1_2 t) fullShare ((fdat V c).before 2 t d))
    ∗ (∃ d, owns (c : Thread nD τ) (st1_3 t) fullShare ((fdat V c).before 3 t d))
    ∗ (∃ d, owns (c : Thread nD τ) (st1_4 t) fullShare ((fdat V c).before 4 t d))
    ∗ (∃ d, owns (c : Thread nD τ) (st1_5 t) fullShare ((fdat V c).before 5 t d)))

def fPost (c : Dev nD) (t : Fin cfg1.N) : sProp 𝕄 :=
  iprop((fdat V c).Φ t.succ ∗ (fdat V c).owesAt () t.succ
    ∗ (fdat V c).leavesExact 0 t
    ∗ (fdat V c).leavesExact 1 t
    ∗ (fdat V c).leavesExact 2 t
    ∗ (fdat V c).leavesExact 3 t
    ∗ (fdat V c).leavesExact 4 t
    ∗ (fdat V c).leavesExact 5 t)

theorem fleaves_in (c : Dev nD) (t : Fin cfg1.N) (w : Fin cfg1.W) (hl : cfg1.idle w (grid1.coords t) = false) :
    (fdat V c).leavesExact w t = owns (c : Thread nD τ) ((cfg1.win w).stage (cfg1.slots t w)) fullShare ((fdat V c).after w t) := by
  unfold Dat.leavesExact; rw [hl]

set_option maxHeartbeats 4000000 in
theorem sound_fbody (c : Dev nD) (t : Fin cfg1.N) :
    fPre V c t ⊢ wp frame (wpE (defs₀ (F := F)) Variants.none c none) Set.univ (bodyAt1 t) (fun _ => fPost V c t) := by
  unfold fPre fPost bodyAt1
  simp only [fbefore0, fbefore1, fbefore2, fbefore3, fbefore4]
  rw [show (fdat V c).owesAt () t.succ = (fdat V c).owesAt () t.castSucc from rfl]
  rw [show (fdat V c).Φ t.succ = PhiF V c (t.val + 1) from rfl, show (fdat V c).Φ t.castSucc = PhiF V c t.val from rfl]
  rw [fleaves_in V c t 0 (flive0 t), fleaves_in V c t 1 (flive1 t), fleaves_in V c t 2 (flive2 t), fleaves_in V c t 3 (flive3 t),
    fleaves_in V c t 4 (flive4 t), fafter0, fafter1, fafter2, fafter3, fafter4]
  by_cases hA : t.val < 25
  · -- a first-layer point
    have h1 : k1_cond1 (grid1.coords t) = 1#1 := (hcondA t).mpr hA
    have h2 : ¬k1_cond2 (grid1.coords t) = 1#1 := fun h => by have := (hcondB t).mp h; omega
    rw [Dat.leavesExact_idle (fdat V c) 5 t (idleOutA t hA) (noFlushOutA t hA)]
    unfold PhiF
    iintro ⟨⟨HO, ⟨%v, %hv, HS⟩, Hg⟩, Ho, ⟨%d0, H0⟩, ⟨%d1, H1⟩, ⟨%d2, H2⟩, ⟨%d3, H3⟩, ⟨%d4, H4⟩, ⟨%d5, H5⟩⟩
    iapply (sound_fusedA c Set.univ (grid1.coords t) h1 h2 _ _ _ _ _ _ _ _ _ _ _ _
      (fblk V c 0 t) (fblk V c 1 t) (fblk V c 2 t) (fblk V c 3 t) (fblk V c 4 t) _ v _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HO HS Hg]
    · isplitl [HO]; · iexact HO
      isplitl [HS]
      · iexists _; isplitr; · ipureintro; exact ScrOK_step V c t hA h1 v hv
        iexact HS
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · -- a second-layer point
    have hB : 25 ≤ t.val := Nat.le_of_not_lt hA
    have h1 : ¬k1_cond1 (grid1.coords t) = 1#1 := fun h => hA ((hcondA t).mp h)
    have h2 : k1_cond2 (grid1.coords t) = 1#1 := (hcondB t).mpr hB
    rw [fleaves_in V c t 5 (liveOutB t hB), fafter5]
    unfold PhiF
    iintro ⟨⟨HO, ⟨%v, %hv, HS⟩, Hg⟩, Ho, ⟨%d0, H0⟩, ⟨%d1, H1⟩, ⟨%d2, H2⟩, ⟨%d3, H3⟩, ⟨%d4, H4⟩, ⟨%d5, H5⟩⟩
    obtain rfl : v = scrFull V c := ScrOK_full V c t.val hB v hv
    iapply (sound_fusedB c Set.univ (grid1.coords t) h1 h2 _ _ _ _ _ _ _ _ _ _ _ _
      (fblk V c 0 t) (fblk V c 1 t) (fblk V c 2 t) (fblk V c 3 t) (fblk V c 4 t) (scrFull V c) _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    isplitl [HO HS Hg]
    · isplitl [HO]; · iexact HO
      isplitl [HS]
      · iexists _; isplitr; · ipureintro; exact ScrOK_succ_of_full V c t.val hB _ hv
        iexact HS
      iexact Hg
    isplitl [Ho]; · iexact Ho
    isplitl [H0]; · iexact H0
    isplitl [H1]; · iexact H1
    isplitl [H2]; · iexact H2
    isplitl [H3]; · iexact H3
    isplitl [H4]; · iexact H4
    iexact H5

theorem fbody_obligation (c : Dev nD) : BodyObligation (fdat (F := F) V c) (defs₀ (F := F)) Variants.none () Set.univ := fun t => by
  rw [bigSep_W1, bigSep_W1]
  exact sound_fbody V c t

/-- What the launch hands the call is the invariant before the first point; after the last point the invariant gives it back. -/
theorem fhin (c : Dev nD) : (Pipeline.ΦA spec1 c : sProp 𝕄) ⊢ (fdat V c).Φ 0 := PhiF_open V c
theorem fhout (c : Dev nD) : (fdat V c).Φ (Fin.last cfg1.N) ⊢ (Pipeline.ΦA spec1 c : sProp 𝕄) := PhiF_close V c _

end Cert.KernelIdeal.Hand

end
-- ==== Proof.RunI.lean ====
/-
  The whole program: three host operations (the two biases re-laid as rows, `W2` narrowed), the first call, the
  second call. This module states, at any float instance, what every unscoped buffer of a core holds at each
  boundary between those items — the launch memory; after the host operations; after the first call (its output array
  at what its write-backs leave, the rest as before); after the second call likewise — and proves that every weakly fair
  execution terminates with every unscoped buffer at the last boundary's contents. The two calls enter the run each as
  a record over its own proof data; read at the arguments, which no item writes, the run is the frame.
-/
import proofs.«125996_g10651518894447_week1_w2_746_19_alg».proof.Proof.RegionSupportI
import proofs.«125996_g10651518894447_week1_w2_746_19_alg».proof.Proof.RegionFusedI
import proofs.«125996_g10651518894447_week1_w2_746_19_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev B0 : Dev nD → Valuation τ sig (Elt F) := fun c b => (s₀ m ρ).mem ((c : Dev nD), b)
/-- After the host operations (the first call's entry). -/
abbrev B1 : Dev nD → Valuation τ sig (Elt F) := fun c => StableHlo.after hostOps0 (B0 m ρ c)
abbrev U1 : (c : Dev nD) → (b : Ref sig .tc) → Buf (Elt F) ((c : Thread nD τ).loc b) := fun c b => B1 m ρ c b
/-- After the first call: its arrays at what the write-backs leave, every other buffer as entered. -/
def B2 (c : Dev nD) : Valuation τ sig (Elt F) :=
  Pipeline.withArrays spec0 c (B1 m ρ c) fun w => (sdat (U1 m ρ) c).arrAt w cfg0.N
theorem B2_arr (c : Dev nD) (w : Fin cfg0.W) :
    B2 m ρ c (Proc.devRef .tc (Pipeline.arrRef spec0 w)) = (sdat (U1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev U2 : (c : Dev nD) → (b : Ref sig .tc) → Buf (Elt F) ((c : Thread nD τ).loc b) := fun c b => B2 m ρ c b
theorem hF0 (c : Dev nD) (w : Fin cfg0.W) : (sdat (U1 m ρ) c).arrAt w cfg0.N = U2 m ρ c (Pipeline.arrRef spec0 w) :=
  (B2_arr m ρ c w).symm
theorem hrest0 (c : Dev nD) : ∀ b, b ∉ Finset.univ.image (Pipeline.arrRef spec0) → U2 m ρ c b = U1 m ρ c b :=
  fun b hb => B2_of_ne m ρ c b fun w e => hb (Finset.mem_image.mpr ⟨w, Finset.mem_univ _, e⟩)
/-- After the second call (what the launch reads at the end). -/
def B3 (c : Dev nD) : Valuation τ sig (Elt F) :=
  Pipeline.withArrays spec1 c (B2 m ρ c) fun w => (fdat (U2 m ρ) c).arrAt w cfg1.N
theorem B3_arr (c : Dev nD) (w : Fin cfg1.W) :
    B3 m ρ c (Proc.devRef .tc (Pipeline.arrRef spec1 w)) = (fdat (U2 m ρ) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m ρ c (Proc.devRef .tc b) = B2 m ρ c (Proc.devRef .tc b) := by
  unfold B3; exact Pipeline.withArrays_of_ne spec1 c _ _ b hb
abbrev U3 : (c : Dev nD) → (b : Ref sig .tc) → Buf (Elt F) ((c : Thread nD τ).loc b) := fun c b => B3 m ρ c b
theorem hF1 (c : Dev nD) (w : Fin cfg1.W) : (fdat (U2 m ρ) c).arrAt w cfg1.N = U3 m ρ c (Pipeline.arrRef spec1 w) :=
  (B3_arr m ρ c w).symm
theorem hrest1 (c : Dev nD) : ∀ b, b ∉ Finset.univ.image (Pipeline.arrRef spec1) → U3 m ρ c b = U2 m ρ c b :=
  fun b hb => B3_of_ne m ρ c b fun w e => hb (Finset.mem_image.mpr ⟨w, Finset.mem_univ _, e⟩)

/-! ## No item writes an argument: each ends as launched -/

theorem B3_main_arg0 (c : Dev nD) : B3 m ρ c (Proc.devRef .tc main_arg0) = m ((c : Thread nD τ).loc main_arg0) :=
  calc B3 m ρ c (Proc.devRef .tc main_arg0)
    _ = B2 m ρ c (Proc.devRef .tc main_arg0) := B3_of_ne m ρ c main_arg0 (by decide)
    _ = B1 m ρ c (Proc.devRef .tc main_arg0) := (B2_arr m ρ c 0).trans (((sdat (U1 m ρ) c).arrAt_in 0 rfl _).trans (sA_eq (U1 m ρ) c 0))
    _ = B0 m ρ c (Proc.devRef .tc main_arg0) := StableHlo.after_of_writes_sub hostOps0 _ hostOps0_writes (by decide)
    _ = m ((c : Thread nD τ).loc main_arg0) := rfl

theorem B3_main_arg1 (c : Dev nD) : B3 m ρ c (Proc.devRef .tc main_arg1) = m ((c : Thread nD τ).loc main_arg1) :=
  calc B3 m ρ c (Proc.devRef .tc main_arg1)
    _ = B2 m ρ c (Proc.devRef .tc main_arg1) := (B3_arr m ρ c 0).trans (((fdat (U2 m ρ) c).arrAt_in 0 rfl _).trans (fA_eq (U2 m ρ) c 0))
    _ = B1 m ρ c (Proc.devRef .tc main_arg1) := B2_of_ne m ρ c main_arg1 (by decide)
    _ = B0 m ρ c (Proc.devRef .tc main_arg1) := StableHlo.after_of_writes_sub hostOps0 _ hostOps0_writes (by decide)
    _ = m ((c : Thread nD τ).loc main_arg1) := rfl

theorem B3_main_arg2 (c : Dev nD) : B3 m ρ c (Proc.devRef .tc main_arg2) = m ((c : Thread nD τ).loc main_arg2) :=
  calc B3 m ρ c (Proc.devRef .tc main_arg2)
    _ = B2 m ρ c (Proc.devRef .tc main_arg2) := B3_of_ne m ρ c main_arg2 (by decide)
    _ = B1 m ρ c (Proc.devRef .tc main_arg2) := (B2_arr m ρ c 1).trans (((sdat (U1 m ρ) c).arrAt_in 1 rfl _).trans (sA_eq (U1 m ρ) c 1))
    _ = B0 m ρ c (Proc.devRef .tc main_arg2) := StableHlo.after_of_writes_sub hostOps0 _ hostOps0_writes (by decide)
    _ = m ((c : Thread nD τ).loc main_arg2) := rfl

theorem B3_main_arg3 (c : Dev nD) : B3 m ρ c (Proc.devRef .tc main_arg3) = m ((c : Thread nD τ).loc main_arg3) :=
  calc B3 m ρ c (Proc.devRef .tc main_arg3)
    _ = B2 m ρ c (Proc.devRef .tc main_arg3) := B3_of_ne m ρ c main_arg3 (by decide)
    _ = B1 m ρ c (Proc.devRef .tc main_arg3) := B2_of_ne m ρ c main_arg3 (by decide)
    _ = B0 m ρ c (Proc.devRef .tc main_arg3) := StableHlo.after_of_writes_sub hostOps0 _ hostOps0_writes (by decide)
    _ = m ((c : Thread nD τ).loc main_arg3) := rfl

theorem B3_main_arg4 (c : Dev nD) : B3 m ρ c (Proc.devRef .tc main_arg4) = m ((c : Thread nD τ).loc main_arg4) :=
  calc B3 m ρ c (Proc.devRef .tc main_arg4)
    _ = B2 m ρ c (Proc.devRef .tc main_arg4) := B3_of_ne m ρ c main_arg4 (by decide)
    _ = B1 m ρ c (Proc.devRef .tc main_arg4) := B2_of_ne m ρ c main_arg4 (by decide)
    _ = B0 m ρ c (Proc.devRef .tc main_arg4) := StableHlo.after_of_writes_sub hostOps0 _ hostOps0_writes (by decide)
    _ = m ((c : Thread nD τ).loc main_arg4) := rfl

theorem B3_main_arg5 (c : Dev nD) : B3 m ρ c (Proc.devRef .tc main_arg5) = m ((c : Thread nD τ).loc main_arg5) :=
  calc B3 m ρ c (Proc.devRef .tc main_arg5)
    _ = B2 m ρ c (Proc.devRef .tc main_arg5) := B3_of_ne m ρ c main_arg5 (by decide)
    _ = B1 m ρ c (Proc.devRef .tc main_arg5) := B2_of_ne m ρ c main_arg5 (by decide)
    _ = B0 m ρ c (Proc.devRef .tc main_arg5) := StableHlo.after_of_writes_sub hostOps0 _ hostOps0_writes (by decide)
    _ = m ((c : Thread nD τ).loc main_arg5) := rfl

/-- The result's array ends at what the second call's write-backs leave. -/
theorem B3_main_v4 (c : Dev nD) : B3 m ρ c (Proc.devRef .tc main_v4) = (fdat (U2 m ρ) c).arrAt 5 cfg1.N := B3_arr m ρ c 5

/-! ## The proof data family and the thread state -/

/-- Every pipeline's proof data, each at its call's entry contents. -/
def pdats : (p : Fin 2) → (c : Dev nD) → Dat τ (Elt F) Unit ℕ (UR sig nD τ) ℕ (Pipeline.pin (pcfgs (F := F)) adm p) c
  | ⟨0, _⟩ => fun c => sdat (U1 m ρ) c
  | ⟨1, _⟩ => fun c => fdat (U2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev Rest (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m ρ c) ∗ ∃ r, prngReg c r)

/-! ## The two calls as records over the thread state -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (sbody_obligation (U1 m ρ) c).loose
  hwaits := Pipeline.hwaits_of_owed_zero _ _ _ _ L lv 0 fun _ _ => rfl
  pre c := iprop(StableHlo.held (c : Thread nD τ) (Pipeline.ucRefs τ sig) (B1 m ρ c) ∗ Rest c)
  post c := iprop(StableHlo.held (c : Thread nD τ) (Pipeline.ucRefs τ sig) (B2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (fbody_obligation (U2 m ρ) c).loose
  hwaits := Pipeline.hwaits_of_owed_zero _ _ _ _ L lv 1 fun _ _ => rfl
  pre c := iprop(StableHlo.held (c : Thread nD τ) (Pipeline.ucRefs τ sig) (B2 m ρ c) ∗ Rest c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (fdat (U2 m ρ) c).Φ 0 from rfl]
    have h0 := fhin (U2 m ρ) c
    unfold Pipeline.ΦA at h0
    iintro ⟨Hp, -, Hr⟩
    iapply h0
    isplitl [Hr]; · iexact Hr
    iexact Hp
  hout c := by
    rw [Pipeline.ownSems0_none, show (pdats m ρ 1 c).Φ (Fin.last _) = (fdat (U2 m ρ) c).Φ (Fin.last cfg1.N) from rfl]
    have h0 := fhout (U2 m ρ) c
    unfold Pipeline.ΦA at h0
    iintro HF
    ihave H := h0 $$ HF
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (hseg hostOps0 hostOps0_sub hostOps0_fresh (B0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- Every weakly fair execution of the program terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m ρ c b)
    (hfin := fun c s' => by
      iintro ⟨⟨Hh, -⟩, HSI⟩
      unfold StableHlo.held
      imodintro
      iapply (pointsTo_read_all (Pipeline.ucRefs τ sig) (fun b => (((c : Thread nD τ)).1, b)) (B3 m ρ c) s')
      isplitl [Hh] <;> iassumption)
    (hQ := fun s h => h)

/-- THE FRAME: the program runs to the end, nothing faulting, and its six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c),
     (h c _ (mem_uc main_arg4 (by decide))).trans (B3_main_arg4 m ρ c),
     (h c _ (mem_uc main_arg5 (by decide))).trans (B3_main_arg5 m ρ c)⟩) (run_all m ρ)

/-- The same run read at the result: its array ends at what the second call's write-backs leave. -/
theorem run_result : θ_run defs (onTc (τ := τ) (main (F := F))) ⟨m, fun _ => 0, ρ⟩ (fun r => ∀ c : Dev nD,
      r.2.mem ((c.tc : Thread nD τ).loc main_v4) = (fdat (U2 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v4 (by decide))).trans (B3_main_v4 m ρ c),
     (h c _ (mem_uc main_arg0 (by decide))).trans (B3_main_arg0 m ρ c),
     (h c _ (mem_uc main_arg1 (by decide))).trans (B3_main_arg1 m ρ c),
     (h c _ (mem_uc main_arg2 (by decide))).trans (B3_main_arg2 m ρ c),
     (h c _ (mem_uc main_arg3 (by decide))).trans (B3_main_arg3 m ρ c),
     (h c _ (mem_uc main_arg4 (by decide))).trans (B3_main_arg4 m ρ c),
     (h c _ (mem_uc main_arg5 (by decide))).trans (B3_main_arg5 m ρ c)⟩) (run_all m ρ)

end Cert.KernelIdeal.Hand

end
-- ==== Proof.Spec.lean ====
/- The two-layer dense graph convolution as a function of literal-range coordinates.

   Over the extended reals, with node features x : [10000, 300], adjacency adj : [10000, 10000],
   weights W1, W2 : [300, 300] and biases b1, b2 : [300]:
     sup1[n, j] = Σ_{p < 300}   x[n, p] * W1[p, j]
     hid[r, j]  = max (Σ_{n < 10000} adj[r, n] * sup1[n, j] + b1[j]) 0
     sup2[r, q] = Σ_{j < 300}   hid[r, j] * W2[j, q]
     out[r, q]  = Σ_{n < 10000} adj[r, n] * sup2[n, q] + b2[q]
   The zero of the rectifier is written as the value of the f32 word 0x00000000 (which is the
   extended real 0, `zero_eq`), the spelling under which both programs read it. -/
import Idealize.ShloMosaic.PureOps.Ideal
import Idealize.ShloMosaic.Lib.ValueIdx

noncomputable section

open scoped BigOperators

namespace Cert.Gcn

open Idealize.ShloMosaic Idealize.ShloMosaic.ValueIdx

/-- The rectifier's threshold: the value of the f32 word of all zero bits. -/
abbrev zero : EReal := Ideal.ofBits .f32 0x00000000#32

/-- It is the extended real zero. -/
theorem zero_eq : zero = 0 := by simp [zero, Ideal.ofBits, Ideal.ieee]

/-- First layer's support: the features times the first weight matrix. -/
def sup1 (x : (⟨2, ![10000, 300]⟩ : Shape).Idx → EReal) (W1 : (⟨2, ![300, 300]⟩ : Shape).Idx → EReal)
    (n : Fin 10000) (j : Fin 300) : EReal :=
  ∑ p : Fin 300, x (ix2 n p) * W1 (ix2 p j)

/-- Hidden layer: the adjacency times the support, plus the bias, rectified. -/
def hid (x : (⟨2, ![10000, 300]⟩ : Shape).Idx → EReal) (adj : (⟨2, ![10000, 10000]⟩ : Shape).Idx → EReal)
    (W1 : (⟨2, ![300, 300]⟩ : Shape).Idx → EReal) (b1 : (⟨1, ![300]⟩ : Shape).Idx → EReal)
    (r : Fin 10000) (j : Fin 300) : EReal :=
  max ((∑ n : Fin 10000, adj (ix2 r n) * sup1 x W1 n j) + b1 (ix1 j)) zero

/-- Second layer's support: the hidden layer times the second weight matrix. -/
def sup2 (x : (⟨2, ![10000, 300]⟩ : Shape).Idx → EReal) (adj : (⟨2, ![10000, 10000]⟩ : Shape).Idx → EReal)
    (W1 : (⟨2, ![300, 300]⟩ : Shape).Idx → EReal) (b1 : (⟨1, ![300]⟩ : Shape).Idx → EReal)
    (W2 : (⟨2, ![300, 300]⟩ : Shape).Idx → EReal) (r : Fin 10000) (q : Fin 300) : EReal :=
  ∑ j : Fin 300, hid x adj W1 b1 r j * W2 (ix2 j q)

/-- The output at row `r` and column `q`: the adjacency times the second support, plus the bias. -/
def outAt (x : (⟨2, ![10000, 300]⟩ : Shape).Idx → EReal) (adj : (⟨2, ![10000, 10000]⟩ : Shape).Idx → EReal)
    (W1 : (⟨2, ![300, 300]⟩ : Shape).Idx → EReal) (b1 : (⟨1, ![300]⟩ : Shape).Idx → EReal)
    (W2 : (⟨2, ![300, 300]⟩ : Shape).Idx → EReal) (b2 : (⟨1, ![300]⟩ : Shape).Idx → EReal)
    (r : Fin 10000) (q : Fin 300) : EReal :=
  (∑ n : Fin 10000, adj (ix2 r n) * sup2 x adj W1 b1 W2 n q) + b2 (ix1 q)

/-- The output as an array over the index set of shape [10000, 300]. -/
def out (x : (⟨2, ![10000, 300]⟩ : Shape).Idx → EReal) (adj : (⟨2, ![10000, 10000]⟩ : Shape).Idx → EReal)
    (W1 : (⟨2, ![300, 300]⟩ : Shape).Idx → EReal) (b1 : (⟨1, ![300]⟩ : Shape).Idx → EReal)
    (W2 : (⟨2, ![300, 300]⟩ : Shape).Idx → EReal) (b2 : (⟨1, ![300]⟩ : Shape).Idx → EReal) :
    (⟨2, ![10000, 300]⟩ : Shape).Idx → EReal :=
  fun i => outAt x adj W1 b1 W2 b2 (i 0 : Fin 10000) (i 1 : Fin 300)

/-- The output array at the index of coordinates `(r, q)`. -/
theorem out_ix2 (x : (⟨2, ![10000, 300]⟩ : Shape).Idx → EReal) (adj : (⟨2, ![10000, 10000]⟩ : Shape).Idx → EReal)
    (W1 : (⟨2, ![300, 300]⟩ : Shape).Idx → EReal) (b1 : (⟨1, ![300]⟩ : Shape).Idx → EReal)
    (W2 : (⟨2, ![300, 300]⟩ : Shape).Idx → EReal) (b2 : (⟨1, ![300]⟩ : Shape).Idx → EReal)
    (r : Fin 10000) (q : Fin 300) :
    out x adj W1 b1 W2 b2 (ix2 r q) = outAt x adj W1 b1 W2 b2 r q := rfl

end Cert.Gcn

end
-- ==== Proof.PaySupport.lean ====
/- The first kernel's stored value read at an index, over the extended reals: a block of 1000 rows of
   the features times the first weight matrix. The product accumulates into a zero array, so the
   element at (p, q) is the sum over the contraction coordinate k of v0[p, k] * v1[k, q]; the change
   of format that follows is the identity on extended reals. -/
import proofs.«125996_g10651518894447_week1_w2_746_19_alg».proof.Proof.Gen.KernelIdeal.Skeleton
import proofs.«125996_g10651518894447_week1_w2_746_19_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.Gcn.Pay

open Cert.KernelIdeal Cert.KernelIdeal.Gen Idealize.ShloMosaic Idealize.ShloMosaic.ValueIdx

/-- The left operand's index at output index `j` and contraction index `c`: row `j 0` … -/
theorem dotA_lhs0 (j : S1000x300.Idx) (c : dot_S1000x300_S300x300_S1000x300_1_0_0_1_n_n.contr.Idx) : (dot_S1000x300_S300x300_S1000x300_1_0_0_1_n_n.lhsIdx j c 0).val = (j 0).val := by
  unfold DotDims.lhsIdx
  rw [dif_neg (show ¬(0 : Fin S1000x300.rank) ∈ dot_S1000x300_S300x300_S1000x300_1_0_0_1_n_n.lhsBatch by decide), dif_pos (show (0 : Fin S1000x300.rank) ∈ dot_S1000x300_S300x300_S1000x300_1_0_0_1_n_n.lhsNonContracting by decide)]
  rfl
/-- … and column the contraction coordinate. -/
theorem dotA_lhs1 (j : S1000x300.Idx) (c : dot_S1000x300_S300x300_S1000x300_1_0_0_1_n_n.contr.Idx) : (dot_S1000x300_S300x300_S1000x300_1_0_0_1_n_n.lhsIdx j c 1).val = (c ⟨0, by decide⟩).val :=
  dot_S1000x300_S300x300_S1000x300_1_0_0_1_n_n.lhsIdx_val_of_single rfl j c
/-- The right operand's index: row the contraction coordinate … -/
theorem dotA_rhs0 (j : S1000x300.Idx) (c : dot_S1000x300_S300x300_S1000x300_1_0_0_1_n_n.contr.Idx) : (dot_S1000x300_S300x300_S1000x300_1_0_0_1_n_n.rhsIdx j c 0).val = (c ⟨0, by decide⟩).val :=
  dot_S1000x300_S300x300_S1000x300_1_0_0_1_n_n.rhsIdx_val_of_single rfl j c
/-- … and column `j 1`. -/
theorem dotA_rhs1 (j : S1000x300.Idx) (c : dot_S1000x300_S300x300_S1000x300_1_0_0_1_n_n.contr.Idx) : (dot_S1000x300_S300x300_S1000x300_1_0_0_1_n_n.rhsIdx j c 1).val = (j 1).val := by
  unfold DotDims.rhsIdx
  rw [dif_neg (show ¬(1 : Fin S300x300.rank) ∈ dot_S1000x300_S300x300_S1000x300_1_0_0_1_n_n.rhsBatch by decide), dif_pos (show (1 : Fin S300x300.rank) ∈ dot_S1000x300_S300x300_S1000x300_1_0_0_1_n_n.rhsNonContracting by decide)]
  rfl

/-- The first kernel's payload at `(p, q)`. -/
theorem k0_pay1_apply (v0 : (⟨2, ![1000, 300]⟩ : Shape).Idx → EReal) (v1 : (⟨2, ![300, 300]⟩ : Shape).Idx → EReal)
    (p : Fin 1000) (q : Fin 300) :
    k0_pay1 (F := Ideal) v0 v1 (ix2 p q) = ∑ k : Fin 300, v0 (ix2 p k) * v1 (ix2 k q) := by
  show FloatOps.matmul (F := Ideal) (φ₁ := .f32) (φ₂ := .f32) dot_S1000x300_S300x300_S1000x300_1_0_0_1_n_n (some .fp32) v0 v1
      (constant S1000x300 .f32 0x00000000#32) (ix2 p q) = _
  rw [Ideal.matmul_constant_zero_apply,
    ← Equiv.sum_comp (contrEquiv1 dot_S1000x300_S300x300_S1000x300_1_0_0_1_n_n 300 rfl rfl).symm]
  refine Finset.sum_congr rfl fun k _ => ?_
  have hk := contrEquiv1_symm_val dot_S1000x300_S300x300_S1000x300_1_0_0_1_n_n 300 rfl rfl k
  have el : dot_S1000x300_S300x300_S1000x300_1_0_0_1_n_n.lhsIdx (ix2 p q)
      ((contrEquiv1 dot_S1000x300_S300x300_S1000x300_1_0_0_1_n_n 300 rfl rfl).symm k) = ix2 p k :=
    funext fun a => Fin.ext (by
      match a with
      | ⟨0, _⟩ => exact dotA_lhs0 _ _
      | ⟨1, _⟩ => exact (dotA_lhs1 _ _).trans hk)
  have er : dot_S1000x300_S300x300_S1000x300_1_0_0_1_n_n.rhsIdx (ix2 p q)
      ((contrEquiv1 dot_S1000x300_S300x300_S1000x300_1_0_0_1_n_n 300 rfl rfl).symm k) = ix2 k q :=
    funext fun a => Fin.ext (by
      match a with
      | ⟨0, _⟩ => exact (dotA_rhs0 _ _).trans hk
      | ⟨1, _⟩ => exact dotA_rhs1 _ _)
  rw [el, er]

end Cert.Gcn.Pay

end
-- ==== Proof.BlocksSupport.lean ====
/- The first call's output array, assembled from its blocks, over the extended reals.

   The call runs over 10 points; at point t the body multiplies rows 1000 t … 1000 t + 999 of the
   features by the whole first weight matrix and the product is written back to the same rows of the
   output. An element (p, k) of the features' block at t is the array's element (1000 t + p, k); the
   weights' block is the array itself; so what point t writes back is block t of the array
   i ↦ sup1 x W1 (i 0) (i 1), and as the ten blocks of 1000 rows cover the 10000 rows (row r lies in
   the block of point r / 1000), the output array ends as that array. -/
import proofs.«125996_g10651518894447_week1_w2_746_19_alg».proof.Proof.RegionSupportI
import proofs.«125996_g10651518894447_week1_w2_746_19_alg».proof.Proof.Spec
import proofs.«125996_g10651518894447_week1_w2_746_19_alg».proof.Proof.PaySupport
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offsets of a whole-block access. -/
theorem offsets_zero : (![0, 0] : Fin 2 → Nat) = fun _ => 0 := funext fun a => by fin_cases a <;> rfl

/-- The first layer's support as an array over the index set of shape [10000, 300]. -/
abbrev sup1Arr (x : (⟨2, ![10000, 300]⟩ : Shape).Idx → EReal) (W1 : (⟨2, ![300, 300]⟩ : Shape).Idx → EReal) :
    (⟨2, ![10000, 300]⟩ : Shape).Idx → EReal :=
  fun i => Cert.Gcn.sup1 x W1 (i 0 : Fin 10000) (i 1 : Fin 300)

/-- It reads, at the index of coordinates `(r, j)`, the support at `(r, j)`. -/
theorem sup1Arr_ix2 (x : (⟨2, ![10000, 300]⟩ : Shape).Idx → EReal) (W1 : (⟨2, ![300, 300]⟩ : Shape).Idx → EReal)
    (r : Fin 10000) (j : Fin 300) : sup1Arr x W1 (ix2 r j) = Cert.Gcn.sup1 x W1 r j := rfl

/-- The block indices over the grid: the features' and the output's blocks are at block row `t`,
    block column 0; the weights' block is at (0, 0). -/
theorem support_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The grid has ten points. -/
theorem support_points (t : Fin cfg0.N) : t.val < 10 := by
  have h : cfg0.N = 10 := N_0
  have := t.isLt
  omega

/-- The features' block at point `t`, at `(p, k)`, is the features at `(1000 t + p, k)`. -/
theorem sblk_x_apply (c : Dev nD) (t : Fin cfg0.N) (p : Fin 1000) (k : Fin 300) :
    (sblk V c 0 t : (⟨2, ![1000, 300]⟩ : Shape).Idx → EReal) (ix2 p k)
      = (V c main_arg0 : (⟨2, ![10000, 300]⟩ : Shape).Idx → EReal)
          (ix2 (⟨1000 * t.val + p.val, by have := support_points t; have := p.isLt; omega⟩ : Fin 10000) k) := by
  obtain ⟨e0, e1, -, -, -, -⟩ := support_index t
  unfold sblk
  rw [View.read_apply]
  show V c main_arg0 _ = V c main_arg0 _
  congr 1
  funext a
  apply Fin.ext
  match a with
  | ⟨0, _⟩ => show win0_0.index t (0 : Fin 2) * 1000 + 1 * p.val = 1000 * t.val + p.val; omega
  | ⟨1, _⟩ => show win0_0.index t (1 : Fin 2) * 300 + 1 * k.val = k.val; omega

/-- The weights' block at any point is the weights. -/
theorem sblk_w_apply (c : Dev nD) (t : Fin cfg0.N) (k : Fin 300) (q : Fin 300) :
    (sblk V c 1 t : (⟨2, ![300, 300]⟩ : Shape).Idx → EReal) (ix2 k q)
      = (V c main_arg2 : (⟨2, ![300, 300]⟩ : Shape).Idx → EReal) (ix2 k q) := by
  obtain ⟨-, -, e2, e3, -, -⟩ := support_index t
  unfold sblk
  rw [View.read_apply]
  show V c main_arg2 _ = V c main_arg2 _
  congr 1
  funext a
  apply Fin.ext
  match a with
  | ⟨0, _⟩ => show win0_1.index t (0 : Fin 2) * 300 + 1 * k.val = k.val; omega
  | ⟨1, _⟩ => show win0_1.index t (1 : Fin 2) * 300 + 1 * q.val = q.val; omega

/-- An element `(p, q)` of the output's block at point `t` sits in the array at `(1000 t + p, q)`. -/
theorem support_out_emb (t : Fin cfg0.N) (p : Fin 1000) (q : Fin 300) :
    (((cfg0.win 2).blk t).view.emb (ix2 p q) : (⟨2, ![10000, 300]⟩ : Shape).Idx)
      = ix2 (⟨1000 * t.val + p.val, by have := support_points t; have := p.isLt; omega⟩ : Fin 10000) q := by
  obtain ⟨-, -, -, -, e4, e5⟩ := support_index t
  funext a
  apply Fin.ext
  match a with
  | ⟨0, _⟩ => show win0_2.index t (0 : Fin 2) * 1000 + 1 * p.val = 1000 * t.val + p.val; omega
  | ⟨1, _⟩ => show win0_2.index t (1 : Fin 2) * 300 + 1 * q.val = q.val; omega

/-- What point `t` writes back is block `t` of the support array of the features and weights as the
    call finds them. -/
theorem support_flushed (c : Dev nD) (t : Fin cfg0.N) :
    (sdat (F := Ideal) V c).flushed 2 t
      = ((cfg0.win 2).blk t).view.read (Elt Ideal) (sup1Arr (V c main_arg0) (V c main_arg2)) := by
  show (cfg0.win 2).cut (grid0.coords t) ((sdat V c).after 2 t) = _
  rw [safter_out]
  unfold supOut
  rw [View.canon_unit_zero offsets_zero]
  simp only [View.ld_unit_zero (S := S1000x300) offsets_zero, View.ld_unit_zero (S := S300x300) offsets_zero]
  funext j
  obtain ⟨p, q, rfl⟩ : ∃ (p : Fin 1000) (q : Fin 300), j = ix2 p q :=
    ⟨j 0, j 1, eq_ix2 (n0 := 1000) (n1 := 300) j⟩
  show k0_pay1 (F := Ideal) (sblk V c 0 t) (sblk V c 1 t) (ix2 p q)
    = sup1Arr (V c main_arg0) (V c main_arg2) (((cfg0.win 2).blk t).view.emb (ix2 p q))
  refine (Cert.Gcn.Pay.k0_pay1_apply (sblk V c 0 t) (sblk V c 1 t) p q).trans ?_
  refine Eq.trans ?_ (congrArg (sup1Arr (V c main_arg0) (V c main_arg2)) (support_out_emb t p q)).symm
  rw [sup1Arr_ix2]
  unfold Cert.Gcn.sup1
  exact Finset.sum_congr rfl fun k _ => congrArg₂ (· * ·) (sblk_x_apply V c t p k) (sblk_w_apply V c t k q)

/-- An index of the output array is in point `t`'s block iff each coordinate is in the block's range. -/
theorem support_mem_blk (t : Fin cfg0.N) (i : S10000x300.Idx) :
    i ∈ ((cfg0.win 2).blk t).view.set ↔ ∀ a : Fin 2, win0_2.index t a * S1000x300.size a ≤ (i a).val
      ∧ (i a).val < win0_2.index t a * S1000x300.size a + S1000x300.size a := by
  show i ∈ ((View.whole main_v3).slice (win0_2.rect t)).set ↔ _
  rw [View.set_slice_whole, Rect.mem_set_unit]
  exact Iff.rfl

/-- Every index of the output array is in the block of a point that writes back: row `r` in that of
    point `r / 1000`. -/
theorem support_cover (i : S10000x300.Idx) :
    ∃ t : Fin cfg0.N, (cfg0.win 2).flush t = true ∧ i ∈ ((cfg0.win 2).blk t).view.set := by
  have hN : cfg0.N = 10 := N_0
  have h0 : (i 0).val < 10000 := (i 0).isLt
  have h1 : (i 1).val < 300 := (i 1).isLt
  let t : Fin cfg0.N := ⟨(i 0).val / 1000, by rw [hN]; omega⟩
  have ht : t.val = (i 0).val / 1000 := rfl
  obtain ⟨-, -, -, -, e4, e5⟩ := support_index t
  refine ⟨t, flush0_2 t, ?_⟩
  rw [support_mem_blk]
  intro a
  match a with
  | ⟨0, _⟩ =>
    show win0_2.index t (0 : Fin 2) * 1000 ≤ (i 0).val ∧ (i 0).val < win0_2.index t (0 : Fin 2) * 1000 + 1000
    omega
  | ⟨1, _⟩ =>
    show win0_2.index t (1 : Fin 2) * 300 ≤ (i 1).val ∧ (i 1).val < win0_2.index t (1 : Fin 2) * 300 + 300
    omega

/-- The output array after the call: the first layer's support of the features and weights as the
    call finds them. -/
theorem support_final (c : Dev nD) :
    (sdat (F := Ideal) V c).arrAt 2 cfg0.N = sup1Arr (V c main_arg0) (V c main_arg2) :=
  (sdat (F := Ideal) V c).arrAt_eq_of_cover 2 (sup1Arr (V c main_arg0) (V c main_arg2))
    (fun t _ => support_flushed V c t) support_cover

end Cert.KernelIdeal.Hand

end
-- ==== Proof.EntryI.lean ====
/-
  What the two calls find in their operands, at the ideal instance, in terms of the launch memory: the arguments
  are as launched (no item before a call writes one); the two biases re-laid as rows read, at row 0 and column `j`,
  the bias at `j`; the narrowed `W2` is `W2` (a change of format is the identity on extended reals); and the
  second call's first-support operand is what the first call left: the product of `x` and `W1`.
-/
import proofs.«125996_g10651518894447_week1_w2_746_19_alg».proof.Proof.RunI
import proofs.«125996_g10651518894447_week1_w2_746_19_alg».proof.Proof.BlocksSupport
import Idealize.ShloMosaic.Lib.Pipeline.Value
import Idealize.ShloMosaic.Lib.StableHlo.Run
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

/-- A buffer the host operations do not write holds its launch contents after them. -/
theorem B1_keeps (c : Dev nD) (r : Ref sig .tc) (h : r ∉ hostOps0_W) :
    B1 m ρ c (Proc.devRef .tc r) = m ((c : Thread nD τ).loc r) :=
  (StableHlo.after_of_writes_sub hostOps0 _ hostOps0_writes h).trans rfl

/-! ## The first call's operands -/

theorem U1_x (c : Dev nD) : U1 m ρ c main_arg0 = m ((c : Thread nD τ).loc main_arg0) := B1_keeps m ρ c main_arg0 (by decide)
theorem U1_w1 (c : Dev nD) : U1 m ρ c main_arg2 = m ((c : Thread nD τ).loc main_arg2) := B1_keeps m ρ c main_arg2 (by decide)

/-! ## The second call's operands -/

theorem U2_adj (c : Dev nD) : U2 m ρ c main_arg1 = m ((c : Thread nD τ).loc main_arg1) :=
  (B2_of_ne m ρ c main_arg1 (by decide)).trans (B1_keeps m ρ c main_arg1 (by decide))

/-- The first support, as the first call left it. -/
theorem U2_sup1 (c : Dev nD) :
    U2 m ρ c main_v3 = sup1Arr (m ((c : Thread nD τ).loc main_arg0)) (m ((c : Thread nD τ).loc main_arg2)) := by
  have h := (B2_arr m ρ c 2).trans (support_final (U1 m ρ) c)
  rw [U1_x, U1_w1] at h
  exact h

/-- The first bias as a row. -/
theorem U2_b1 (c : Dev nD) :
    (U2 m ρ c main_v0 : S1x300.Idx → EReal) = shapeCast S1x300 (m ((c : Thread nD τ).loc main_arg3)) Facts₀.shapeCasts_S300_S1x300 :=
  (B2_of_ne m ρ c main_v0 (by decide)).trans (by dsimp only [B1, hostOps0]; after_results; rfl)
theorem U2_b1_apply (c : Dev nD) (j : Fin 300) :
    (U2 m ρ c main_v0 : S1x300.Idx → EReal) (ix2 (0 : Fin 1) j) = (m ((c : Thread nD τ).loc main_arg3) : S300.Idx → EReal) (ix1 j) := by
  rw [U2_b1]
  exact (shapeCast_addUnit_apply (d := ![300]) _ _ _).trans (congrArg _ (funext fun a => by match a with | ⟨0, _⟩ => rfl))

/-- The second bias as a row. -/
theorem U2_b2 (c : Dev nD) :
    (U2 m ρ c main_v1 : S1x300.Idx → EReal) = shapeCast S1x300 (m ((c : Thread nD τ).loc main_arg5)) Facts₀.shapeCasts_S300_S1x300 :=
  (B2_of_ne m ρ c main_v1 (by decide)).trans (by dsimp only [B1, hostOps0]; after_results; rfl)
theorem U2_b2_apply (c : Dev nD) (j : Fin 300) :
    (U2 m ρ c main_v1 : S1x300.Idx → EReal) (ix2 (0 : Fin 1) j) = (m ((c : Thread nD τ).loc main_arg5) : S300.Idx → EReal) (ix1 j) := by
  rw [U2_b2]
  exact (shapeCast_addUnit_apply (d := ![300]) _ _ _).trans (congrArg _ (funext fun a => by match a with | ⟨0, _⟩ => rfl))

/-- The narrowed second weight matrix is the matrix. -/
theorem U2_w2 (c : Dev nD) :
    (U2 m ρ c main_v2 : S300x300.Idx → EReal) = m ((c : Thread nD τ).loc main_arg4) :=
  (B2_of_ne m ρ c main_v2 (by decide)).trans (by dsimp only [B1, hostOps0]; after_results; rfl)

end Cert.KernelIdeal.Hand

end
-- ==== Proof.SpecFrom.lean ====
/- The second layer of the graph convolution as a function of ANY stored first support.

   The second kernel does not see the features: it reads the first layer's support s1 : [10000, 300]
   from an array, the biases as one-row arrays [1, 300], and computes
     sup2From[n, q] = Σ_{j < 300} max (Σ_{n' < 10000} adj[n, n'] * s1[n', j] + b1r[0, j]) 0 * w2[j, q]
     outFrom[r, q]  = Σ_{n < 10000} adj[r, n] * sup2From[n, q] + b2r[0, q].
   When s1 is the first layer's support of the features and the one-row arrays hold the biases, this
   is the specification's output. -/
import proofs.«125996_g10651518894447_week1_w2_746_19_alg».proof.Proof.Spec

noncomputable section

open scoped BigOperators

namespace Cert.Gcn

open Idealize.ShloMosaic Idealize.ShloMosaic.ValueIdx

/-- The second support from the adjacency, a stored first support, a one-row bias and the second weights. -/
def sup2From (adj : (⟨2, ![10000, 10000]⟩ : Shape).Idx → EReal) (s1 : (⟨2, ![10000, 300]⟩ : Shape).Idx → EReal)
    (b1r : (⟨2, ![1, 300]⟩ : Shape).Idx → EReal) (w2 : (⟨2, ![300, 300]⟩ : Shape).Idx → EReal) (n : Fin 10000) (q : Fin 300) : EReal :=
  ∑ j : Fin 300, max ((∑ n' : Fin 10000, adj (ix2 n n') * s1 (ix2 n' j)) + b1r (ix2 (0 : Fin 1) j)) Cert.Gcn.zero
    * w2 (ix2 j q)

/-- The output from them and the second one-row bias. -/
def outFrom (adj : (⟨2, ![10000, 10000]⟩ : Shape).Idx → EReal) (s1 : (⟨2, ![10000, 300]⟩ : Shape).Idx → EReal)
    (b1r : (⟨2, ![1, 300]⟩ : Shape).Idx → EReal) (w2 : (⟨2, ![300, 300]⟩ : Shape).Idx → EReal)
    (b2r : (⟨2, ![1, 300]⟩ : Shape).Idx → EReal) (r : Fin 10000) (q : Fin 300) : EReal :=
  (∑ n : Fin 10000, adj (ix2 r n) * sup2From adj s1 b1r w2 n q) + b2r (ix2 (0 : Fin 1) q)

/-- The second support as an array over the index set of shape [10000, 300]. -/
abbrev sup2ArrFrom (adj : (⟨2, ![10000, 10000]⟩ : Shape).Idx → EReal) (s1 : (⟨2, ![10000, 300]⟩ : Shape).Idx → EReal)
    (b1r : (⟨2, ![1, 300]⟩ : Shape).Idx → EReal) (w2 : (⟨2, ![300, 300]⟩ : Shape).Idx → EReal) :
    (⟨2, ![10000, 300]⟩ : Shape).Idx → EReal :=
  fun i => sup2From adj s1 b1r w2 (i 0 : Fin 10000) (i 1 : Fin 300)

/-- The output as an array over the index set of shape [10000, 300]. -/
abbrev outArrFrom (adj : (⟨2, ![10000, 10000]⟩ : Shape).Idx → EReal) (s1 : (⟨2, ![10000, 300]⟩ : Shape).Idx → EReal)
    (b1r : (⟨2, ![1, 300]⟩ : Shape).Idx → EReal) (w2 : (⟨2, ![300, 300]⟩ : Shape).Idx → EReal)
    (b2r : (⟨2, ![1, 300]⟩ : Shape).Idx → EReal) : (⟨2, ![10000, 300]⟩ : Shape).Idx → EReal :=
  fun i => outFrom adj s1 b1r w2 b2r (i 0 : Fin 10000) (i 1 : Fin 300)

/-- The output array at the index of coordinates `(r, q)`. -/
theorem outArrFrom_ix2 (adj : (⟨2, ![10000, 10000]⟩ : Shape).Idx → EReal) (s1 : (⟨2, ![10000, 300]⟩ : Shape).Idx → EReal)
    (b1r : (⟨2, ![1, 300]⟩ : Shape).Idx → EReal) (w2 : (⟨2, ![300, 300]⟩ : Shape).Idx → EReal)
    (b2r : (⟨2, ![1, 300]⟩ : Shape).Idx → EReal) (r : Fin 10000) (q : Fin 300) :
    outArrFrom adj s1 b1r w2 b2r (ix2 r q) = outFrom adj s1 b1r w2 b2r r q := rfl

section Bridge

variable (x : (⟨2, ![10000, 300]⟩ : Shape).Idx → EReal) (adj : (⟨2, ![10000, 10000]⟩ : Shape).Idx → EReal)
  (W1 : (⟨2, ![300, 300]⟩ : Shape).Idx → EReal) (b1 : (⟨1, ![300]⟩ : Shape).Idx → EReal)
  (W2 : (⟨2, ![300, 300]⟩ : Shape).Idx → EReal) (b2 : (⟨1, ![300]⟩ : Shape).Idx → EReal)
  (s1 : (⟨2, ![10000, 300]⟩ : Shape).Idx → EReal) (b1r : (⟨2, ![1, 300]⟩ : Shape).Idx → EReal)
  (w2 : (⟨2, ![300, 300]⟩ : Shape).Idx → EReal) (b2r : (⟨2, ![1, 300]⟩ : Shape).Idx → EReal)

/-- With the first layer's support of the features stored in `s1`, the first bias in its one-row array
    and the second weights in `w2`: the specification's second support. -/
theorem sup2From_eq_sup2 (hs : ∀ n j, s1 (ix2 n j) = sup1 x W1 n j) (hb1 : ∀ j, b1r (ix2 (0 : Fin 1) j) = b1 (ix1 j))
    (hw2 : ∀ j q, w2 (ix2 j q) = W2 (ix2 j q)) (r : Fin 10000) (q : Fin 300) :
    sup2From adj s1 b1r w2 r q = sup2 x adj W1 b1 W2 r q := by
  unfold sup2From sup2 hid
  refine Finset.sum_congr rfl fun j _ => ?_
  rw [hb1 j, hw2 j q]
  exact congrArg (fun s => max (s + b1 (ix1 j)) zero * W2 (ix2 j q))
    (Finset.sum_congr rfl fun n _ => by rw [hs n j])

/-- … and, with the second bias in its one-row array, the specification's output at `(r, q)`. -/
theorem outFrom_eq_outAt (hs : ∀ n j, s1 (ix2 n j) = sup1 x W1 n j) (hb1 : ∀ j, b1r (ix2 (0 : Fin 1) j) = b1 (ix1 j))
    (hw2 : ∀ j q, w2 (ix2 j q) = W2 (ix2 j q)) (hb2 : ∀ q, b2r (ix2 (0 : Fin 1) q) = b2 (ix1 q))
    (r : Fin 10000) (q : Fin 300) :
    outFrom adj s1 b1r w2 b2r r q = outAt x adj W1 b1 W2 b2 r q := by
  unfold outFrom outAt
  rw [hb2 q]
  exact congrArg (· + b2 (ix1 q)) (Finset.sum_congr rfl fun n _ => by
    rw [sup2From_eq_sup2 x adj W1 b1 W2 s1 b1r w2 hs hb1 hw2 n q])

/-- The output array computed from the stored support and the one-row biases is the specification's. -/
theorem outArrFrom_eq_out (hs : ∀ n j, s1 (ix2 n j) = sup1 x W1 n j) (hb1 : ∀ j, b1r (ix2 (0 : Fin 1) j) = b1 (ix1 j))
    (hw2 : ∀ j q, w2 (ix2 j q) = W2 (ix2 j q)) (hb2 : ∀ q, b2r (ix2 (0 : Fin 1) q) = b2 (ix1 q)) :
    outArrFrom adj s1 b1r w2 b2r = out x adj W1 b1 W2 b2 := by
  funext i
  obtain ⟨r, q, rfl⟩ : ∃ (r : Fin 10000) (q : Fin 300), i = ix2 r q :=
    ⟨i 0, i 1, eq_ix2 (n0 := 10000) (n1 := 300) i⟩
  exact outFrom_eq_outAt x adj W1 b1 W2 b2 s1 b1r w2 b2r hs hb1 hw2 hb2 r q

end Bridge

end Cert.Gcn

end
-- ==== Proof.PayHidden.lean ====
/- The second kernel's scratch value read at an index, over the extended reals: a block of 400 rows of
   the second layer's support. The adjacency block times the first support accumulates into a zero
   array; the bias row is broadcast over the rows and added; the maximum with the zero array
   rectifies; that times the second weight matrix, again into a zero array, is the stored value. The
   changes of format and the casts of an array to its own shape are identities, so the element at
   (p, q) is the sum over j of
     max (Σ_n v0[p, n] * v8[n, j] + v11[0, j]) 0 * v18[j, q]. -/
import proofs.«125996_g10651518894447_week1_w2_746_19_alg».proof.Proof.Gen.KernelIdeal.Skeleton
import proofs.«125996_g10651518894447_week1_w2_746_19_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.Gcn.Pay

open Cert.KernelIdeal Cert.KernelIdeal.Gen Idealize.ShloMosaic Idealize.ShloMosaic.ValueIdx

/-- The left operand's index at output index `j` and contraction index `c`: row `j 0` … -/
theorem dotH1_lhs0 (j : S400x300.Idx) (c : dot_S400x10000_S10000x300_S400x300_1_0_0_1_n_n.contr.Idx) : (dot_S400x10000_S10000x300_S400x300_1_0_0_1_n_n.lhsIdx j c 0).val = (j 0).val := by
  unfold DotDims.lhsIdx
  rw [dif_neg (show ¬(0 : Fin S400x10000.rank) ∈ dot_S400x10000_S10000x300_S400x300_1_0_0_1_n_n.lhsBatch by decide), dif_pos (show (0 : Fin S400x10000.rank) ∈ dot_S400x10000_S10000x300_S400x300_1_0_0_1_n_n.lhsNonContracting by decide)]
  rfl
/-- … and column the contraction coordinate. -/
theorem dotH1_lhs1 (j : S400x300.Idx) (c : dot_S400x10000_S10000x300_S400x300_1_0_0_1_n_n.contr.Idx) : (dot_S400x10000_S10000x300_S400x300_1_0_0_1_n_n.lhsIdx j c 1).val = (c ⟨0, by decide⟩).val :=
  dot_S400x10000_S10000x300_S400x300_1_0_0_1_n_n.lhsIdx_val_of_single rfl j c
/-- The right operand's index: row the contraction coordinate … -/
theorem dotH1_rhs0 (j : S400x300.Idx) (c : dot_S400x10000_S10000x300_S400x300_1_0_0_1_n_n.contr.Idx) : (dot_S400x10000_S10000x300_S400x300_1_0_0_1_n_n.rhsIdx j c 0).val = (c ⟨0, by decide⟩).val :=
  dot_S400x10000_S10000x300_S400x300_1_0_0_1_n_n.rhsIdx_val_of_single rfl j c
/-- … and column `j 1`. -/
theorem dotH1_rhs1 (j : S400x300.Idx) (c : dot_S400x10000_S10000x300_S400x300_1_0_0_1_n_n.contr.Idx) : (dot_S400x10000_S10000x300_S400x300_1_0_0_1_n_n.rhsIdx j c 1).val = (j 1).val := by
  unfold DotDims.rhsIdx
  rw [dif_neg (show ¬(1 : Fin S10000x300.rank) ∈ dot_S400x10000_S10000x300_S400x300_1_0_0_1_n_n.rhsBatch by decide), dif_pos (show (1 : Fin S10000x300.rank) ∈ dot_S400x10000_S10000x300_S400x300_1_0_0_1_n_n.rhsNonContracting by decide)]
  rfl

/-- A [400, 10000] by [10000, 300] product accumulated into the zero array, read at `(p, q)`: the sum over the contraction
    coordinate `k` of the left operand at `(p, k)` times the right at `(k, q)`. -/
theorem dotH1_apply {φ₁ φ₂ : FTy} (prec : Option ContractPrecision) (l : FVec Ideal S400x10000 φ₁) (r : FVec Ideal S10000x300 φ₂)
    (p : Fin 400) (q : Fin 300) :
    FloatOps.matmul dot_S400x10000_S10000x300_S400x300_1_0_0_1_n_n prec l r (constant S400x300 .f32 0x00000000#32) (ix2 p q)
      = ∑ k : Fin 10000, l (ix2 p k) * r (ix2 k q) := by
  rw [Ideal.matmul_constant_zero_apply, ← Equiv.sum_comp (contrEquiv1 dot_S400x10000_S10000x300_S400x300_1_0_0_1_n_n 10000 rfl rfl).symm]
  refine Finset.sum_congr rfl fun k _ => ?_
  have hk := contrEquiv1_symm_val dot_S400x10000_S10000x300_S400x300_1_0_0_1_n_n 10000 rfl rfl k
  have el : dot_S400x10000_S10000x300_S400x300_1_0_0_1_n_n.lhsIdx (ix2 p q) ((contrEquiv1 dot_S400x10000_S10000x300_S400x300_1_0_0_1_n_n 10000 rfl rfl).symm k) = ix2 p k :=
    funext fun a => Fin.ext (by
      match a with
      | ⟨0, _⟩ => exact dotH1_lhs0 _ _
      | ⟨1, _⟩ => exact (dotH1_lhs1 _ _).trans hk)
  have er : dot_S400x10000_S10000x300_S400x300_1_0_0_1_n_n.rhsIdx (ix2 p q) ((contrEquiv1 dot_S400x10000_S10000x300_S400x300_1_0_0_1_n_n 10000 rfl rfl).symm k) = ix2 k q :=
    funext fun a => Fin.ext (by
      match a with
      | ⟨0, _⟩ => exact (dotH1_rhs0 _ _).trans hk
      | ⟨1, _⟩ => exact dotH1_rhs1 _ _)
  rw [el, er]

/-- The left operand's index at output index `j` and contraction index `c`: row `j 0` … -/
theorem dotH2_lhs0 (j : S400x300.Idx) (c : dot_S400x300_S300x300_S400x300_1_0_0_1_n_n.contr.Idx) : (dot_S400x300_S300x300_S400x300_1_0_0_1_n_n.lhsIdx j c 0).val = (j 0).val := by
  unfold DotDims.lhsIdx
  rw [dif_neg (show ¬(0 : Fin S400x300.rank) ∈ dot_S400x300_S300x300_S400x300_1_0_0_1_n_n.lhsBatch by decide), dif_pos (show (0 : Fin S400x300.rank) ∈ dot_S400x300_S300x300_S400x300_1_0_0_1_n_n.lhsNonContracting by decide)]
  rfl
/-- … and column the contraction coordinate. -/
theorem dotH2_lhs1 (j : S400x300.Idx) (c : dot_S400x300_S300x300_S400x300_1_0_0_1_n_n.contr.Idx) : (dot_S400x300_S300x300_S400x300_1_0_0_1_n_n.lhsIdx j c 1).val = (c ⟨0, by decide⟩).val :=
  dot_S400x300_S300x300_S400x300_1_0_0_1_n_n.lhsIdx_val_of_single rfl j c
/-- The right operand's index: row the contraction coordinate … -/
theorem dotH2_rhs0 (j : S400x300.Idx) (c : dot_S400x300_S300x300_S400x300_1_0_0_1_n_n.contr.Idx) : (dot_S400x300_S300x300_S400x300_1_0_0_1_n_n.rhsIdx j c 0).val = (c ⟨0, by decide⟩).val :=
  dot_S400x300_S300x300_S400x300_1_0_0_1_n_n.rhsIdx_val_of_single rfl j c
/-- … and column `j 1`. -/
theorem dotH2_rhs1 (j : S400x300.Idx) (c : dot_S400x300_S300x300_S400x300_1_0_0_1_n_n.contr.Idx) : (dot_S400x300_S300x300_S400x300_1_0_0_1_n_n.rhsIdx j c 1).val = (j 1).val := by
  unfold DotDims.rhsIdx
  rw [dif_neg (show ¬(1 : Fin S300x300.rank) ∈ dot_S400x300_S300x300_S400x300_1_0_0_1_n_n.rhsBatch by decide), dif_pos (show (1 : Fin S300x300.rank) ∈ dot_S400x300_S300x300_S400x300_1_0_0_1_n_n.rhsNonContracting by decide)]
  rfl

/-- A [400, 300] by [300, 300] product accumulated into the zero array, read at `(p, q)`: the sum over the contraction
    coordinate `k` of the left operand at `(p, k)` times the right at `(k, q)`. -/
theorem dotH2_apply {φ₁ φ₂ : FTy} (prec : Option ContractPrecision) (l : FVec Ideal S400x300 φ₁) (r : FVec Ideal S300x300 φ₂)
    (p : Fin 400) (q : Fin 300) :
    FloatOps.matmul dot_S400x300_S300x300_S400x300_1_0_0_1_n_n prec l r (constant S400x300 .f32 0x00000000#32) (ix2 p q)
      = ∑ k : Fin 300, l (ix2 p k) * r (ix2 k q) := by
  rw [Ideal.matmul_constant_zero_apply, ← Equiv.sum_comp (contrEquiv1 dot_S400x300_S300x300_S400x300_1_0_0_1_n_n 300 rfl rfl).symm]
  refine Finset.sum_congr rfl fun k _ => ?_
  have hk := contrEquiv1_symm_val dot_S400x300_S300x300_S400x300_1_0_0_1_n_n 300 rfl rfl k
  have el : dot_S400x300_S300x300_S400x300_1_0_0_1_n_n.lhsIdx (ix2 p q) ((contrEquiv1 dot_S400x300_S300x300_S400x300_1_0_0_1_n_n 300 rfl rfl).symm k) = ix2 p k :=
    funext fun a => Fin.ext (by
      match a with
      | ⟨0, _⟩ => exact dotH2_lhs0 _ _
      | ⟨1, _⟩ => exact (dotH2_lhs1 _ _).trans hk)
  have er : dot_S400x300_S300x300_S400x300_1_0_0_1_n_n.rhsIdx (ix2 p q) ((contrEquiv1 dot_S400x300_S300x300_S400x300_1_0_0_1_n_n 300 rfl rfl).symm k) = ix2 k q :=
    funext fun a => Fin.ext (by
      match a with
      | ⟨0, _⟩ => exact (dotH2_rhs0 _ _).trans hk
      | ⟨1, _⟩ => exact dotH2_rhs1 _ _)
  rw [el, er]

/-- The second kernel's scratch payload at `(p, q)`. -/
theorem k1_pay2_apply (v0 : (⟨2, ![400, 10000]⟩ : Shape).Idx → EReal) (v8 : (⟨2, ![10000, 300]⟩ : Shape).Idx → EReal)
    (v11 : (⟨2, ![1, 300]⟩ : Shape).Idx → EReal) (v18 : (⟨2, ![300, 300]⟩ : Shape).Idx → EReal)
    (p : Fin 400) (q : Fin 300) :
    k1_pay2 (F := Ideal) v0 v8 v11 v18 (ix2 p q)
      = ∑ j : Fin 300, max ((∑ n : Fin 10000, v0 (ix2 p n) * v8 (ix2 n j)) + v11 (ix2 (0 : Fin 1) j)) Cert.Gcn.zero
          * v18 (ix2 j q) := by
  show shapeCast S400x300
      (FloatOps.matmul (F := Ideal) (φ₁ := .bf16) (φ₂ := .bf16) dot_S400x300_S300x300_S400x300_1_0_0_1_n_n none
        (fun i => max
          (FloatOps.matmul (F := Ideal) (φ₁ := .bf16) (φ₂ := .bf16) dot_S400x10000_S10000x300_S400x300_1_0_0_1_n_n none v0
              (shapeCast S10000x300 v8 shapeCasts_S10000x300_S10000x300) (constant S400x300 .f32 0x00000000#32) i
            + broadcastTo S400x300 (shapeCast S1x300 v11 shapeCasts_S1x300_S1x300) broadcasts_S1x300_S400x300 i)
          Cert.Gcn.zero)
        (shapeCast S300x300 v18 shapeCasts_S300x300_S300x300) (constant S400x300 .f32 0x00000000#32))
      shapeCasts_S400x300_S400x300 (ix2 p q) = _
  simp only [shapeCast_self]
  rw [dotH2_apply]
  refine Finset.sum_congr rfl fun j _ => ?_
  beta_reduce
  rw [dotH1_apply, broadcastTo_1b_ab_apply]

end Cert.Gcn.Pay

end
-- ==== Proof.PayOut.lean ====
/- The second kernel's output value read at an index, over the extended reals: a block of 400 rows of
   the adjacency times the second layer's support, plus the bias row broadcast over the rows. The
   product accumulates into a zero array, so its element at (p, q) is the sum over n of
   v0[p, n] * v8[n, q]; the narrowing of the adjacency block and the cast of the bias row to its own
   shape are identities; the broadcast reads the bias row at the column q. -/
import proofs.«125996_g10651518894447_week1_w2_746_19_alg».proof.Proof.Gen.KernelIdeal.Skeleton
import proofs.«125996_g10651518894447_week1_w2_746_19_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.Gcn.Pay

open Cert.KernelIdeal Cert.KernelIdeal.Gen Idealize.ShloMosaic Idealize.ShloMosaic.ValueIdx

/-- The left operand's index at output index `j` and contraction index `c`: row `j 0` … -/
theorem dotO_lhs0 (j : S400x300.Idx) (c : dot_S400x10000_S10000x300_S400x300_1_0_0_1_n_n.contr.Idx) : (dot_S400x10000_S10000x300_S400x300_1_0_0_1_n_n.lhsIdx j c 0).val = (j 0).val := by
  unfold DotDims.lhsIdx
  rw [dif_neg (show ¬(0 : Fin S400x10000.rank) ∈ dot_S400x10000_S10000x300_S400x300_1_0_0_1_n_n.lhsBatch by decide), dif_pos (show (0 : Fin S400x10000.rank) ∈ dot_S400x10000_S10000x300_S400x300_1_0_0_1_n_n.lhsNonContracting by decide)]
  rfl
/-- … and column the contraction coordinate. -/
theorem dotO_lhs1 (j : S400x300.Idx) (c : dot_S400x10000_S10000x300_S400x300_1_0_0_1_n_n.contr.Idx) : (dot_S400x10000_S10000x300_S400x300_1_0_0_1_n_n.lhsIdx j c 1).val = (c ⟨0, by decide⟩).val :=
  dot_S400x10000_S10000x300_S400x300_1_0_0_1_n_n.lhsIdx_val_of_single rfl j c
/-- The right operand's index: row the contraction coordinate … -/
theorem dotO_rhs0 (j : S400x300.Idx) (c : dot_S400x10000_S10000x300_S400x300_1_0_0_1_n_n.contr.Idx) : (dot_S400x10000_S10000x300_S400x300_1_0_0_1_n_n.rhsIdx j c 0).val = (c ⟨0, by decide⟩).val :=
  dot_S400x10000_S10000x300_S400x300_1_0_0_1_n_n.rhsIdx_val_of_single rfl j c
/-- … and column `j 1`. -/
theorem dotO_rhs1 (j : S400x300.Idx) (c : dot_S400x10000_S10000x300_S400x300_1_0_0_1_n_n.contr.Idx) : (dot_S400x10000_S10000x300_S400x300_1_0_0_1_n_n.rhsIdx j c 1).val = (j 1).val := by
  unfold DotDims.rhsIdx
  rw [dif_neg (show ¬(1 : Fin S10000x300.rank) ∈ dot_S400x10000_S10000x300_S400x300_1_0_0_1_n_n.rhsBatch by decide), dif_pos (show (1 : Fin S10000x300.rank) ∈ dot_S400x10000_S10000x300_S400x300_1_0_0_1_n_n.rhsNonContracting by decide)]
  rfl

/-- A [400, 10000] by [10000, 300] product accumulated into the zero array, read at `(p, q)`: the sum over the contraction
    coordinate `k` of the left operand at `(p, k)` times the right at `(k, q)`. -/
theorem dotO_apply {φ₁ φ₂ : FTy} (prec : Option ContractPrecision) (l : FVec Ideal S400x10000 φ₁) (r : FVec Ideal S10000x300 φ₂)
    (p : Fin 400) (q : Fin 300) :
    FloatOps.matmul dot_S400x10000_S10000x300_S400x300_1_0_0_1_n_n prec l r (constant S400x300 .f32 0x00000000#32) (ix2 p q)
      = ∑ k : Fin 10000, l (ix2 p k) * r (ix2 k q) := by
  rw [Ideal.matmul_constant_zero_apply, ← Equiv.sum_comp (contrEquiv1 dot_S400x10000_S10000x300_S400x300_1_0_0_1_n_n 10000 rfl rfl).symm]
  refine Finset.sum_congr rfl fun k _ => ?_
  have hk := contrEquiv1_symm_val dot_S400x10000_S10000x300_S400x300_1_0_0_1_n_n 10000 rfl rfl k
  have el : dot_S400x10000_S10000x300_S400x300_1_0_0_1_n_n.lhsIdx (ix2 p q) ((contrEquiv1 dot_S400x10000_S10000x300_S400x300_1_0_0_1_n_n 10000 rfl rfl).symm k) = ix2 p k :=
    funext fun a => Fin.ext (by
      match a with
      | ⟨0, _⟩ => exact dotO_lhs0 _ _
      | ⟨1, _⟩ => exact (dotO_lhs1 _ _).trans hk)
  have er : dot_S400x10000_S10000x300_S400x300_1_0_0_1_n_n.rhsIdx (ix2 p q) ((contrEquiv1 dot_S400x10000_S10000x300_S400x300_1_0_0_1_n_n 10000 rfl rfl).symm k) = ix2 k q :=
    funext fun a => Fin.ext (by
      match a with
      | ⟨0, _⟩ => exact (dotO_rhs0 _ _).trans hk
      | ⟨1, _⟩ => exact dotO_rhs1 _ _)
  rw [el, er]

/-- The second kernel's output payload at `(p, q)`. -/
theorem k1_pay3_apply (v0 : (⟨2, ![400, 10000]⟩ : Shape).Idx → EReal) (v8 : (⟨2, ![10000, 300]⟩ : Shape).Idx → EReal)
    (v10 : (⟨2, ![1, 300]⟩ : Shape).Idx → EReal) (p : Fin 400) (q : Fin 300) :
    k1_pay3 (F := Ideal) v0 v8 v10 (ix2 p q)
      = (∑ n : Fin 10000, v0 (ix2 p n) * v8 (ix2 n q)) + v10 (ix2 (0 : Fin 1) q) := by
  show FloatOps.matmul (F := Ideal) (φ₁ := .bf16) (φ₂ := .bf16) dot_S400x10000_S10000x300_S400x300_1_0_0_1_n_n none v0 v8
        (constant S400x300 .f32 0x00000000#32) (ix2 p q)
      + broadcastTo S400x300 (shapeCast S1x300 v10 shapeCasts_S1x300_S1x300) broadcasts_S1x300_S400x300 (ix2 p q) = _
  rw [shapeCast_self, broadcastTo_1b_ab_apply, dotO_apply]

end Cert.Gcn.Pay

end
-- ==== Proof.BlocksFused.lean ====
/- The second call's output array, assembled from its blocks, over the extended reals.

   The call runs over 2 × 25 points. At point t < 25 the body stores rows 400 t … 400 t + 399 of the
   second support into the scratch; row n of the finished scratch is what point n / 400 stored at its
   row n % 400, and that point's block of the adjacency is rows 400 (n / 400) …, so the finished
   scratch at (n, q) is sup2From of the arrays as the call finds them. At point t ≥ 25 the body
   multiplies rows 400 (t − 25) … of the adjacency by the finished scratch, adds the second bias row
   and the result is written back to the same rows of the output: block t of the array
   i ↦ outFrom … (i 0) (i 1). Only the points t ≥ 25 write back, and their 25 blocks of 400 rows cover
   the 10000 rows (row r lies in the block of point 25 + r / 400), so the output ends as that array. -/
import proofs.«125996_g10651518894447_week1_w2_746_19_alg».proof.Proof.RegionFusedI
import proofs.«125996_g10651518894447_week1_w2_746_19_alg».proof.Proof.Spec
import proofs.«125996_g10651518894447_week1_w2_746_19_alg».proof.Proof.SpecFrom
import proofs.«125996_g10651518894447_week1_w2_746_19_alg».proof.Proof.PayHidden
import proofs.«125996_g10651518894447_week1_w2_746_19_alg».proof.Proof.PayOut
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open Cert.Gcn (sup2From outFrom outArrFrom)

variable (V : (c : Dev nD) → (b : Ref sig .tc) → Buf (Elt Ideal) ((c : Thread nD τ).loc b))

/-- The zero offsets of a whole-block access. -/
theorem fused_offsets_zero : (![0, 0] : Fin 2 → Nat) = fun _ => 0 := funext fun a => by fin_cases a <;> rfl

/-- The block indices over the grid: the adjacency's block is at block row `t mod 25`; the support, the
    bias rows and the weights are whole; the output's block is at block row `t − 25` (0 before). -/
theorem fused_index : ∀ t : Fin cfg1.N,
    win1_0.index t (0 : Fin 2) = t.val % 25 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val - 25 ∧ win1_5.index t (1 : Fin 2) = 0 :=
  (by decide +kernel : ∀ t : Fin grid1.N, _)

/-- The output is written back exactly at the second layer's points. -/
theorem fused_flush : ∀ t : Fin cfg1.N, (cfg1.win 5).flush t = true ↔ 25 ≤ t.val :=
  (by decide +kernel : ∀ t : Fin grid1.N, win1_5.flush t = true ↔ 25 ≤ t.val)

/-- The grid has fifty points. -/
theorem fused_points (t : Fin cfg1.N) : t.val < 50 := by
  have h : cfg1.N = 50 := N_1
  have := t.isLt
  omega

/-- The adjacency's block at point `t`, at `(p, n)`, is the adjacency at row `400 (t mod 25) + p`. -/
theorem fblk_adj_apply (c : Dev nD) (t : Fin cfg1.N) (p : Fin 400) (n : Fin 10000) (r : Fin 10000)
    (hr : r.val = 400 * (t.val % 25) + p.val) :
    (fblk V c 0 t : (⟨2, ![400, 10000]⟩ : Shape).Idx → EReal) (ix2 p n)
      = (V c main_arg1 : (⟨2, ![10000, 10000]⟩ : Shape).Idx → EReal) (ix2 r n) := by
  obtain ⟨e00, e01, -, -, -, -, -, -, -, -, -, -⟩ := fused_index t
  unfold fblk
  rw [View.read_apply]
  show V c main_arg1 _ = V c main_arg1 _
  congr 1
  funext d
  apply Fin.ext
  match d with
  | ⟨0, _⟩ => show win1_0.index t (0 : Fin 2) * 400 + 1 * p.val = r.val; omega
  | ⟨1, _⟩ => show win1_0.index t (1 : Fin 2) * 10000 + 1 * n.val = n.val; omega

/-- The stored support's block at any point is the stored support. -/
theorem fblk_sup_apply (c : Dev nD) (t : Fin cfg1.N) (a : Fin 10000) (b : Fin 300) :
    (fblk V c 1 t : (⟨2, ![10000, 300]⟩ : Shape).Idx → EReal) (ix2 a b)
      = (V c main_v3 : (⟨2, ![10000, 300]⟩ : Shape).Idx → EReal) (ix2 a b) := by
  obtain ⟨-, -, e10, e11, e20, e21, e30, e31, e40, e41, -, -⟩ := fused_index t
  unfold fblk
  rw [View.read_apply]
  show V c main_v3 _ = V c main_v3 _
  congr 1
  funext d
  apply Fin.ext
  match d with
  | ⟨0, _⟩ => show win1_1.index t (0 : Fin 2) * 10000 + 1 * a.val = a.val; omega
  | ⟨1, _⟩ => show win1_1.index t (1 : Fin 2) * 300 + 1 * b.val = b.val; omega

/-- The first bias row's block at any point is the bias row. -/
theorem fblk_b1_apply (c : Dev nD) (t : Fin cfg1.N) (a : Fin 1) (b : Fin 300) :
    (fblk V c 2 t : (⟨2, ![1, 300]⟩ : Shape).Idx → EReal) (ix2 a b)
      = (V c main_v0 : (⟨2, ![1, 300]⟩ : Shape).Idx → EReal) (ix2 a b) := by
  obtain ⟨-, -, e10, e11, e20, e21, e30, e31, e40, e41, -, -⟩ := fused_index t
  unfold fblk
  rw [View.read_apply]
  show V c main_v0 _ = V c main_v0 _
  congr 1
  funext d
  apply Fin.ext
  match d with
  | ⟨0, _⟩ => show win1_2.index t (0 : Fin 2) * 1 + 1 * a.val = a.val; omega
  | ⟨1, _⟩ => show win1_2.index t (1 : Fin 2) * 300 + 1 * b.val = b.val; omega

/-- The second weights' block at any point is the weights. -/
theorem fblk_w2_apply (c : Dev nD) (t : Fin cfg1.N) (a : Fin 300) (b : Fin 300) :
    (fblk V c 3 t : (⟨2, ![300, 300]⟩ : Shape).Idx → EReal) (ix2 a b)
      = (V c main_v2 : (⟨2, ![300, 300]⟩ : Shape).Idx → EReal) (ix2 a b) := by
  obtain ⟨-, -, e10, e11, e20, e21, e30, e31, e40, e41, -, -⟩ := fused_index t
  unfold fblk
  rw [View.read_apply]
  show V c main_v2 _ = V c main_v2 _
  congr 1
  funext d
  apply Fin.ext
  match d with
  | ⟨0, _⟩ => show win1_3.index t (0 : Fin 2) * 300 + 1 * a.val = a.val; omega
  | ⟨1, _⟩ => show win1_3.index t (1 : Fin 2) * 300 + 1 * b.val = b.val; omega

/-- The second bias row's block at any point is the bias row. -/
theorem fblk_b2_apply (c : Dev nD) (t : Fin cfg1.N) (a : Fin 1) (b : Fin 300) :
    (fblk V c 4 t : (⟨2, ![1, 300]⟩ : Shape).Idx → EReal) (ix2 a b)
      = (V c main_v1 : (⟨2, ![1, 300]⟩ : Shape).Idx → EReal) (ix2 a b) := by
  obtain ⟨-, -, e10, e11, e20, e21, e30, e31, e40, e41, -, -⟩ := fused_index t
  unfold fblk
  rw [View.read_apply]
  show V c main_v1 _ = V c main_v1 _
  congr 1
  funext d
  apply Fin.ext
  match d with
  | ⟨0, _⟩ => show win1_4.index t (0 : Fin 2) * 1 + 1 * a.val = a.val; omega
  | ⟨1, _⟩ => show win1_4.index t (1 : Fin 2) * 300 + 1 * b.val = b.val; omega

/-- The finished scratch at `(n, q)` is the second support computed from the arrays as the call finds
    them: row `n` was stored by point `n / 400` at its row `n % 400`. -/
theorem scrFull_apply (c : Dev nD) (n : Fin 10000) (q : Fin 300) :
    scrFull (F := Ideal) V c (ix2 n q)
      = sup2From (V c main_arg1) (V c main_v3) (V c main_v0) (V c main_v2) n q := by
  have hN : cfg1.N = 50 := N_1
  have hn : n.val < 10000 := n.isLt
  let t : Fin cfg1.N := ⟨n.val / 400, by rw [hN]; omega⟩
  let p : Fin 400 := ⟨n.val % 400, Nat.mod_lt _ (by decide)⟩
  have ht : t.val = n.val / 400 := rfl
  have hp : p.val = n.val % 400 := rfl
  show pay2At (F := Ideal) V c t (ix2 p q) = _
  unfold pay2At
  simp only [View.ld_unit_zero (S := S400x10000) fused_offsets_zero, View.ld_unit_zero (S := S10000x300) fused_offsets_zero,
    View.ld_unit_zero (S := S1x300) fused_offsets_zero, View.ld_unit_zero (S := S300x300) fused_offsets_zero]
  refine (Cert.Gcn.Pay.k1_pay2_apply (fblk V c 0 t) (fblk V c 1 t) (fblk V c 2 t) (fblk V c 3 t) p q).trans ?_
  unfold Cert.Gcn.sup2From
  refine Finset.sum_congr rfl fun j _ => ?_
  exact congrArg₂ (· * ·)
    (congrArg (max · Cert.Gcn.zero)
      (congrArg₂ (· + ·)
        (Finset.sum_congr rfl fun n' _ => congrArg₂ (· * ·)
          (fblk_adj_apply V c t p n' n (by omega)) (fblk_sup_apply V c t n' j))
        (fblk_b1_apply V c t (0 : Fin 1) j)))
    (fblk_w2_apply V c t j q)

/-- An element `(p, q)` of the output's block at a second-layer point `t` sits in the array at row
    `400 (t − 25) + p`. -/
theorem fused_out_emb (t : Fin cfg1.N) (p : Fin 400) (q : Fin 300) (r : Fin 10000)
    (hr : r.val = 400 * (t.val - 25) + p.val) :
    (((cfg1.win 5).blk t).view.emb (ix2 p q) : (⟨2, ![10000, 300]⟩ : Shape).Idx) = ix2 r q := by
  obtain ⟨-, -, -, -, -, -, -, -, -, -, e50, e51⟩ := fused_index t
  funext d
  apply Fin.ext
  match d with
  | ⟨0, _⟩ => show win1_5.index t (0 : Fin 2) * 400 + 1 * p.val = r.val; omega
  | ⟨1, _⟩ => show win1_5.index t (1 : Fin 2) * 300 + 1 * q.val = q.val; omega

/-- What a second-layer point `t` writes back is block `t` of the output array computed from the arrays
    as the call finds them. -/
theorem fused_flushed (c : Dev nD) (t : Fin cfg1.N) (ht : 25 ≤ t.val) :
    (fdat (F := Ideal) V c).flushed 5 t
      = ((cfg1.win 5).blk t).view.read (Elt Ideal) (outArrFrom (V c main_arg1) (V c main_v3) (V c main_v0) (V c main_v2) (V c main_v1)) := by
  have ht50 := fused_points t
  show (cfg1.win 5).cut (grid1.coords t) ((fdat V c).after 5 t) = _
  rw [fafter5]
  unfold fusedOut
  rw [View.canon_unit_zero fused_offsets_zero]
  simp only [View.ld_unit_zero (S := S400x10000) fused_offsets_zero, View.ld_unit_zero (S := S10000x300) fused_offsets_zero,
    View.ld_unit_zero (S := S1x300) fused_offsets_zero]
  funext j
  obtain ⟨p, q, rfl⟩ : ∃ (p : Fin 400) (q : Fin 300), j = ix2 p q :=
    ⟨j 0, j 1, eq_ix2 (n0 := 400) (n1 := 300) j⟩
  have hp : p.val < 400 := p.isLt
  let r : Fin 10000 := ⟨400 * (t.val - 25) + p.val, by omega⟩
  have hr : r.val = 400 * (t.val - 25) + p.val := rfl
  show k1_pay3 (F := Ideal) (fblk V c 0 t) (scrFull V c) (fblk V c 4 t) (ix2 p q)
    = outArrFrom (V c main_arg1) (V c main_v3) (V c main_v0) (V c main_v2) (V c main_v1) (((cfg1.win 5).blk t).view.emb (ix2 p q))
  refine (Cert.Gcn.Pay.k1_pay3_apply (fblk V c 0 t) (scrFull V c) (fblk V c 4 t) p q).trans ?_
  refine Eq.trans ?_ (congrArg (outArrFrom (V c main_arg1) (V c main_v3) (V c main_v0) (V c main_v2) (V c main_v1)) (fused_out_emb t p q r hr)).symm
  rw [Cert.Gcn.outArrFrom_ix2]
  unfold Cert.Gcn.outFrom
  exact congrArg₂ (· + ·)
    (Finset.sum_congr rfl fun n _ => congrArg₂ (· * ·)
      (fblk_adj_apply V c t p n r (by omega)) (scrFull_apply V c n q))
    (fblk_b2_apply V c t (0 : Fin 1) q)

/-- An index of the output array is in point `t`'s block iff each coordinate is in the block's range. -/
theorem fused_mem_blk (t : Fin cfg1.N) (i : S10000x300.Idx) :
    i ∈ ((cfg1.win 5).blk t).view.set ↔ ∀ a : Fin 2, win1_5.index t a * S400x300.size a ≤ (i a).val
      ∧ (i a).val < win1_5.index t a * S400x300.size a + S400x300.size a := by
  show i ∈ ((View.whole main_v4).slice (win1_5.rect t)).set ↔ _
  rw [View.set_slice_whole, Rect.mem_set_unit]
  exact Iff.rfl

/-- Every index of the output array is in the block of a point that writes back: row `r` in that of
    point `25 + r / 400`. -/
theorem fused_cover (i : S10000x300.Idx) :
    ∃ t : Fin cfg1.N, (cfg1.win 5).flush t = true ∧ i ∈ ((cfg1.win 5).blk t).view.set := by
  have hN : cfg1.N = 50 := N_1
  have h0 : (i 0).val < 10000 := (i 0).isLt
  have h1 : (i 1).val < 300 := (i 1).isLt
  let t : Fin cfg1.N := ⟨25 + (i 0).val / 400, by rw [hN]; omega⟩
  have ht : t.val = 25 + (i 0).val / 400 := rfl
  obtain ⟨-, -, -, -, -, -, -, -, -, -, e50, e51⟩ := fused_index t
  refine ⟨t, (fused_flush t).mpr (by omega), ?_⟩
  rw [fused_mem_blk]
  intro a
  match a with
  | ⟨0, _⟩ =>
    show win1_5.index t (0 : Fin 2) * 400 ≤ (i 0).val ∧ (i 0).val < win1_5.index t (0 : Fin 2) * 400 + 400
    omega
  | ⟨1, _⟩ =>
    show win1_5.index t (1 : Fin 2) * 300 ≤ (i 1).val ∧ (i 1).val < win1_5.index t (1 : Fin 2) * 300 + 300
    omega

/-- The output array after the call: the second layer computed from the adjacency, the stored first
    support, the bias rows and the second weights as the call finds them. -/
theorem fused_final (c : Dev nD) :
    (fdat (F := Ideal) V c).arrAt 5 cfg1.N = outArrFrom (V c main_arg1) (V c main_v3) (V c main_v0) (V c main_v2) (V c main_v1) :=
  (fdat (F := Ideal) V c).arrAt_eq_of_cover 5 (outArrFrom (V c main_arg1) (V c main_v3) (V c main_v0) (V c main_v2) (V c main_v1))
    (fun t hf => fused_flushed V c t ((fused_flush t).mp hf)) fused_cover

end Cert.KernelIdeal.Hand

end
-- ==== Proof.KernelValue.lean ====
/-
  The idealized kernel's result is the specification. The second call's output array is, row by row, the block of
  `adj` times the scratch plus the second bias, the scratch being, row by row, the rectified block of `adj` times
  the first support plus the first bias, times `W2`; with the operands read back to the launch memory (the first
  support is `x · W1`, the bias rows are the biases, the narrowed `W2` is `W2`) this is
  `adj · (relu (adj · (x · W1) + b1) · W2) + b2`, sum for sum and in the same grouping as the specification: no
  algebraic law is needed, only the definitions unfolded.
-/
import proofs.«125996_g10651518894447_week1_w2_746_19_alg».proof.Proof.EntryI
import proofs.«125996_g10651518894447_week1_w2_746_19_alg».proof.Proof.BlocksFused
import proofs.«125996_g10651518894447_week1_w2_746_19_alg».proof.Proof.Spec
import proofs.«125996_g10651518894447_week1_w2_746_19_alg».proof.Proof.SpecFrom

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- What the second call's write-backs leave in the result's array is the specification of the launch arguments. -/
theorem kernel_final (c : Dev nD) :
    (fdat (F := Ideal) (U2 m ρ) c).arrAt 5 cfg1.N
      = Cert.Gcn.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [fused_final (U2 m ρ) c, U2_adj]
  exact Cert.Gcn.outArrFrom_eq_out _ _ _ _ _ _ _ _ _ _
    (fun n j => (congrFun (U2_sup1 m ρ c) (ix2 n j)).trans rfl)
    (U2_b1_apply m ρ c)
    (fun j q => congrFun (U2_w2 m ρ c) (ix2 j q))
    (U2_b2_apply m ρ c)

end Cert.KernelIdeal.Hand

end
-- ==== Proof.RefIsSpec.lean ====
/- The reference's result is the two-layer graph convolution of the specification.

   The reference's thirteen host operations compose to one term of the six arguments; read at the index
   (r, q), stage by stage: the first product is sup1, the second product plus the broadcast bias
   under the maximum with the broadcast zero is hid, the third product is sup2, and the fourth product
   plus the second broadcast bias is the output. Each product is the sum over its one contraction
   coordinate; each broadcast reads its operand at the column coordinate. -/
import proofs.«125996_g10651518894447_week1_w2_746_19_alg».proof.Proof.Gen.ReferenceIdeal.Read
import proofs.«125996_g10651518894447_week1_w2_746_19_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The left operand's index of the product v0 at output `(r, c)` and contraction coordinate `k` is `(r, k)` … -/
theorem lidx_v0_ix2 (r : Fin 10000) (c : Fin 300) (k : Fin 300) : lidx_main_v0 (ix2 r c) k = ix2 r k := by
  funext a; match a with | ⟨0, _⟩ => rfl | ⟨1, _⟩ => rfl
/-- … and the right operand's is `(k, c)`. -/
theorem ridx_v0_ix2 (r : Fin 10000) (c : Fin 300) (k : Fin 300) : ridx_main_v0 (ix2 r c) k = ix2 k c := by
  funext a; match a with | ⟨0, _⟩ => rfl | ⟨1, _⟩ => rfl

/-- The left operand's index of the product v1 at output `(r, c)` and contraction coordinate `k` is `(r, k)` … -/
theorem lidx_v1_ix2 (r : Fin 10000) (c : Fin 300) (k : Fin 10000) : lidx_main_v1 (ix2 r c) k = ix2 r k := by
  funext a; match a with | ⟨0, _⟩ => rfl | ⟨1, _⟩ => rfl
/-- … and the right operand's is `(k, c)`. -/
theorem ridx_v1_ix2 (r : Fin 10000) (c : Fin 300) (k : Fin 10000) : ridx_main_v1 (ix2 r c) k = ix2 k c := by
  funext a; match a with | ⟨0, _⟩ => rfl | ⟨1, _⟩ => rfl

/-- The left operand's index of the product v6 at output `(r, c)` and contraction coordinate `k` is `(r, k)` … -/
theorem lidx_v6_ix2 (r : Fin 10000) (c : Fin 300) (k : Fin 300) : lidx_main_v6 (ix2 r c) k = ix2 r k := by
  funext a; match a with | ⟨0, _⟩ => rfl | ⟨1, _⟩ => rfl
/-- … and the right operand's is `(k, c)`. -/
theorem ridx_v6_ix2 (r : Fin 10000) (c : Fin 300) (k : Fin 300) : ridx_main_v6 (ix2 r c) k = ix2 k c := by
  funext a; match a with | ⟨0, _⟩ => rfl | ⟨1, _⟩ => rfl

/-- The left operand's index of the product v7 at output `(r, c)` and contraction coordinate `k` is `(r, k)` … -/
theorem lidx_v7_ix2 (r : Fin 10000) (c : Fin 300) (k : Fin 10000) : lidx_main_v7 (ix2 r c) k = ix2 r k := by
  funext a; match a with | ⟨0, _⟩ => rfl | ⟨1, _⟩ => rfl
/-- … and the right operand's is `(k, c)`. -/
theorem ridx_v7_ix2 (r : Fin 10000) (c : Fin 300) (k : Fin 10000) : ridx_main_v7 (ix2 r c) k = ix2 k c := by
  funext a; match a with | ⟨0, _⟩ => rfl | ⟨1, _⟩ => rfl

/-- The row broadcast of a bias reads row `0` at the column … -/
theorem idx_v3_ix2 (r : Fin 10000) (c : Fin 300) : idx_main_v3 (ix2 r c) = ix2 (0 : Fin 1) c := by
  funext a; match a with | ⟨0, _⟩ => rfl | ⟨1, _⟩ => rfl
/-- … and the bias as a one-row array reads the bias at the column. -/
theorem idx_v2_ix2 (c : Fin 300) : idx_main_v2 (ix2 (0 : Fin 1) c) = ix1 c := by
  funext a; match a with | ⟨0, _⟩ => rfl
/-- The same two for the second bias. -/
theorem idx_v9_ix2 (r : Fin 10000) (c : Fin 300) : idx_main_v9 (ix2 r c) = ix2 (0 : Fin 1) c := by
  funext a; match a with | ⟨0, _⟩ => rfl | ⟨1, _⟩ => rfl
theorem idx_v8_ix2 (c : Fin 300) : idx_main_v8 (ix2 (0 : Fin 1) c) = ix1 c := by
  funext a; match a with | ⟨0, _⟩ => rfl

/-- The first product at `(n, j)` is the first layer's support. -/
theorem v0_eq_sup1 (a0 : (⟨S10000x300, .f32⟩ : BufTy).Contents (Elt Ideal)) (a2 : (⟨S300x300, .f32⟩ : BufTy).Contents (Elt Ideal)) (n : Fin 10000) (j : Fin 300) :
    val_main_v0 (F := Ideal) a0 a2 (ix2 n j) = Cert.Gcn.sup1 a0 a2 n j := by
  rw [val_main_v0_apply]
  exact Finset.sum_congr rfl fun k _ => by rw [lidx_v0_ix2, ridx_v0_ix2]

/-- The rectified sum at `(r, j)` is the hidden layer. -/
theorem v5_eq_hid (a0 : (⟨S10000x300, .f32⟩ : BufTy).Contents (Elt Ideal)) (a1 : (⟨S10000x10000, .f32⟩ : BufTy).Contents (Elt Ideal))
    (a2 : (⟨S300x300, .f32⟩ : BufTy).Contents (Elt Ideal)) (a3 : (⟨S300, .f32⟩ : BufTy).Contents (Elt Ideal)) (r : Fin 10000) (j : Fin 300) :
    val_main_v5 (F := Ideal) a0 a1 a2 a3 (ix2 r j) = Cert.Gcn.hid a0 a1 a2 a3 r j := by
  rw [val_main_v5_apply, val_main_v4_apply, val_main_v1_apply, val_main_v3_apply, val_main_v2_apply,
    val_main_call0_v0_apply, val_main_call0_cst_apply, idx_v3_ix2, idx_v2_ix2,
    Ideal.maximumf_def, Ideal.addf_def, Ideal.ofBits_def]
  have h : (∑ k : Fin 10000, a1 (lidx_main_v1 (ix2 r j) k) * val_main_v0 (F := Ideal) a0 a2 (ridx_main_v1 (ix2 r j) k))
      = ∑ n : Fin 10000, a1 (ix2 r n) * Cert.Gcn.sup1 a0 a2 n j :=
    Finset.sum_congr rfl fun n _ => by rw [lidx_v1_ix2, ridx_v1_ix2, v0_eq_sup1]
  rw [h]
  rfl

/-- The third product at `(r, q)` is the second layer's support. -/
theorem v6_eq_sup2 (a0 : (⟨S10000x300, .f32⟩ : BufTy).Contents (Elt Ideal)) (a1 : (⟨S10000x10000, .f32⟩ : BufTy).Contents (Elt Ideal))
    (a2 : (⟨S300x300, .f32⟩ : BufTy).Contents (Elt Ideal)) (a3 : (⟨S300, .f32⟩ : BufTy).Contents (Elt Ideal)) (a4 : (⟨S300x300, .f32⟩ : BufTy).Contents (Elt Ideal)) (r : Fin 10000) (q : Fin 300) :
    val_main_v6 (F := Ideal) a0 a1 a2 a3 a4 (ix2 r q) = Cert.Gcn.sup2 a0 a1 a2 a3 a4 r q := by
  rw [val_main_v6_apply]
  exact Finset.sum_congr rfl fun k _ => by rw [lidx_v6_ix2, ridx_v6_ix2, v5_eq_hid]

/-- The last sum at `(r, q)` is the output. -/
theorem v10_eq_outAt (a0 : (⟨S10000x300, .f32⟩ : BufTy).Contents (Elt Ideal)) (a1 : (⟨S10000x10000, .f32⟩ : BufTy).Contents (Elt Ideal))
    (a2 : (⟨S300x300, .f32⟩ : BufTy).Contents (Elt Ideal)) (a3 : (⟨S300, .f32⟩ : BufTy).Contents (Elt Ideal))
    (a4 : (⟨S300x300, .f32⟩ : BufTy).Contents (Elt Ideal)) (a5 : (⟨S300, .f32⟩ : BufTy).Contents (Elt Ideal)) (r : Fin 10000) (q : Fin 300) :
    val_main_v10 (F := Ideal) a0 a1 a2 a3 a4 a5 (ix2 r q) = Cert.Gcn.outAt a0 a1 a2 a3 a4 a5 r q := by
  rw [val_main_v10_apply, val_main_v7_apply, val_main_v9_apply, val_main_v8_apply, idx_v9_ix2, idx_v8_ix2,
    Ideal.addf_def]
  have h : (∑ k : Fin 10000, a1 (lidx_main_v7 (ix2 r q) k) * val_main_v6 (F := Ideal) a0 a1 a2 a3 a4 (ridx_main_v7 (ix2 r q) k))
      = ∑ n : Fin 10000, a1 (ix2 r n) * Cert.Gcn.sup2 a0 a1 a2 a3 a4 n q :=
    Finset.sum_congr rfl fun n _ => by rw [lidx_v7_ix2, ridx_v7_ix2, v6_eq_sup2]
  rw [h]
  rfl

/-- The staged value of the reference's result is the specification's output array. -/
theorem val_main_v10_eq_out (a0 : (⟨S10000x300, .f32⟩ : BufTy).Contents (Elt Ideal)) (a1 : (⟨S10000x10000, .f32⟩ : BufTy).Contents (Elt Ideal))
    (a2 : (⟨S300x300, .f32⟩ : BufTy).Contents (Elt Ideal)) (a3 : (⟨S300, .f32⟩ : BufTy).Contents (Elt Ideal))
    (a4 : (⟨S300x300, .f32⟩ : BufTy).Contents (Elt Ideal)) (a5 : (⟨S300, .f32⟩ : BufTy).Contents (Elt Ideal)) :
    val_main_v10 (F := Ideal) a0 a1 a2 a3 a4 a5 = Cert.Gcn.out a0 a1 a2 a3 a4 a5 := by
  funext i
  obtain ⟨r, q, rfl⟩ : ∃ (r : Fin 10000) (q : Fin 300), i = ix2 r q := ⟨i 0, i 1, eq_ix2 (n0 := 10000) (n1 := 300) i⟩
  exact (v10_eq_outAt a0 a1 a2 a3 a4 a5 r q).trans (Cert.Gcn.out_ix2 a0 a1 a2 a3 a4 a5 r q).symm

/-- The term the reference's run states for its result, over the six arguments' contents, is the
    specification's output array. -/
theorem main_v10_eq_out (a0 : (⟨S10000x300, .f32⟩ : BufTy).Contents (Elt Ideal)) (a1 : (⟨S10000x10000, .f32⟩ : BufTy).Contents (Elt Ideal))
    (a2 : (⟨S300x300, .f32⟩ : BufTy).Contents (Elt Ideal)) (a3 : (⟨S300, .f32⟩ : BufTy).Contents (Elt Ideal))
    (a4 : (⟨S300x300, .f32⟩ : BufTy).Contents (Elt Ideal)) (a5 : (⟨S300, .f32⟩ : BufTy).Contents (Elt Ideal)) :
    addf (F := Ideal) (Host.dotGeneral (F := Ideal) (φ₁ := .f32) (φ₂ := .f32) dot_S10000x10000_S10000x300_S10000x300_1_0_0_1_n_n none (a1) (Host.dotGeneral (F := Ideal) (φ₁ := .f32) (φ₂ := .f32) dot_S10000x300_S300x300_S10000x300_1_0_0_1_n_n none (maximumf (F := Ideal) (addf (F := Ideal) (Host.dotGeneral (F := Ideal) (φ₁ := .f32) (φ₂ := .f32) dot_S10000x10000_S10000x300_S10000x300_1_0_0_1_n_n none (a1) (Host.dotGeneral (F := Ideal) (φ₁ := .f32) (φ₂ := .f32) dot_S10000x300_S300x300_S10000x300_1_0_0_1_n_n none (a0) (a2))) (broadcastInDim S10000x300 ![0, 1] bcast_S1x300_S10000x300_0_1 (broadcastInDim S1x300 ![1] bcast_S300_S1x300_1 (a3)))) (broadcastInDim S10000x300 ![] bcast_S_S10000x300 (constant (F := Ideal) S_ .f32 0x00000000#32))) (a4))) (broadcastInDim S10000x300 ![0, 1] bcast_S1x300_S10000x300_0_1 (broadcastInDim S1x300 ![1] bcast_S300_S1x300_1 (a5)))
      = Cert.Gcn.out a0 a1 a2 a3 a4 a5 :=
  (val_main_v10_eq (F := Ideal) a0 a1 a2 a3 a4 a5).trans (val_main_v10_eq_out a0 a1 a2 a3 a4 a5)

end Cert.ReferenceIdeal.RefValue

end
-- ==== Proof.lean ====
/-
  The certificate of a two-layer dense graph convolution, `out = adj · (relu (adj · (x · W1) + b1) · W2) + b2`,
  computed by two pallas_calls against its plain reference.
  The kernel first forms the support `x · W1` in blocks of 1000 rows. Its second call runs over 2 × 25 points: at the
  first 25 it fills a scratch, 400 rows per point, with `relu (adj_block · support + b1) · W2`; at the last 25 it
  writes the output, 400 rows per point, as `adj_block · scratch + b2`. The row blocks span whole rows of `adj`, so
  every entry is one sum over all 10000 (or 300) terms on both sides, and the two sides group their products the
  same way: over the extended reals they are the same function of the arguments, whatever the arguments hold.
  The frames: each kernel program is run item by item — three host operations, the first call, the second call —
  every unscoped buffer followed through the items; the scratch's invariant is that its first `400 k` rows are final
  before point `k`. The reference's frame and value are its run read back.
-/
import proofs.«125996_g10651518894447_week1_w2_746_19_alg».proof.Defs
import proofs.«125996_g10651518894447_week1_w2_746_19_alg».proof.Proof.Gen.Kernel
import proofs.«125996_g10651518894447_week1_w2_746_19_alg».proof.Proof.Gen.KernelIdeal
import proofs.«125996_g10651518894447_week1_w2_746_19_alg».proof.Proof.Gen.ReferenceIdeal
import proofs.«125996_g10651518894447_week1_w2_746_19_alg».proof.Proof.Gen.Pre_finite_inputs
import proofs.«125996_g10651518894447_week1_w2_746_19_alg».proof.Proof.Gen.ReferenceIdeal.Run
import proofs.«125996_g10651518894447_week1_w2_746_19_alg».proof.Proof.RunK
import proofs.«125996_g10651518894447_week1_w2_746_19_alg».proof.Proof.RunI
import proofs.«125996_g10651518894447_week1_w2_746_19_alg».proof.Proof.KernelValue
import proofs.«125996_g10651518894447_week1_w2_746_19_alg».proof.Proof.RefIsSpec
import Idealize.ShloMosaic.Adequacy
import Idealize.ShloMosaic.Init

noncomputable section

namespace Cert.Proof

open Idealize.ShloMosaic Idealize.ShloMosaic.TcCoe Idealize.SL.Sem

/-- The word-level kernel runs to the end and leaves its arguments as launched. -/
theorem frame_kernel : Cert.frame_Kernel := fun m ρ _ => Cert.Kernel.Hand.frame m ρ
/-- So does its idealization. -/
theorem frame_kernelIdeal : Cert.frame_KernelIdeal := fun m ρ _ => Cert.KernelIdeal.Hand.frame m ρ
/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end with the specification of the arguments in
    their result arrays. -/
theorem algebraic : Cert.algebraic_KernelIdeal_ReferenceIdeal := by
  intro m ρ m' ρ' _ hagree
  refine ⟨fun c => Cert.Gcn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Hand.kernel_final m ρ c), (h c).2⟩)
      (Cert.KernelIdeal.Hand.run_result (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.RefValue.main_v10_eq_out, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
